-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x40 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x40 .f32) (main_arg9 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S1650000x128 : Shape := ⟨2, ![1650000, 128]⟩
abbrev S1x128 : Shape := ⟨2, ![1, 128]⟩
abbrev S1x40 : Shape := ⟨2, ![1, 40]⟩
abbrev S50000x40 : Shape := ⟨2, ![50000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 107
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000, .f32⟩
  | .hbm, ⟨49, _⟩ => ⟨S1650000, .f32⟩
  | .hbm, ⟨50, _⟩ => ⟨S1650000x1, .f32⟩
  | .hbm, ⟨51, _⟩ => ⟨S50000x128, .f32⟩
  | .hbm, ⟨52, _⟩ => ⟨S_, .i32⟩
  | .hbm, ⟨53, _⟩ => ⟨S1650000, .i32⟩
  | .hbm, ⟨54, _⟩ => ⟨S1650000, .i1⟩
  | .hbm, ⟨55, _⟩ => ⟨S_, .i32⟩
  | .hbm, ⟨56, _⟩ => ⟨S1650000, .i32⟩
  | .hbm, ⟨57, _⟩ => ⟨S1650000, .i32⟩
  | .hbm, ⟨58, _⟩ => ⟨S1650000, .i32⟩
  | .hbm, ⟨59, _⟩ => ⟨S1650000x1, .i32⟩
  | .hbm, ⟨60, _⟩ => ⟨S1650000x128, .f32⟩
  | .hbm, ⟨61, _⟩ => ⟨S1650000x128, .f32⟩
  | .hbm, ⟨62, _⟩ => ⟨S1650000x128, .f32⟩
  | .hbm, ⟨63, _⟩ => ⟨S_, .f32⟩
  | .hbm, ⟨64, _⟩ => ⟨S50000x128, .f32⟩
  | .hbm, ⟨65, _⟩ => ⟨S1650000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S1650000, .i32⟩
  | .hbm, ⟨72, _⟩ => ⟨S1650000, .i1⟩
  | .hbm, ⟨73, _⟩ => ⟨S_, .i32⟩
  | .hbm, ⟨74, _⟩ => ⟨S1650000, .i32⟩
  | .hbm, ⟨75, _⟩ => ⟨S1650000, .i32⟩
  | .hbm, ⟨76, _⟩ => ⟨S1650000, .i32⟩
  | .hbm, ⟨77, _⟩ => ⟨S1650000x1, .i32⟩
  | .hbm, ⟨78, _⟩ => ⟨S1650000x128, .f32⟩
  | .hbm, ⟨79, _⟩ => ⟨S1650000x128, .f32⟩
  | .hbm, ⟨80, _⟩ => ⟨S1650000x128, .f32⟩
  | .hbm, ⟨81, _⟩ => ⟨S_, .f32⟩
  | .hbm, ⟨82, _⟩ => ⟨S50000x128, .f32⟩
  | .hbm, ⟨83, _⟩ => ⟨S1650000x1, .i32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S_, .i32⟩
  | .hbm, ⟨89, _⟩ => ⟨S1650000, .i32⟩
  | .hbm, ⟨90, _⟩ => ⟨S1650000, .i1⟩
  | .hbm, ⟨91, _⟩ => ⟨S_, .i32⟩
  | .hbm, ⟨92, _⟩ => ⟨S1650000, .i32⟩
  | .hbm, ⟨93, _⟩ => ⟨S1650000, .i32⟩
  | .hbm, ⟨94, _⟩ => ⟨S1650000, .i32⟩
  | .hbm, ⟨95, _⟩ => ⟨S1650000x1, .i32⟩
  | .hbm, ⟨96, _⟩ => ⟨S1650000x128, .f32⟩
  | .hbm, ⟨97, _⟩ => ⟨S1650000x128, .f32⟩
  | .hbm, ⟨98, _⟩ => ⟨S1650000x128, .f32⟩
  | .hbm, ⟨99, _⟩ => ⟨S_, .f32⟩
  | .hbm, ⟨100, _⟩ => ⟨S50000x128, .f32⟩
  | .hbm, ⟨101, _⟩ => ⟨S1650000x1, .i32⟩
  | .hbm, ⟨102, _⟩ => ⟨S50000x128, .f32⟩
  | .hbm, ⟨103, _⟩ => ⟨S1x128, .f32⟩
  | .hbm, ⟨104, _⟩ => ⟨S50000x128, .f32⟩
  | .hbm, ⟨105, _⟩ => ⟨S1x40, .f32⟩
  | .hbm, ⟨106, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x40, .f32⟩
  | .local _ .vmem, ⟨33, _⟩ => ⟨S1x40, .f32⟩
  | .local _ .vmem, ⟨34, _⟩ => ⟨S5000x40, .f32⟩
  | .local _ .vmem, ⟨35, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x40 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x40 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x40.size a ≤ S128x40.size a
  hwx6_1 : ∀ i : grid6.Coords, EltTy.bits .f32 = 32 ∨ (Rect.block (s := S128x40) S128x40.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x40.size a ≤ S1x40.size a
  hwx6_2 : ∀ i : grid6.Coords, EltTy.bits .f32 = 32 ∨ (Rect.block (s := S1x40) S1x40.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x40.size a ≤ S50000x40.size a
  hwx6_3 : ∀ i : grid6.Coords, EltTy.bits .f32 = 32 ∨ (Rect.block (s := S50000x40) S5000x40.size (cc6_transform_3 i) (hinb6_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v75) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S1x40.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v77) S5000x40.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x40 : Shape := ⟨2, ![50000, 40]⟩
abbrev S1x40 : Shape := ⟨2, ![1, 40]⟩
abbrev S50000x1 : Shape := ⟨2, ![50000, 1]⟩

abbrev nBuf : Space → Nat
  | .hbm => 174
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x40, .f32⟩
  | 9 => ⟨S40, .f32⟩
  | 10 => ⟨S50000, .i32⟩
  | 11 => ⟨S1x1600000, .i32⟩
  | 12 => ⟨S1600000, .i32⟩
  | 13 => ⟨S1650000, .i32⟩
  | 14 => ⟨S1x1600000, .i32⟩
  | 15 => ⟨S1600000, .i32⟩
  | 16 => ⟨S1650000, .i32⟩
  | 17 => ⟨S_, .f32⟩
  | 18 => ⟨S1650000, .f32⟩
  | 19 => ⟨S_, .f32⟩
  | 20 => ⟨S50000, .f32⟩
  | 21 => ⟨S1650000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S1650000, .i32⟩
  | 33 => ⟨S1650000, .i1⟩
  | 34 => ⟨S_, .i32⟩
  | 35 => ⟨S1650000, .i32⟩
  | 36 => ⟨S1650000, .i32⟩
  | 37 => ⟨S1650000, .i32⟩
  | 38 => ⟨S1650000x1, .i32⟩
  | 39 => ⟨S1650000, .f32⟩
  | 40 => ⟨S_, .i32⟩
  | 41 => ⟨S1650000, .i32⟩
  | 42 => ⟨S1650000, .i1⟩
  | 43 => ⟨S_, .i32⟩
  | 44 => ⟨S1650000, .i32⟩
  | 45 => ⟨S1650000, .i32⟩
  | 46 => ⟨S1650000, .i32⟩
  | 47 => ⟨S1650000x1, .i32⟩
  | 48 => ⟨S1650000, .f32⟩
  | 49 => ⟨S1650000, .f32⟩
  | 50 => ⟨S50000x128, .f32⟩
  | 51 => ⟨S_, .i32⟩
  | 52 => ⟨S1650000, .i32⟩
  | 53 => ⟨S1650000, .i1⟩
  | 54 => ⟨S_, .i32⟩
  | 55 => ⟨S1650000, .i32⟩
  | 56 => ⟨S1650000, .i32⟩
  | 57 => ⟨S1650000, .i32⟩
  | 58 => ⟨S1650000x1, .i32⟩
  | 59 => ⟨S1650000x128, .f32⟩
  | 60 => ⟨S1650000x1, .f32⟩
  | 61 => ⟨S1650000x128, .f32⟩
  | 62 => ⟨S1650000x128, .f32⟩
  | 63 => ⟨S_, .f32⟩
  | 64 => ⟨S50000x128, .f32⟩
  | 65 => ⟨S1650000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .i1⟩
  | 73 => ⟨S_, .f32⟩
  | 74 => ⟨S50000x128, .f32⟩
  | 75 => ⟨S50000x128, .i1⟩
  | 76 => ⟨S_, .f32⟩
  | 77 => ⟨S_, .f32⟩
  | 78 => ⟨S50000x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S50000x128, .f32⟩
  | 86 => ⟨S_, .i32⟩
  | 87 => ⟨S1650000, .i32⟩
  | 88 => ⟨S1650000, .i1⟩
  | 89 => ⟨S_, .i32⟩
  | 90 => ⟨S1650000, .i32⟩
  | 91 => ⟨S1650000, .i32⟩
  | 92 => ⟨S1650000, .i32⟩
  | 93 => ⟨S1650000x1, .i32⟩
  | 94 => ⟨S1650000x128, .f32⟩
  | 95 => ⟨S1650000x1, .f32⟩
  | 96 => ⟨S1650000x128, .f32⟩
  | 97 => ⟨S1650000x128, .f32⟩
  | 98 => ⟨S_, .f32⟩
  | 99 => ⟨S50000x128, .f32⟩
  | 100 => ⟨S1650000x1, .i32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .i1⟩
  | 108 => ⟨S_, .f32⟩
  | 109 => ⟨S50000x128, .f32⟩
  | 110 => ⟨S50000x128, .i1⟩
  | 111 => ⟨S_, .f32⟩
  | 112 => ⟨S_, .f32⟩
  | 113 => ⟨S50000x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S50000x128, .f32⟩
  | 120 => ⟨S50000x128, .f32⟩
  | 121 => ⟨S_, .i32⟩
  | 122 => ⟨S1650000, .i32⟩
  | 123 => ⟨S1650000, .i1⟩
  | 124 => ⟨S_, .i32⟩
  | 125 => ⟨S1650000, .i32⟩
  | 126 => ⟨S1650000, .i32⟩
  | 127 => ⟨S1650000, .i32⟩
  | _ => ⟨S50000x128, .f32⟩

abbrev hbmTy0_1 (i : Nat) : BufTy := match i % 128 with
  | 0 => ⟨S1650000x1, .i32⟩
  | 1 => ⟨S1650000x128, .f32⟩
  | 2 => ⟨S1650000x1, .f32⟩
  | 3 => ⟨S1650000x128, .f32⟩
  | 4 => ⟨S1650000x128, .f32⟩
  | 5 => ⟨S_, .f32⟩
  | 6 => ⟨S50000x128, .f32⟩
  | 7 => ⟨S1650000x1, .i32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .i1⟩
  | 15 => ⟨S_, .f32⟩
  | 16 => ⟨S50000x128, .f32⟩
  | 17 => ⟨S50000x128, .i1⟩
  | 18 => ⟨S_, .f32⟩
  | 19 => ⟨S_, .f32⟩
  | 20 => ⟨S50000x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S50000x128, .f32⟩
  | 27 => ⟨S50000x40, .f32⟩
  | 28 => ⟨S1x40, .f32⟩
  | 29 => ⟨S50000x40, .f32⟩
  | 30 => ⟨S50000x40, .f32⟩
  | 31 => ⟨S_, .f32⟩
  | 32 => ⟨S50000, .f32⟩
  | 33 => ⟨S_, .f32⟩
  | 34 => ⟨S50000, .f32⟩
  | 35 => ⟨S50000, .f32⟩
  | 36 => ⟨S50000x1, .f32⟩
  | 37 => ⟨S50000x40, .f32⟩
  | 38 => ⟨S50000x40, .f32⟩
  | 39 => ⟨S50000x40, .f32⟩
  | 40 => ⟨S_, .f32⟩
  | 41 => ⟨S50000, .f32⟩
  | 42 => ⟨S50000x1, .f32⟩
  | 43 => ⟨S50000x1, .f32⟩
  | 44 => ⟨S50000x40, .f32⟩
  | 45 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_cst_0 : Ref sig .tc := ⟨.hbm, 73, rfl⟩
abbrev main_call1_v2 : Ref sig .tc := ⟨.hbm, 74, rfl⟩
abbrev main_call1_v3 : Ref sig .tc := ⟨.hbm, 75, rfl⟩
abbrev main_call1_cst_1 : Ref sig .tc := ⟨.hbm, 76, rfl⟩
abbrev main_call1_call0_v0 : Ref sig .tc := ⟨.hbm, 77, rfl⟩
abbrev main_call1_call0_v1 : Ref sig .tc := ⟨.hbm, 78, rfl⟩
abbrev main_call1_v4 : Ref sig .tc := ⟨.hbm, 79, rfl⟩
abbrev main_call1_v5 : Ref sig .tc := ⟨.hbm, 80, rfl⟩
abbrev main_call1_cst_2 : Ref sig .tc := ⟨.hbm, 81, rfl⟩
abbrev main_call1_v6 : Ref sig .tc := ⟨.hbm, 82, rfl⟩
abbrev main_call1_v7 : Ref sig .tc := ⟨.hbm, 83, rfl⟩
abbrev main_v47 : Ref sig .tc := ⟨.hbm, 84, rfl⟩
abbrev main_v48 : Ref sig .tc := ⟨.hbm, 85, rfl⟩
abbrev main_c_9 : Ref sig .tc := ⟨.hbm, 86, rfl⟩
abbrev main_v49 : Ref sig .tc := ⟨.hbm, 87, rfl⟩
abbrev main_v50 : Ref sig .tc := ⟨.hbm, 88, rfl⟩
abbrev main_c_10 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_11 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_call2_cst : Ref sig .tc := ⟨.hbm, 105, rfl⟩
abbrev main_call2_v0 : Ref sig .tc := ⟨.hbm, 106, rfl⟩
abbrev main_call2_v1 : Ref sig .tc := ⟨.hbm, 107, rfl⟩
abbrev main_call2_cst_0 : Ref sig .tc := ⟨.hbm, 108, rfl⟩
abbrev main_call2_v2 : Ref sig .tc := ⟨.hbm, 109, rfl⟩
abbrev main_call2_v3 : Ref sig .tc := ⟨.hbm, 110, rfl⟩
abbrev main_call2_cst_1 : Ref sig .tc := ⟨.hbm, 111, rfl⟩
abbrev main_call2_call0_v0 : Ref sig .tc := ⟨.hbm, 112, rfl⟩
abbrev main_call2_call0_v1 : Ref sig .tc := ⟨.hbm, 113, rfl⟩
abbrev main_call2_v4 : Ref sig .tc := ⟨.hbm, 114, rfl⟩
abbrev main_call2_v5 : Ref sig .tc := ⟨.hbm, 115, rfl⟩
abbrev main_call2_cst_2 : Ref sig .tc := ⟨.hbm, 116, rfl⟩
abbrev main_call2_v6 : Ref sig .tc := ⟨.hbm, 117, rfl⟩
abbrev main_call2_v7 : Ref sig .tc := ⟨.hbm, 118, rfl⟩
abbrev main_v65 : Ref sig .tc := ⟨.hbm, 119, rfl⟩
abbrev main_v66 : Ref sig .tc := ⟨.hbm, 120, rfl⟩
abbrev main_c_12 : Ref sig .tc := ⟨.hbm, 121, rfl⟩
abbrev main_v67 : Ref sig .tc := ⟨.hbm, 122, rfl⟩
abbrev main_v68 : Ref sig .tc := ⟨.hbm, 123, rfl⟩
abbrev main_c_13 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_cst_14 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_call3_cst : Ref sig .tc := ⟨.hbm, 140, rfl⟩
abbrev main_call3_v0 : Ref sig .tc := ⟨.hbm, 141, rfl⟩
abbrev main_call3_v1 : Ref sig .tc := ⟨.hbm, 142, rfl⟩
abbrev main_call3_cst_0 : Ref sig .tc := ⟨.hbm, 143, rfl⟩
abbrev main_call3_v2 : Ref sig .tc := ⟨.hbm, 144, rfl⟩
abbrev main_call3_v3 : Ref sig .tc := ⟨.hbm, 145, rfl⟩
abbrev main_call3_cst_1 : Ref sig .tc := ⟨.hbm, 146, rfl⟩
abbrev main_call3_call0_v0 : Ref sig .tc := ⟨.hbm, 147, rfl⟩
abbrev main_call3_call0_v1 : Ref sig .tc := ⟨.hbm, 148, rfl⟩
abbrev main_call3_v4 : Ref sig .tc := ⟨.hbm, 149, rfl⟩
abbrev main_call3_v5 : Ref sig .tc := ⟨.hbm, 150, rfl⟩
abbrev main_call3_cst_2 : Ref sig .tc := ⟨.hbm, 151, rfl⟩
abbrev main_call3_v6 : Ref sig .tc := ⟨.hbm, 152, rfl⟩
abbrev main_call3_v7 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_call4_cst : Ref sig .tc := ⟨.hbm, 159, rfl⟩
abbrev main_call4_v0 : Ref sig .tc := ⟨.hbm, 160, rfl⟩
abbrev main_call4_cst_0 : Ref sig .tc := ⟨.hbm, 161, rfl⟩
abbrev main_call4_v1 : Ref sig .tc := ⟨.hbm, 162, rfl⟩
abbrev main_call4_v2 : Ref sig .tc := ⟨.hbm, 163, rfl⟩
abbrev main_call4_v3 : Ref sig .tc := ⟨.hbm, 164, rfl⟩
abbrev main_call4_v4 : Ref sig .tc := ⟨.hbm, 165, rfl⟩
abbrev main_call4_v5 : Ref sig .tc := ⟨.hbm, 166, rfl⟩
abbrev main_call4_v6 : Ref sig .tc := ⟨.hbm, 167, rfl⟩
abbrev main_call4_cst_1 : Ref sig .tc := ⟨.hbm, 168, rfl⟩
abbrev main_call4_v7 : Ref sig .tc := ⟨.hbm, 169, rfl⟩
abbrev main_call4_v8 : Ref sig .tc := ⟨.hbm, 170, rfl⟩
abbrev main_call4_v9 : Ref sig .tc := ⟨.hbm, 171, rfl⟩
abbrev main_call4_v10 : Ref sig .tc := ⟨.hbm, 172, rfl⟩
abbrev main_v88 : Ref sig .tc := ⟨.hbm, 173, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x40_S50000x40_1_0_0_1_n_n_wf : DotDims.WF S50000x128 S128x40 S50000x40 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.Spec.lean ====
/-
  The function both programs compute, written once as a composition of array operations.

  A graph convolution network on 50000 nodes with 128 features and 1600000 directed edges, every node also
  joined to itself. With `src`, `dst` the 1650000 edge ends (the given edges followed by the self loops),
  `deg v` the number of edges ending in `v`, `dinv v = deg v ^ (-1/2)` where `deg v > 0` and `0` elsewhere,
  and `w e = dinv (src e) * dinv (dst e)`, one layer sends a feature array `h` to
      elu (b + A (h W)),       (A g) v = sum over the edges e ending in v of  w e * g (src e),
  where `elu z = z` for `z > 0` and `exp z - 1` otherwise. Three layers are followed by a linear map onto 40
  classes and a row-wise log-softmax, `z - max z - log (sum (exp (z - max z)))`.

  Each definition below is one such stage, spelt with the host operations of the reference program, so that
  the reference's run is this composition by unfolding, and the kernel's program is compared with it stage by stage.
-/
import proofs.«163357_j128849019557_1_alg».proof.ReferenceIdeal
import Idealize.ShloMosaic.PureOps.Ideal

noncomputable section

namespace Cert.Spec

open Idealize.ShloMosaic Cert.ReferenceIdeal

variable {F : FTy → Type} [FloatOps F] [Facts₀]

open Facts₀

/-- An array of shape `S` and element type `e`. -/
abbrev Arr (F : FTy → Type) (S : Shape) (e : EltTy) : Type := (⟨S, e⟩ : BufTy).Contents (Elt F)

/-- Row `r` of the edge list as a vector of 1600000 node ids, followed by the ids `0 … 49999` of the self loops. -/
def ends (row : Arr F S1x1600000 .i32) : Arr F S1650000 .i32 :=
  concatenate S1650000 0 [⟨S1600000, fun i => shapeCast S1600000 row shapeCasts_S1x1600000_S1600000 i⟩, ⟨S50000, iotaInDim S50000 32 0⟩] concatenates_S1600000_S50000_S1650000_d0

/-- The sources of the 1650000 edges. -/
def srcIdx (ei : Arr F S2x1600000 .i32) : Arr F S1650000 .i32 :=
  ends (F := F) (extractStridedSlice S1x1600000 ![0, 0] ei slices_S2x1600000_S1x1600000_0_0)

/-- The targets of the 1650000 edges. -/
def dstIdx (ei : Arr F S2x1600000 .i32) : Arr F S1650000 .i32 :=
  ends (F := F) (extractStridedSlice S1x1600000 ![1, 0] ei slices_S2x1600000_S1x1600000_1_0)

/-- A node id as a gather index: a negative id counts from the end. -/
def wrapIdx (ix : Arr F S1650000 .i32) : Arr F S1650000x1 .i32 :=
  broadcastInDim S1650000x1 ![0] bcast_S1650000_S1650000x1_0
    (select (cmpi .slt ix (broadcastInDim S1650000 ![] bcast_S_S1650000 (constantI S_ 32 0#32)))
      (addi ix (broadcastInDim S1650000 ![] bcast_S_S1650000 (constantI S_ 32 50000#32))) ix)

/-- The number of edges ending in each node. -/
def deg (ei : Arr F S2x1600000 .i32) : Arr F S50000 .f32 :=
  Host.scatterAdd scatter_S50000_S1650000x1_S1650000_n_0_0_1
    (broadcastInDim S50000 ![] bcast_S_S50000 (constant S_ .f32 0x00000000#32))
    (broadcastInDim S1650000x1 ![0] bcast_S1650000_S1650000x1_0 (dstIdx ei))
    (broadcastInDim S1650000 ![] bcast_S_S1650000 (constant S_ .f32 0x3F800000#32))

/-- `deg ^ (-1/2)` where the degree is positive, `0` elsewhere. -/
def dinv (ei : Arr F S2x1600000 .i32) : Arr F S50000 .f32 :=
  select (cmpf .ogt (deg ei) (broadcastInDim S50000 ![] bcast_S_S50000 (constant S_ .f32 0x00000000#32)))
    (Host.rsqrt (deg ei))
    (broadcastInDim S50000 ![] bcast_S_S50000 (id (constant S_ .f32 0x00000000#32)))

/-- The weight of each edge, `dinv (src e) * dinv (dst e)`. -/
def edgeW (ei : Arr F S2x1600000 .i32) : Arr F S1650000 .f32 :=
  mulf (Host.gather gather_S50000_S1650000x1_S1650000_n_0_n_n_0_1_1 (dinv ei) (wrapIdx (srcIdx ei)))
    (Host.gather gather_S50000_S1650000x1_S1650000_n_0_n_n_0_1_1 (dinv ei) (wrapIdx (dstIdx ei)))

/-- The weighted sum over incoming edges: `(agg ei g) v = sum over e with dst e = v of w e * g (src e)`. -/
def agg (ei : Arr F S2x1600000 .i32) (g : Arr F S50000x128 .f32) : Arr F S50000x128 .f32 :=
  Host.scatterAdd scatter_S50000x128_S1650000x1_S1650000x128_1_0_0_1
    (broadcastInDim S50000x128 ![] bcast_S_S50000x128 (constant S_ .f32 0x00000000#32))
    (broadcastInDim S1650000x1 ![0] bcast_S1650000_S1650000x1_0 (dstIdx ei))
    (mulf (Host.gather gather_S50000x128_S1650000x1_S1650000x128_1_0_n_n_0_1_1128 g (wrapIdx (srcIdx ei)))
      (broadcastInDim S1650000x128 ![0, 1] bcast_S1650000x1_S1650000x128_0_1
        (broadcastInDim S1650000x1 ![0] bcast_S1650000_S1650000x1_0 (edgeW ei))))

/-- The product of a 50000 × 128 array with a 128 × 128 matrix. -/
def proj (h : Arr F S50000x128 .f32) (W : Arr F S128x128 .f32) : Arr F S50000x128 .f32 :=
  Host.dotGeneral dot_S50000x128_S128x128_S50000x128_1_0_0_1_n_n none h W

/-- A bias of 128 entries as a row. -/
def biasRow (b : Arr F S128 .f32) : Arr F S1x128 .f32 :=
  broadcastInDim S1x128 ![1] bcast_S128_S1x128_1 b

/-- A row added to every row of a 50000 × 128 array. -/
def addRow (a : Arr F S50000x128 .f32) (row : Arr F S1x128 .f32) : Arr F S50000x128 .f32 :=
  addf a (broadcastInDim S50000x128 ![0, 1] bcast_S1x128_S50000x128_0_1 row)

/-- `elu z = z` where `z > 0`, and `1 * (exp z' - 1)` elsewhere, `z'` being `z` there (and `0` where `z > 0`). -/
def elu (z : Arr F S50000x128 .f32) : Arr F S50000x128 .f32 :=
  select (cmpf .ogt z (broadcastInDim S50000x128 ![] bcast_S_S50000x128 (constant S_ .f32 0x00000000#32))) z
    (mulf (broadcastInDim S50000x128 ![] bcast_S_S50000x128 (constant S_ .f32 0x3F800000#32))
      (Host.expm1 (select (cmpf .ogt z (broadcastInDim S50000x128 ![] bcast_S_S50000x128 (constant S_ .f32 0x00000000#32)))
        (broadcastInDim S50000x128 ![] bcast_S_S50000x128 (id (constant S_ .f32 0x00000000#32))) z)))

/-- One layer: `elu (b + A (h W))`. -/
def layer (ei : Arr F S2x1600000 .i32) (h : Arr F S50000x128 .f32) (W : Arr F S128x128 .f32) (b : Arr F S128 .f32) :
    Arr F S50000x128 .f32 :=
  elu (addRow (agg ei (proj h W)) (biasRow b))

/-- The class scores `h Wl + bl`. -/
def logits (h : Arr F S50000x128 .f32) (Wl : Arr F S128x40 .f32) (bl : Arr F S1x40 .f32) : Arr F S50000x40 .f32 :=
  addf (Host.dotGeneral dot_S50000x128_S128x40_S50000x40_1_0_0_1_n_n none h Wl)
    (broadcastInDim S50000x40 ![0, 1] bcast_S1x40_S50000x40_0_1 bl)

/-- A bias of 40 entries as a row. -/
def biasRow40 (b : Arr F S40 .f32) : Arr F S1x40 .f32 :=
  broadcastInDim S1x40 ![1] bcast_S40_S1x40_1 b

/-- A row's maximum, as a column. -/
def rowMax (z : Arr F S50000x40 .f32) : Arr F S50000x40 .f32 :=
  broadcastInDim S50000x40 ![0, 1] bcast_S50000x1_S50000x40_0_1
    (broadcastInDim S50000x1 ![0] bcast_S50000_S50000x1_0
      (maximumf (broadcastInDim S50000 ![] bcast_S_S50000 (constant S_ .f32 0xFF800000#32))
        (Host.reduce FloatOps.maximumf z (constant S_ .f32 0xFF800000#32) reducesTo_S50000x40_S50000_d1 h_S_)))

/-- The log of a row's sum, as a column. -/
def rowLogSum (e : Arr F S50000x40 .f32) : Arr F S50000x40 .f32 :=
  broadcastInDim S50000x40 ![0, 1] bcast_S50000x1_S50000x40_0_1
    (Host.log (broadcastInDim S50000x1 ![0] bcast_S50000_S50000x1_0
      (Host.reduceAdd e (constant S_ .f32 0x00000000#32) reducesTo_S50000x40_S50000_d1 h_S_)))

/-- Row-wise log-softmax: with `s = z - max z`, the array `s - log (sum (exp s))`. -/
def logSoftmax (z : Arr F S50000x40 .f32) : Arr F S50000x40 .f32 :=
  subf (subf z (rowMax z)) (rowLogSum (Host.exp (subf z (rowMax z))))

/-- The whole network. -/
def gcn (x : Arr F S50000x128 .f32) (ei : Arr F S2x1600000 .i32) (W0 : Arr F S128x128 .f32) (b0 : Arr F S128 .f32)
    (W1 : Arr F S128x128 .f32) (b1 : Arr F S128 .f32) (W2 : Arr F S128x128 .f32) (b2 : Arr F S128 .f32)
    (Wl : Arr F S128x40 .f32) (bl : Arr F S40 .f32) : Arr F S50000x40 .f32 :=
  logSoftmax (logits (layer ei (layer ei (layer ei x W0 b0) W1 b1) W2 b2) Wl (biasRow40 bl))

end Cert.Spec

end
-- ==== Proof.KRun.lean ====
/-
  The kernel's program run to its end, with the result array named.

  The program is seven grid regions among stretches of host operations. Every weakly fair execution terminates,
  and in the final state every unscoped buffer holds what the fold through the fourteen segments leaves in it: in
  particular the result array holds the fold's value at its reference, and each argument array is as launched.
-/
import proofs.«163357_j128849019557_1_alg».proof.Proof.Gen.KernelIdeal.Frame

set_option maxRecDepth 16384

noncomputable section

namespace Cert.KernelIdeal.Valued

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result array ends at the last boundary's contents, the
    arguments as launched. -/
theorem run : θ_run defs (onTc (τ := τ) (main (F := F))) ⟨m, fun _ => 0, ρ⟩ (fun r => ∀ c : Dev nD,
      r.2.mem ((c.tc : Thread nD τ).loc main_v77) = W14 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v77 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.Valued

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.Reg0.lean ====
/-
  Region 0 of the kernel's program multiplies a 50000 × 128 array by a 128 × 128 matrix, 5000 rows at a grid point.

  At point `t` the body reads rows `5000 t … 5000 t + 4999` of the left array and the whole matrix, and stores
  their product; entry (p, q) of that block is the sum over k of left (5000 t + p, k) · matrix (k, q), which is
  entry (5000 t + p, q) of the product of the whole arrays. The ten blocks tile the 50000 rows, so after the
  region the output array is the whole product.
-/
import proofs.«163357_j128849019557_1_alg».proof.Proof.Gen.KernelIdeal.Frame
import proofs.«163357_j128849019557_1_alg».proof.Proof.Gen.ReferenceIdeal
import proofs.«163357_j128849019557_1_alg».proof.Proof.Spec
import proofs.«163357_j128849019557_1_alg».proof.Proof.LibPlainDot
import Idealize.ShloMosaic.Lib.Pipeline.Value
import Idealize.ShloMosaic.Lib.ValueIdx

set_option maxRecDepth 16384

noncomputable section

open scoped BigOperators

namespace Cert.KernelIdeal.Reg0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_off : (![0, 0] : Fin 2 → Nat) = fun _ => 0 := funext fun a => by fin_cases a <;> rfl

/-- The block's entry (p, q) is the sum over k of the products of the loaded blocks' entries. -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact PlainDot.matmul_zero_apply (M := 5000) (K := 128) (N := 128) none (truncf .bf16 x0 bitsLt_bf16_f32) (truncf .bf16 x1 bitsLt_bf16_f32) p q

/-- The printed index maps over the ten grid points: the row block of point `t` is `t`, the column block `0`;
    the matrix is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of point `t`'s block is row `5000 t + p` of the array. -/
def row (t : Fin cfg0.N) (p : Fin 5000) : Fin 50000 :=
  ⟨t.val * 5000 + p.val, by have := Nat.lt_of_lt_of_eq t.isLt N_0; have := p.isLt; omega⟩

theorem emb_left (t : Fin cfg0.N) (p : Fin 5000) (k : Fin 128) :
    ((cfg0.win 0).blk t).view.emb (ix2 p k) = ix2 (row t p) k := by
  obtain ⟨e0, e1, -, -, -, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem emb_right (t : Fin cfg0.N) (k : Fin 128) (q : Fin 128) :
    ((cfg0.win 1).blk t).view.emb (ix2 k q) = ix2 k q := by
  obtain ⟨-, -, e2, e3, -, -⟩ := idx_facts t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

theorem emb_out (t : Fin cfg0.N) (p : Fin 5000) (q : Fin 128) :
    ((cfg0.win 2).blk t).view.emb (ix2 p q) = ix2 (row t p) q := by
  obtain ⟨-, -, -, -, e4, e5⟩ := idx_facts t
  funext a; apply Fin.ext
  match a with
  | ⟨0, _⟩ => show win0_2.index t (0 : Fin 2) * 5000 + 1 * p.val = t.val * 5000 + p.val; omega
  | ⟨1, _⟩ => show win0_2.index t (1 : Fin 2) * 128 + 1 * q.val = q.val; omega

/-- The left block at a point, entry by entry. -/
theorem left_apply (c : Dev nD) (t : Fin cfg0.N) (p : Fin 5000) (k : Fin 128) :
    iblk0 V c 0 t (ix2 p k) = V c (Pipeline.arrRef spec0 0) (ix2 (row t p) k) := by
  show V c (Pipeline.arrRef spec0 0) (((cfg0.win 0).blk t).view.emb (ix2 p k)) = _
  rw [emb_left]

/-- The matrix block at a point is the matrix. -/
theorem right_apply (c : Dev nD) (t : Fin cfg0.N) (k : Fin 128) (q : Fin 128) :
    iblk0 V c 1 t (ix2 k q) = V c (Pipeline.arrRef spec0 1) (ix2 k q) := by
  show V c (Pipeline.arrRef spec0 1) (((cfg0.win 1).blk t).view.emb (ix2 k q)) = _
  rw [emb_right]

/-- What point `t` writes back is block `t` of the product of the whole arrays. -/
theorem flushed_eq (c : Dev nD) (t : Fin cfg0.N) :
    (dat0 V c).flushed 2 t = ((cfg0.win 2).blk t).view.read (Elt Ideal)
      (Cert.Spec.proj (F := Ideal) (V c (Pipeline.arrRef spec0 0)) (V c (Pipeline.arrRef spec0 1))) := by
  show (cfg0.win 2).cut (grid0.coords t) ((dat0 V c).after 2 t) = _
  rw [after0_2]
  unfold out0_2
  rw [View.canon_unit_zero zero_off]
  simp only [View.ld_unit_zero (S := S5000x128) zero_off, View.ld_unit_zero (S := S128x128) zero_off]
  refine funext fun (y : S5000x128.Idx) => ?_
  obtain ⟨p, q, rfl⟩ : ∃ (p : Fin 5000) (q : Fin 128), y = ix2 p q := ⟨y 0, y 1, eq_ix2 y⟩
  show k0_pay1 (iblk0 V c 0 t) (iblk0 V c 1 t) (ix2 p q)
    = Cert.Spec.proj (F := Ideal) (V c (Pipeline.arrRef spec0 0)) (V c (Pipeline.arrRef spec0 1)) (((cfg0.win 2).blk t).view.emb (ix2 p q))
  rw [emb_out, pay_apply]
  unfold Cert.Spec.proj
  refine Eq.trans ?_ (PlainDot.dotGeneral_apply (M := 50000) (K := 128) (N := 128) none _ (V c (Pipeline.arrRef spec0 0)) (V c (Pipeline.arrRef spec0 1)) (row t p) q).symm
  exact Finset.sum_congr rfl fun k _ => by rw [left_apply, right_apply]

/-- An index is in point `t`'s block iff each coordinate is in the block's range. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every row lies in the block of the point `row / 5000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨-, -, -, -, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the output array is the product of the arrays the region found. -/
theorem final (c : Dev nD) : (dat0 V c).arrAt 2 cfg0.N
    = Cert.Spec.proj (F := Ideal) (V c (Pipeline.arrRef spec0 0)) (V c (Pipeline.arrRef spec0 1)) :=
  (dat0 V c).arrAt_eq_of_cover 2 _ (fun t _ => flushed_eq V c t) cover

end Cert.KernelIdeal.Reg0

end
-- ==== Proof.EluLaw.lean ====
/-
  The exponential linear unit at one extended real: `z` where `z > 0`, `exp z - 1` elsewhere.

  The reference computes it as `select (z > 0) z (1 * expm1 (select (z > 0) 0 z))`: where `z > 0` fails the inner
  select is `z`, `expm1 z` is `exp z - 1` on the extended reals, and the factor one drops out.
-/
import proofs.«163357_j128849019557_1_alg».proof.Proof.Gen.ReferenceIdeal
import proofs.«163357_j128849019557_1_alg».proof.Proof.Spec
import Idealize.ShloMosaic.Lib.ValueIdx
import Idealize.ShloMosaic.Lib.IdealHost
import Idealize.ShloMosaic.Lib.KernelVsHost

noncomputable section

namespace Cert.Spec

open Idealize.ShloMosaic Idealize.ShloMosaic.ValueIdx

/-- `z` where positive, `exp z - 1` elsewhere. -/
def eluS (z : EReal) : EReal := Scalar.select (Ideal.cmp .ogt z 0) z (Ideal.exp z - 1)

/-- The reference's unit, read at an index, is the scalar unit of the entry. -/
theorem elu_apply (Z : Arr Ideal Cert.ReferenceIdeal.S50000x128 .f32) (r : Fin 50000) (q : Fin 128) :
    elu (F := Ideal) Z (ix2 r q) = eluS (Z (ix2 r q)) := by
  unfold elu
  show Scalar.select (Ideal.cmp .ogt (Z (ix2 r q)) (Ideal.ofBits .f32 0x00000000#32)) (Z (ix2 r q))
      (Ideal.ofBits .f32 0x3F800000#32 *
        (Ideal.exp (Scalar.select (Ideal.cmp .ogt (Z (ix2 r q)) (Ideal.ofBits .f32 0x00000000#32))
          (Ideal.ofBits .f32 0x00000000#32) (Z (ix2 r q))) - 1)) = _
  rw [Ideal.ofBits_zero_f32, Ideal.ofBits_one_f32, one_mul]
  unfold eluS
  rcases BitVec.eq_zero_or_eq_one (Ideal.cmp .ogt (Z (ix2 r q)) 0) with h | h
  · rw [h]; rfl
  · rw [h]; rfl

/-- A row added to every row, read at an index. -/
theorem addRow_apply (A : Arr Ideal Cert.ReferenceIdeal.S50000x128 .f32) (R : Arr Ideal Cert.ReferenceIdeal.S1x128 .f32)
    (r : Fin 50000) (q : Fin 128) : addRow (F := Ideal) A R (ix2 r q) = A (ix2 r q) + R (ix2 (0 : Fin 1) q) := by
  unfold addRow
  show A (ix2 r q) + broadcastInDim Cert.ReferenceIdeal.S50000x128 ![0, 1] _ R (ix2 r q) = _
  rw [broadcastInDim_oneRow_apply]

end Cert.Spec

end
-- ==== Proof.Reg1.lean ====
/-
  Region 1 of the kernel's program adds a bias row to a 50000 × 128 array and applies the exponential linear
  unit, 5000 rows at a grid point.

  At point `t` the body reads rows `5000 t … 5000 t + 4999` of the array and the one bias row; entry (p, q) of
  what it stores is the unit of array (5000 t + p, q) + bias (0, q), which is entry (5000 t + p, q) of the unit of
  the whole array with the row added. The ten blocks tile the 50000 rows.
-/
import proofs.«163357_j128849019557_1_alg».proof.Proof.Gen.KernelIdeal.Frame
import proofs.«163357_j128849019557_1_alg».proof.Proof.Gen.ReferenceIdeal
import proofs.«163357_j128849019557_1_alg».proof.Proof.Spec
import proofs.«163357_j128849019557_1_alg».proof.Proof.EluLaw
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost

set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_off : (![0, 0] : Fin 2 → Nat) = fun _ => 0 := funext fun a => by fin_cases a <;> rfl

/-- The stored block's entry (p, q) is the unit of the array block's entry plus the bias row's entry. -/
theorem pay_apply (x0 : Vec Ideal S5000x128 .f32) (x1 : Vec Ideal S1x128 .f32) (p : Fin 5000) (q : Fin 128) :
    k1_pay1 x0 x1 (ix2 p q) = Cert.Spec.eluS (x0 (ix2 p q) + x1 (ix2 (0 : Fin 1) q)) := by
  unfold k1_pay1
  show Scalar.select (FloatOps.cmpf .ogt (shapeCast S5000x128 x0 shapeCasts_S5000x128_S5000x128 (ix2 p q) + broadcastTo S5000x128 (shapeCast S1x128 x1 shapeCasts_S1x128_S1x128) broadcasts_S1x128_S5000x128 (ix2 p q)) (Ideal.ofBits .f32 0x00000000#32))
      (shapeCast S5000x128 x0 shapeCasts_S5000x128_S5000x128 (ix2 p q) + broadcastTo S5000x128 (shapeCast S1x128 x1 shapeCasts_S1x128_S1x128) broadcasts_S1x128_S5000x128 (ix2 p q))
      (Ideal.exp (shapeCast S5000x128 x0 shapeCasts_S5000x128_S5000x128 (ix2 p q) + broadcastTo S5000x128 (shapeCast S1x128 x1 shapeCasts_S1x128_S1x128) broadcasts_S1x128_S5000x128 (ix2 p q)) - Ideal.ofBits .f32 0x3F800000#32) = _
  rw [shapeCast_self, shapeCast_self, broadcastTo_1b_ab_apply, Ideal.ofBits_zero_f32, Ideal.ofBits_one_f32]
  rfl

/-- The printed index maps over the ten grid points: the row block of point `t` is `t`; the bias row is one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of point `t`'s block is row `5000 t + p` of the array. -/
def row (t : Fin cfg1.N) (p : Fin 5000) : Fin 50000 :=
  ⟨t.val * 5000 + p.val, by have := Nat.lt_of_lt_of_eq t.isLt N_1; have := p.isLt; omega⟩

theorem emb_in (t : Fin cfg1.N) (p : Fin 5000) (q : Fin 128) :
    ((cfg1.win 0).blk t).view.emb (ix2 p q) = ix2 (row t p) q := by
  obtain ⟨e0, e1, -, -, -, -⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 128 + 1 * q.val = q.val; omega

theorem emb_bias (t : Fin cfg1.N) (q : Fin 128) :
    ((cfg1.win 1).blk t).view.emb (ix2 (0 : Fin 1) q) = ix2 (0 : Fin 1) q := by
  obtain ⟨-, -, e2, e3, -, -⟩ := idx_facts t
  funext a; apply Fin.ext
  match a with
  | ⟨0, _⟩ => show win1_1.index t (0 : Fin 2) * 1 + 1 * 0 = 0; omega
  | ⟨1, _⟩ => show win1_1.index t (1 : Fin 2) * 128 + 1 * q.val = q.val; omega

theorem emb_out (t : Fin cfg1.N) (p : Fin 5000) (q : Fin 128) :
    ((cfg1.win 2).blk t).view.emb (ix2 p q) = ix2 (row t p) q := by
  obtain ⟨-, -, -, -, e4, e5⟩ := idx_facts t
  funext a; apply Fin.ext
  match a with
  | ⟨0, _⟩ => show win1_2.index t (0 : Fin 2) * 5000 + 1 * p.val = t.val * 5000 + p.val; omega
  | ⟨1, _⟩ => show win1_2.index t (1 : Fin 2) * 128 + 1 * q.val = q.val; omega

/-- The array block at a point, entry by entry. -/
theorem in_apply (c : Dev nD) (t : Fin cfg1.N) (p : Fin 5000) (q : Fin 128) :
    iblk1 V c 0 t (ix2 p q) = V c (Pipeline.arrRef spec1 0) (ix2 (row t p) q) := by
  show V c (Pipeline.arrRef spec1 0) (((cfg1.win 0).blk t).view.emb (ix2 p q)) = _
  rw [emb_in]

/-- The bias block at a point is the bias row. -/
theorem bias_apply (c : Dev nD) (t : Fin cfg1.N) (q : Fin 128) :
    iblk1 V c 1 t (ix2 (0 : Fin 1) q) = V c (Pipeline.arrRef spec1 1) (ix2 (0 : Fin 1) q) := by
  show V c (Pipeline.arrRef spec1 1) (((cfg1.win 1).blk t).view.emb (ix2 (0 : Fin 1) q)) = _
  rw [emb_bias]

/-- What point `t` writes back is block `t` of the unit of the whole array with the bias row added. -/
theorem flushed_eq (c : Dev nD) (t : Fin cfg1.N) :
    (dat1 V c).flushed 2 t = ((cfg1.win 2).blk t).view.read (Elt Ideal)
      (Cert.Spec.elu (F := Ideal) (Cert.Spec.addRow (F := Ideal) (V c (Pipeline.arrRef spec1 0)) (V c (Pipeline.arrRef spec1 1)))) := by
  show (cfg1.win 2).cut (grid1.coords t) ((dat1 V c).after 2 t) = _
  rw [after1_2]
  unfold out1_2
  rw [View.canon_unit_zero zero_off]
  simp only [View.ld_unit_zero (S := S5000x128) zero_off, View.ld_unit_zero (S := S1x128) zero_off]
  refine funext fun (y : S5000x128.Idx) => ?_
  obtain ⟨p, q, rfl⟩ : ∃ (p : Fin 5000) (q : Fin 128), y = ix2 p q := ⟨y 0, y 1, eq_ix2 y⟩
  show k1_pay1 (iblk1 V c 0 t) (iblk1 V c 1 t) (ix2 p q)
    = Cert.Spec.elu (F := Ideal) (Cert.Spec.addRow (F := Ideal) (V c (Pipeline.arrRef spec1 0)) (V c (Pipeline.arrRef spec1 1))) (((cfg1.win 2).blk t).view.emb (ix2 p q))
  rw [emb_out, pay_apply, in_apply, bias_apply, Cert.Spec.elu_apply, Cert.Spec.addRow_apply]

/-- An index is in point `t`'s block iff each coordinate is in the block's range. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every row lies in the block of the point `row / 5000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := ⟨(i 0).val / 5000, by rw [show cfg1.N = 10 from N_1]; omega⟩
  obtain ⟨-, -, -, -, e4, e5⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region the output array is the unit of the array the region found with the bias row added. -/
theorem final (c : Dev nD) : (dat1 V c).arrAt 2 cfg1.N
    = Cert.Spec.elu (F := Ideal) (Cert.Spec.addRow (F := Ideal) (V c (Pipeline.arrRef spec1 0)) (V c (Pipeline.arrRef spec1 1))) :=
  (dat1 V c).arrAt_eq_of_cover 2 _ (fun t _ => flushed_eq V c t) cover

end Cert.KernelIdeal.Reg1

end
-- ==== Proof.Reg2.lean ====
/-
  Region 2 of the kernel's program multiplies a 50000 × 128 array by a 128 × 128 matrix, 5000 rows at a grid point.

  At point `t` the body reads rows `5000 t … 5000 t + 4999` of the left array and the whole matrix, and stores
  their product; entry (p, q) of that block is the sum over k of left (5000 t + p, k) · matrix (k, q), which is
  entry (5000 t + p, q) of the product of the whole arrays. The ten blocks tile the 50000 rows, so after the
  region the output array is the whole product.
-/
import proofs.«163357_j128849019557_1_alg».proof.Proof.Gen.KernelIdeal.Frame
import proofs.«163357_j128849019557_1_alg».proof.Proof.Gen.ReferenceIdeal
import proofs.«163357_j128849019557_1_alg».proof.Proof.Spec
import proofs.«163357_j128849019557_1_alg».proof.Proof.LibPlainDot
import Idealize.ShloMosaic.Lib.Pipeline.Value
import Idealize.ShloMosaic.Lib.ValueIdx

set_option maxRecDepth 16384

noncomputable section

open scoped BigOperators

namespace Cert.KernelIdeal.Reg2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_off : (![0, 0] : Fin 2 → Nat) = fun _ => 0 := funext fun a => by fin_cases a <;> rfl

/-- The block's entry (p, q) is the sum over k of the products of the loaded blocks' entries. -/
theorem pay_apply (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  refine (PlainDot.matmul_zero_apply (M := 5000) (K := 128) (N := 128) none (truncf .bf16 (shapeCast S5000x128 x0 shapeCasts_S5000x128_S5000x128) bitsLt_bf16_f32) (truncf .bf16 x1 bitsLt_bf16_f32) p q).trans ?_
  rw [shapeCast_self]
  rfl

/-- The printed index maps over the ten grid points: the row block of point `t` is `t`, the column block `0`;
    the matrix is one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of point `t`'s block is row `5000 t + p` of the array. -/
def row (t : Fin cfg2.N) (p : Fin 5000) : Fin 50000 :=
  ⟨t.val * 5000 + p.val, by have := Nat.lt_of_lt_of_eq t.isLt N_2; have := p.isLt; omega⟩

theorem emb_left (t : Fin cfg2.N) (p : Fin 5000) (k : Fin 128) :
    ((cfg2.win 0).blk t).view.emb (ix2 p k) = ix2 (row t p) k := by
  obtain ⟨e0, e1, -, -, -, -⟩ := idx_facts t
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

theorem emb_right (t : Fin cfg2.N) (k : Fin 128) (q : Fin 128) :
    ((cfg2.win 1).blk t).view.emb (ix2 k q) = ix2 k q := by
  obtain ⟨-, -, e2, e3, -, -⟩ := idx_facts t
  funext a; apply Fin.ext
  match a with
  | ⟨0, _⟩ => show win2_1.index t (0 : Fin 2) * 128 + 1 * k.val = k.val; omega
  | ⟨1, _⟩ => show win2_1.index t (1 : Fin 2) * 128 + 1 * q.val = q.val; omega

theorem emb_out (t : Fin cfg2.N) (p : Fin 5000) (q : Fin 128) :
    ((cfg2.win 2).blk t).view.emb (ix2 p q) = ix2 (row t p) q := by
  obtain ⟨-, -, -, -, e4, e5⟩ := idx_facts t
  funext a; apply Fin.ext
  match a with
  | ⟨0, _⟩ => show win2_2.index t (0 : Fin 2) * 5000 + 1 * p.val = t.val * 5000 + p.val; omega
  | ⟨1, _⟩ => show win2_2.index t (1 : Fin 2) * 128 + 1 * q.val = q.val; omega

/-- The left block at a point, entry by entry. -/
theorem left_apply (c : Dev nD) (t : Fin cfg2.N) (p : Fin 5000) (k : Fin 128) :
    iblk2 V c 0 t (ix2 p k) = V c (Pipeline.arrRef spec2 0) (ix2 (row t p) k) := by
  show V c (Pipeline.arrRef spec2 0) (((cfg2.win 0).blk t).view.emb (ix2 p k)) = _
  rw [emb_left]

/-- The matrix block at a point is the matrix. -/
theorem right_apply (c : Dev nD) (t : Fin cfg2.N) (k : Fin 128) (q : Fin 128) :
    iblk2 V c 1 t (ix2 k q) = V c (Pipeline.arrRef spec2 1) (ix2 k q) := by
  show V c (Pipeline.arrRef spec2 1) (((cfg2.win 1).blk t).view.emb (ix2 k q)) = _
  rw [emb_right]

/-- What point `t` writes back is block `t` of the product of the whole arrays. -/
theorem flushed_eq (c : Dev nD) (t : Fin cfg2.N) :
    (dat2 V c).flushed 2 t = ((cfg2.win 2).blk t).view.read (Elt Ideal)
      (Cert.Spec.proj (F := Ideal) (V c (Pipeline.arrRef spec2 0)) (V c (Pipeline.arrRef spec2 1))) := by
  show (cfg2.win 2).cut (grid2.coords t) ((dat2 V c).after 2 t) = _
  rw [after2_2]
  unfold out2_2
  rw [View.canon_unit_zero zero_off]
  simp only [View.ld_unit_zero (S := S5000x128) zero_off, View.ld_unit_zero (S := S128x128) zero_off]
  refine funext fun (y : S5000x128.Idx) => ?_
  obtain ⟨p, q, rfl⟩ : ∃ (p : Fin 5000) (q : Fin 128), y = ix2 p q := ⟨y 0, y 1, eq_ix2 y⟩
  show k2_pay1 (iblk2 V c 0 t) (iblk2 V c 1 t) (ix2 p q)
    = Cert.Spec.proj (F := Ideal) (V c (Pipeline.arrRef spec2 0)) (V c (Pipeline.arrRef spec2 1)) (((cfg2.win 2).blk t).view.emb (ix2 p q))
  rw [emb_out, pay_apply]
  unfold Cert.Spec.proj
  refine Eq.trans ?_ (PlainDot.dotGeneral_apply (M := 50000) (K := 128) (N := 128) none _ (V c (Pipeline.arrRef spec2 0)) (V c (Pipeline.arrRef spec2 1)) (row t p) q).symm
  exact Finset.sum_congr rfl fun k _ => by rw [left_apply, right_apply]

/-- An index is in point `t`'s block iff each coordinate is in the block's range. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Every row lies in the block of the point `row / 5000`. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  let t : Fin cfg2.N := ⟨(i 0).val / 5000, by rw [show cfg2.N = 10 from N_2]; omega⟩
  obtain ⟨-, -, -, -, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region the output array is the product of the arrays the region found. -/
theorem final (c : Dev nD) : (dat2 V c).arrAt 2 cfg2.N
    = Cert.Spec.proj (F := Ideal) (V c (Pipeline.arrRef spec2 0)) (V c (Pipeline.arrRef spec2 1)) :=
  (dat2 V c).arrAt_eq_of_cover 2 _ (fun t _ => flushed_eq V c t) cover

end Cert.KernelIdeal.Reg2

end
-- ==== Proof.Reg3.lean ====
/-
  Region 3 of the kernel's program adds a bias row to a 50000 × 128 array and applies the exponential linear
  unit, 5000 rows at a grid point.

  At point `t` the body reads rows `5000 t … 5000 t + 4999` of the array and the one bias row; entry (p, q) of
  what it stores is the unit of array (5000 t + p, q) + bias (0, q), which is entry (5000 t + p, q) of the unit of
  the whole array with the row added. The ten blocks tile the 50000 rows.
-/
import proofs.«163357_j128849019557_1_alg».proof.Proof.Gen.KernelIdeal.Frame
import proofs.«163357_j128849019557_1_alg».proof.Proof.Gen.ReferenceIdeal
import proofs.«163357_j128849019557_1_alg».proof.Proof.Spec
import proofs.«163357_j128849019557_1_alg».proof.Proof.EluLaw
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost

set_option maxRecDepth 16384

noncomputable section

namespace Cert.KernelIdeal.Reg3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_off : (![0, 0] : Fin 2 → Nat) = fun _ => 0 := funext fun a => by fin_cases a <;> rfl

/-- The stored block's entry (p, q) is the unit of the array block's entry plus the bias row's entry. -/
theorem pay_apply (x0 : Vec Ideal S5000x128 .f32) (x1 : Vec Ideal S1x128 .f32) (p : Fin 5000) (q : Fin 128) :
    k3_pay1 x0 x1 (ix2 p q) = Cert.Spec.eluS (x0 (ix2 p q) + x1 (ix2 (0 : Fin 1) q)) := by
  unfold k3_pay1
  show Scalar.select (FloatOps.cmpf .ogt (shapeCast S5000x128 x0 shapeCasts_S5000x128_S5000x128 (ix2 p q) + broadcastTo S5000x128 (shapeCast S1x128 x1 shapeCasts_S1x128_S1x128) broadcasts_S1x128_S5000x128 (ix2 p q)) (Ideal.ofBits .f32 0x00000000#32))
      (shapeCast S5000x128 x0 shapeCasts_S5000x128_S5000x128 (ix2 p q) + broadcastTo S5000x128 (shapeCast S1x128 x1 shapeCasts_S1x128_S1x128) broadcasts_S1x128_S5000x128 (ix2 p q))
      (Ideal.exp (shapeCast S5000x128 x0 shapeCasts_S5000x128_S5000x128 (ix2 p q) + broadcastTo S5000x128 (shapeCast S1x128 x1 shapeCasts_S1x128_S1x128) broadcasts_S1x128_S5000x128 (ix2 p q)) - Ideal.ofBits .f32 0x3F800000#32) = _
  rw [shapeCast_self, shapeCast_self, broadcastTo_1b_ab_apply, Ideal.ofBits_zero_f32, Ideal.ofBits_one_f32]
  rfl

/-- The printed index maps over the ten grid points: the row block of point `t` is `t`; the bias row is one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `p` of point `t`'s block is row `5000 t + p` of the array. -/
def row (t : Fin cfg3.N) (p : Fin 5000) : Fin 50000 :=
  ⟨t.val * 5000 + p.val, by have := Nat.lt_of_lt_of_eq t.isLt N_3; have := p.isLt; omega⟩

theorem emb_in (t : Fin cfg3.N) (p : Fin 5000) (q : Fin 128) :
    ((cfg3.win 0).blk t).view.emb (ix2 p q) = ix2 (row t p) q := by
  obtain ⟨e0, e1, -, -, -, -⟩ := idx_facts t
  funext a; apply Fin.ext
  match a with
  | ⟨0, _⟩ => show win3_0.index t (0 : Fin 2) * 5000 + 1 * p.val = t.val * 5000 + p.val; omega
  | ⟨1, _⟩ => show win3_0.index t (1 : Fin 2) * 128 + 1 * q.val = q.val; omega

theorem emb_bias (t : Fin cfg3.N) (q : Fin 128) :
    ((cfg3.win 1).blk t).view.emb (ix2 (0 : Fin 1) q) = ix2 (0 : Fin 1) q := by
  obtain ⟨-, -, e2, e3, -, -⟩ := idx_facts t
  funext a; apply Fin.ext
  match a with
  | ⟨0, _⟩ => show win3_1.index t (0 : Fin 2) * 1 + 1 * 0 = 0; omega
  | ⟨1, _⟩ => show win3_1.index t (1 : Fin 2) * 128 + 1 * q.val = q.val; omega

theorem emb_out (t : Fin cfg3.N) (p : Fin 5000) (q : Fin 128) :
    ((cfg3.win 2).blk t).view.emb (ix2 p q) = ix2 (row t p) q := by
  obtain ⟨-, -, -, -, e4, e5⟩ := idx_facts t
  funext a; apply Fin.ext
  match a with
  | ⟨0, _⟩ => show win3_2.index t (0 : Fin 2) * 5000 + 1 * p.val = t.val * 5000 + p.val; omega
  | ⟨1, _⟩ => show win3_2.index t (1 : Fin 2) * 128 + 1 * q.val = q.val; omega

/-- The array block at a point, entry by entry. -/
theorem in_apply (c : Dev nD) (t : Fin cfg3.N) (p : Fin 5000) (q : Fin 128) :
    iblk3 V c 0 t (ix2 p q) = V c (Pipeline.arrRef spec3 0) (ix2 (row t p) q) := by
  show V c (Pipeline.arrRef spec3 0) (((cfg3.win 0).blk t).view.emb (ix2 p q)) = _
  rw [emb_in]

/-- The bias block at a point is the bias row. -/
theorem bias_apply (c : Dev nD) (t : Fin cfg3.N) (q : Fin 128) :
    iblk3 V c 1 t (ix2 (0 : Fin 1) q) = V c (Pipeline.arrRef spec3 1) (ix2 (0 : Fin 1) q) := by
  show V c (Pipeline.arrRef spec3 1) (((cfg3.win 1).blk t).view.emb (ix2 (0 : Fin 1) q)) = _
  rw [emb_bias]

/-- What point `t` writes back is block `t` of the unit of the whole array with the bias row added. -/
theorem flushed_eq (c : Dev nD) (t : Fin cfg3.N) :
    (dat3 V c).flushed 2 t = ((cfg3.win 2).blk t).view.read (Elt Ideal)
      (Cert.Spec.elu (F := Ideal) (Cert.Spec.addRow (F := Ideal) (V c (Pipeline.arrRef spec3 0)) (V c (Pipeline.arrRef spec3 1)))) := by
  show (cfg3.win 2).cut (grid3.coords t) ((dat3 V c).after 2 t) = _
  rw [after3_2]
  unfold out3_2
  rw [View.canon_unit_zero zero_off]
  simp only [View.ld_unit_zero (S := S5000x128) zero_off, View.ld_unit_zero (S := S1x128) zero_off]
  refine funext fun (y : S5000x128.Idx) => ?_
  obtain ⟨p, q, rfl⟩ : ∃ (p : Fin 5000) (q : Fin 128), y = ix2 p q := ⟨y 0, y 1, eq_ix2 y⟩
  show k3_pay1 (iblk3 V c 0 t) (iblk3 V c 1 t) (ix2 p q)
    = Cert.Spec.elu (F := Ideal) (Cert.Spec.addRow (F := Ideal) (V c (Pipeline.arrRef spec3 0)) (V c (Pipeline.arrRef spec3 1))) (((cfg3.win 2).blk t).view.emb (ix2 p q))
  rw [emb_out, pay_apply, in_apply, bias_apply, Cert.Spec.elu_apply, Cert.Spec.addRow_apply]

/-- An index is in point `t`'s block iff each coordinate is in the block's range. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v60).slice (win3_2.rect t)).set ↔ _
  rw [View.set_slice_whole, Rect.mem_set_unit]
  exact Iff.rfl

/-- Every row lies in the block of the point `row / 5000`. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  let t : Fin cfg3.N := ⟨(i 0).val / 5000, by rw [show cfg3.N = 10 from N_3]; omega⟩
  obtain ⟨-, -, -, -, e4, e5⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the region the output array is the unit of the array the region found with the bias row added. -/
theorem final (c : Dev nD) : (dat3 V c).arrAt 2 cfg3.N
    = Cert.Spec.elu (F := Ideal) (Cert.Spec.addRow (F := Ideal) (V c (Pipeline.arrRef spec3 0)) (V c (Pipeline.arrRef spec3 1))) :=
  (dat3 V c).arrAt_eq_of_cover 2 _ (fun t _ => flushed_eq V c t) cover

end Cert.KernelIdeal.Reg3

end
-- ==== Proof.Reg4.lean ====
/-
  Region 4 of the kernel's program multiplies a 50000 × 128 array by a 128 × 128 matrix, 5000 rows at a grid point.

  At point `t` the body reads rows `5000 t … 5000 t + 4999` of the left array and the whole matrix, and stores
  their product; entry (p, q) of that block is the sum over k of left (5000 t + p, k) · matrix (k, q), which is
  entry (5000 t + p, q) of the product of the whole arrays. The ten blocks tile the 50000 rows, so after the
  region the output array is the whole product.
-/
import proofs.«163357_j128849019557_1_alg».proof.Proof.Gen.KernelIdeal.Frame
import proofs.«163357_j128849019557_1_alg».proof.Proof.Gen.ReferenceIdeal
import proofs.«163357_j128849019557_1_alg».proof.Proof.Spec
import proofs.«163357_j128849019557_1_alg».proof.Proof.LibPlainDot
import Idealize.ShloMosaic.Lib.Pipeline.Value
import Idealize.ShloMosaic.Lib.ValueIdx

set_option maxRecDepth 16384

noncomputable section

open scoped BigOperators

namespace Cert.KernelIdeal.Reg4

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_off : (![0, 0] : Fin 2 → Nat) = fun _ => 0 := funext fun a => by fin_cases a <;> rfl

/-- The block's entry (p, q) is the sum over k of the products of the loaded blocks' entries. -/
theorem pay_apply (x0 : Vec Ideal S5000x128 .f32) (x1 : Vec Ideal S128x128 .f32) (p : Fin 5000) (q : Fin 128) :
    k4_pay1 x0 x1 (ix2 p q) = ∑ k : Fin 128, x0 (ix2 p k) * x1 (ix2 k q) := by
  unfold k4_pay1
  refine (PlainDot.matmul_zero_apply (M := 5000) (K := 128) (N := 128) none (truncf .bf16 (shapeCast S5000x128 x0 shapeCasts_S5000x128_S5000x128) bitsLt_bf16_f32) (truncf .bf16 x1 bitsLt_bf16_f32) p q).trans ?_
  rw [shapeCast_self]
  rfl

/-- The printed index maps over the ten grid points: the row block of point `t` is `t`, the column block `0`;
    the matrix is one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row `p` of point `t`'s block is row `5000 t + p` of the array. -/
def row (t : Fin cfg4.N) (p : Fin 5000) : Fin 50000 :=
  ⟨t.val * 5000 + p.val, by have := Nat.lt_of_lt_of_eq t.isLt N_4; have := p.isLt; omega⟩

theorem emb_left (t : Fin cfg4.N) (p : Fin 5000) (k : Fin 128) :
    ((cfg4.win 0).blk t).view.emb (ix2 p k) = ix2 (row t p) k := by
  obtain ⟨e0, e1, -, -, -, -⟩ := idx_facts t
  funext a; apply Fin.ext
  match a with
  | ⟨0, _⟩ => show win4_0.index t (0 : Fin 2) * 5000 + 1 * p.val = t.val * 5000 + p.val; omega
  | ⟨1, _⟩ => show win4_0.index t (1 : Fin 2) * 128 + 1 * k.val = k.val; omega

theorem emb_right (t : Fin cfg4.N) (k : Fin 128) (q : Fin 128) :
    ((cfg4.win 1).blk t).view.emb (ix2 k q) = ix2 k q := by
  obtain ⟨-, -, e2, e3, -, -⟩ := idx_facts t
  funext a; apply Fin.ext
  match a with
  | ⟨0, _⟩ => show win4_1.index t (0 : Fin 2) * 128 + 1 * k.val = k.val; omega
  | ⟨1, _⟩ => show win4_1.index t (1 : Fin 2) * 128 + 1 * q.val = q.val; omega

theorem emb_out (t : Fin cfg4.N) (p : Fin 5000) (q : Fin 128) :
    ((cfg4.win 2).blk t).view.emb (ix2 p q) = ix2 (row t p) q := by
  obtain ⟨-, -, -, -, e4, e5⟩ := idx_facts t
  funext a; apply Fin.ext
  match a with
  | ⟨0, _⟩ => show win4_2.index t (0 : Fin 2) * 5000 + 1 * p.val = t.val * 5000 + p.val; omega
  | ⟨1, _⟩ => show win4_2.index t (1 : Fin 2) * 128 + 1 * q.val = q.val; omega

/-- The left block at a point, entry by entry. -/
theorem left_apply (c : Dev nD) (t : Fin cfg4.N) (p : Fin 5000) (k : Fin 128) :
    iblk4 V c 0 t (ix2 p k) = V c (Pipeline.arrRef spec4 0) (ix2 (row t p) k) := by
  show V c (Pipeline.arrRef spec4 0) (((cfg4.win 0).blk t).view.emb (ix2 p k)) = _
  rw [emb_left]

/-- The matrix block at a point is the matrix. -/
theorem right_apply (c : Dev nD) (t : Fin cfg4.N) (k : Fin 128) (q : Fin 128) :
    iblk4 V c 1 t (ix2 k q) = V c (Pipeline.arrRef spec4 1) (ix2 k q) := by
  show V c (Pipeline.arrRef spec4 1) (((cfg4.win 1).blk t).view.emb (ix2 k q)) = _
  rw [emb_right]

/-- What point `t` writes back is block `t` of the product of the whole arrays. -/
theorem flushed_eq (c : Dev nD) (t : Fin cfg4.N) :
    (dat4 V c).flushed 2 t = ((cfg4.win 2).blk t).view.read (Elt Ideal)
      (Cert.Spec.proj (F := Ideal) (V c (Pipeline.arrRef spec4 0)) (V c (Pipeline.arrRef spec4 1))) := by
  show (cfg4.win 2).cut (grid4.coords t) ((dat4 V c).after 2 t) = _
  rw [after4_2]
  unfold out4_2
  rw [View.canon_unit_zero zero_off]
  simp only [View.ld_unit_zero (S := S5000x128) zero_off, View.ld_unit_zero (S := S128x128) zero_off]
  refine funext fun (y : S5000x128.Idx) => ?_
  obtain ⟨p, q, rfl⟩ : ∃ (p : Fin 5000) (q : Fin 128), y = ix2 p q := ⟨y 0, y 1, eq_ix2 y⟩
  show k4_pay1 (iblk4 V c 0 t) (iblk4 V c 1 t) (ix2 p q)
    = Cert.Spec.proj (F := Ideal) (V c (Pipeline.arrRef spec4 0)) (V c (Pipeline.arrRef spec4 1)) (((cfg4.win 2).blk t).view.emb (ix2 p q))
  rw [emb_out, pay_apply]
  unfold Cert.Spec.proj
  refine Eq.trans ?_ (PlainDot.dotGeneral_apply (M := 50000) (K := 128) (N := 128) none _ (V c (Pipeline.arrRef spec4 0)) (V c (Pipeline.arrRef spec4 1)) (row t p) q).symm
  exact Finset.sum_congr rfl fun k _ => by rw [left_apply, right_apply]

/-- An index is in point `t`'s block iff each coordinate is in the block's range. -/
theorem mem_blk (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v61).slice (win4_2.rect t)).set ↔ _
  rw [View.set_slice_whole, Rect.mem_set_unit]
  exact Iff.rfl

/-- Every row lies in the block of the point `row / 5000`. -/
theorem cover (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  let t : Fin cfg4.N := ⟨(i 0).val / 5000, by rw [show cfg4.N = 10 from N_4]; omega⟩
  obtain ⟨-, -, -, -, e4, e5⟩ := idx_facts t
  have ht : t.val = (i 0).val / 5000 := rfl
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- After the region the output array is the product of the arrays the region found. -/
theorem final (c : Dev nD) : (dat4 V c).arrAt 2 cfg4.N
    = Cert.Spec.proj (F := Ideal) (V c (Pipeline.arrRef spec4 0)) (V c (Pipeline.arrRef spec4 1)) :=
  (dat4 V c).arrAt_eq_of_cover 2 _ (fun t _ => flushed_eq V c t) cover

end Cert.KernelIdeal.Reg4

end
-- ==== Proof.Reg5.lean ====
/-
  Region 5 of the kernel's program adds a bias row to a 50000 × 128 array and applies the exponential linear
  unit, 5000 rows at a grid point.

  At point `t` the body reads rows `5000 t … 5000 t + 4999` of the array and the one bias row; entry (p, q) of
  what it stores is the unit of array (5000 t + p, q) + bias (0, q), which is entry (5000 t + p, q) of the unit of
  the whole array with the row added. The ten blocks tile the 50000 rows.
-/
import proofs.«163357_j128849019557_1_alg».proof.Proof.Gen.KernelIdeal.Frame
import proofs.«163357_j128849019557_1_alg».proof.Proof.Gen.ReferenceIdeal
import proofs.«163357_j128849019557_1_alg».proof.Proof.Spec
import proofs.«163357_j128849019557_1_alg».proof.Proof.EluLaw
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost

set_option maxRecDepth 16384

noncomputable section

namespace Cert.KernelIdeal.Reg5

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_off : (![0, 0] : Fin 2 → Nat) = fun _ => 0 := funext fun a => by fin_cases a <;> rfl

/-- The stored block's entry (p, q) is the unit of the array block's entry plus the bias row's entry. -/
theorem pay_apply (x0 : Vec Ideal S5000x128 .f32) (x1 : Vec Ideal S1x128 .f32) (p : Fin 5000) (q : Fin 128) :
    k5_pay1 x0 x1 (ix2 p q) = Cert.Spec.eluS (x0 (ix2 p q) + x1 (ix2 (0 : Fin 1) q)) := by
  unfold k5_pay1
  show Scalar.select (FloatOps.cmpf .ogt (shapeCast S5000x128 x0 shapeCasts_S5000x128_S5000x128 (ix2 p q) + broadcastTo S5000x128 (shapeCast S1x128 x1 shapeCasts_S1x128_S1x128) broadcasts_S1x128_S5000x128 (ix2 p q)) (Ideal.ofBits .f32 0x00000000#32))
      (shapeCast S5000x128 x0 shapeCasts_S5000x128_S5000x128 (ix2 p q) + broadcastTo S5000x128 (shapeCast S1x128 x1 shapeCasts_S1x128_S1x128) broadcasts_S1x128_S5000x128 (ix2 p q))
      (Ideal.exp (shapeCast S5000x128 x0 shapeCasts_S5000x128_S5000x128 (ix2 p q) + broadcastTo S5000x128 (shapeCast S1x128 x1 shapeCasts_S1x128_S1x128) broadcasts_S1x128_S5000x128 (ix2 p q)) - Ideal.ofBits .f32 0x3F800000#32) = _
  rw [shapeCast_self, shapeCast_self, broadcastTo_1b_ab_apply, Ideal.ofBits_zero_f32, Ideal.ofBits_one_f32]
  rfl

/-- The printed index maps over the ten grid points: the row block of point `t` is `t`; the bias row is one block. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Row `p` of point `t`'s block is row `5000 t + p` of the array. -/
def row (t : Fin cfg5.N) (p : Fin 5000) : Fin 50000 :=
  ⟨t.val * 5000 + p.val, by have := Nat.lt_of_lt_of_eq t.isLt N_5; have := p.isLt; omega⟩

theorem emb_in (t : Fin cfg5.N) (p : Fin 5000) (q : Fin 128) :
    ((cfg5.win 0).blk t).view.emb (ix2 p q) = ix2 (row t p) q := by
  obtain ⟨e0, e1, -, -, -, -⟩ := idx_facts t
  funext a; apply Fin.ext
  match a with
  | ⟨0, _⟩ => show win5_0.index t (0 : Fin 2) * 5000 + 1 * p.val = t.val * 5000 + p.val; omega
  | ⟨1, _⟩ => show win5_0.index t (1 : Fin 2) * 128 + 1 * q.val = q.val; omega

theorem emb_bias (t : Fin cfg5.N) (q : Fin 128) :
    ((cfg5.win 1).blk t).view.emb (ix2 (0 : Fin 1) q) = ix2 (0 : Fin 1) q := by
  obtain ⟨-, -, e2, e3, -, -⟩ := idx_facts t
  funext a; apply Fin.ext
  match a with
  | ⟨0, _⟩ => show win5_1.index t (0 : Fin 2) * 1 + 1 * 0 = 0; omega
  | ⟨1, _⟩ => show win5_1.index t (1 : Fin 2) * 128 + 1 * q.val = q.val; omega

theorem emb_out (t : Fin cfg5.N) (p : Fin 5000) (q : Fin 128) :
    ((cfg5.win 2).blk t).view.emb (ix2 p q) = ix2 (row t p) q := by
  obtain ⟨-, -, -, -, e4, e5⟩ := idx_facts t
  funext a; apply Fin.ext
  match a with
  | ⟨0, _⟩ => show win5_2.index t (0 : Fin 2) * 5000 + 1 * p.val = t.val * 5000 + p.val; omega
  | ⟨1, _⟩ => show win5_2.index t (1 : Fin 2) * 128 + 1 * q.val = q.val; omega

/-- The array block at a point, entry by entry. -/
theorem in_apply (c : Dev nD) (t : Fin cfg5.N) (p : Fin 5000) (q : Fin 128) :
    iblk5 V c 0 t (ix2 p q) = V c (Pipeline.arrRef spec5 0) (ix2 (row t p) q) := by
  show V c (Pipeline.arrRef spec5 0) (((cfg5.win 0).blk t).view.emb (ix2 p q)) = _
  rw [emb_in]

/-- The bias block at a point is the bias row. -/
theorem bias_apply (c : Dev nD) (t : Fin cfg5.N) (q : Fin 128) :
    iblk5 V c 1 t (ix2 (0 : Fin 1) q) = V c (Pipeline.arrRef spec5 1) (ix2 (0 : Fin 1) q) := by
  show V c (Pipeline.arrRef spec5 1) (((cfg5.win 1).blk t).view.emb (ix2 (0 : Fin 1) q)) = _
  rw [emb_bias]

/-- What point `t` writes back is block `t` of the unit of the whole array with the bias row added. -/
theorem flushed_eq (c : Dev nD) (t : Fin cfg5.N) :
    (dat5 V c).flushed 2 t = ((cfg5.win 2).blk t).view.read (Elt Ideal)
      (Cert.Spec.elu (F := Ideal) (Cert.Spec.addRow (F := Ideal) (V c (Pipeline.arrRef spec5 0)) (V c (Pipeline.arrRef spec5 1)))) := by
  show (cfg5.win 2).cut (grid5.coords t) ((dat5 V c).after 2 t) = _
  rw [after5_2]
  unfold out5_2
  rw [View.canon_unit_zero zero_off]
  simp only [View.ld_unit_zero (S := S5000x128) zero_off, View.ld_unit_zero (S := S1x128) zero_off]
  refine funext fun (y : S5000x128.Idx) => ?_
  obtain ⟨p, q, rfl⟩ : ∃ (p : Fin 5000) (q : Fin 128), y = ix2 p q := ⟨y 0, y 1, eq_ix2 y⟩
  show k5_pay1 (iblk5 V c 0 t) (iblk5 V c 1 t) (ix2 p q)
    = Cert.Spec.elu (F := Ideal) (Cert.Spec.addRow (F := Ideal) (V c (Pipeline.arrRef spec5 0)) (V c (Pipeline.arrRef spec5 1))) (((cfg5.win 2).blk t).view.emb (ix2 p q))
  rw [emb_out, pay_apply, in_apply, bias_apply, Cert.Spec.elu_apply, Cert.Spec.addRow_apply]

/-- An index is in point `t`'s block iff each coordinate is in the block's range. -/
theorem mem_blk (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v75).slice (win5_2.rect t)).set ↔ _
  rw [View.set_slice_whole, Rect.mem_set_unit]
  exact Iff.rfl

/-- Every row lies in the block of the point `row / 5000`. -/
theorem cover (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  let t : Fin cfg5.N := ⟨(i 0).val / 5000, by rw [show cfg5.N = 10 from N_5]; omega⟩
  obtain ⟨-, -, -, -, e4, e5⟩ := idx_facts t
  have ht : t.val = (i 0).val / 5000 := rfl
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- After the region the output array is the unit of the array the region found with the bias row added. -/
theorem final (c : Dev nD) : (dat5 V c).arrAt 2 cfg5.N
    = Cert.Spec.elu (F := Ideal) (Cert.Spec.addRow (F := Ideal) (V c (Pipeline.arrRef spec5 0)) (V c (Pipeline.arrRef spec5 1))) :=
  (dat5 V c).arrAt_eq_of_cover 2 _ (fun t _ => flushed_eq V c t) cover

end Cert.KernelIdeal.Reg5

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.LsmLaw.lean ====
/-
  The row-wise log-softmax and the class scores of the specification, read at an index.

  For a row z of 40 scores, with M the maximum of the row, the log-softmax at column q is
  (z q - M) - log (sum over j of exp (z j - M)). The reference takes the maximum as max (-inf, reduce max from -inf),
  which is the fold of max from -inf over the row, and the sum by a reduce from zero. The scores at (r, j) are the
  sum over k of h (r, k) · Wl (k, j), plus the bias (0, j).
-/
import proofs.«163357_j128849019557_1_alg».proof.Proof.Gen.ReferenceIdeal
import proofs.«163357_j128849019557_1_alg».proof.Proof.Spec
import proofs.«163357_j128849019557_1_alg».proof.Proof.LibPlainDot
import proofs.«163357_j128849019557_1_alg».proof.Proof.LibRowOps
import Idealize.ShloMosaic.Lib.ValueIdx
import Idealize.ShloMosaic.Lib.IdealHost
import Idealize.ShloMosaic.Lib.KernelVsHost

noncomputable section

open scoped BigOperators

namespace Cert.Spec

open Idealize.ShloMosaic Idealize.ShloMosaic.ValueIdx Cert.ReferenceIdeal Cert.ReferenceIdeal.Facts₀

/-- The maximum of a row of 40 extended reals, folded from the float pattern of -inf. -/
def rmax (z : Fin 40 → EReal) : EReal := (Finset.univ : Finset (Fin 40)).fold max (Ideal.ofBits .f32 0xFF800000#32) z

/-- A row's log-softmax at column q. -/
def lsmRow (z : Fin 40 → EReal) (q : Fin 40) : EReal :=
  (z q - rmax z) - Ideal.log (∑ j : Fin 40, Ideal.exp (z j - rmax z))

/-- The float pattern of -inf is below every extended real. -/
theorem max_negInf (y : EReal) : max (Ideal.ofBits .f32 0xFF800000#32) y = y := by
  simp [Ideal.ofBits, Ideal.ieee]

theorem reduces_rows : (S50000x40 : Shape).Reduces [1] S50000 := by decide

/-- The host's exponential and logarithm act entry by entry. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- The row maximum, spread over the row. -/
theorem rowMax_apply (Z : Arr Ideal S50000x40 .f32) (r : Fin 50000) (q : Fin 40) :
    rowMax (F := Ideal) Z (ix2 r q) = rmax (fun j => Z (ix2 r j)) := by
  unfold rowMax
  rw [RowOps.colInDim2_apply, RowOps.colInDim_apply, maximumf_apply,
    RowOps.rowMax_host Z (constant (F := Ideal) S_ .f32 0xFF800000#32) reducesTo_S50000x40_S50000_d1 reduces_rows h_S_ r]
  exact max_negInf (rmax fun j => Z (ix2 r j))

/-- The log of the row sum, spread over the row. -/
theorem rowLogSum_apply (E : Arr Ideal S50000x40 .f32) (r : Fin 50000) (q : Fin 40) :
    rowLogSum (F := Ideal) E (ix2 r q) = Ideal.log (∑ j : Fin 40, E (ix2 r j)) := by
  unfold rowLogSum
  rw [RowOps.colInDim2_apply, hostLog_apply, RowOps.colInDim_apply,
    RowOps.rowSum_host E (constant (F := Ideal) S_ .f32 0x00000000#32) reducesTo_S50000x40_S50000_d1 reduces_rows h_S_ r]
  refine congrArg Ideal.log ?_
  exact (congrArg (fun s => s + ∑ j : Fin 40, E (ix2 r j)) Ideal.ofBits_zero_f32).trans (zero_add _)

/-- The row-wise log-softmax read at an index is the row's log-softmax. -/
theorem logSoftmax_apply (Z : Arr Ideal S50000x40 .f32) (r : Fin 50000) (q : Fin 40) :
    logSoftmax (F := Ideal) Z (ix2 r q) = lsmRow (fun j => Z (ix2 r j)) q := by
  unfold logSoftmax
  rw [subf_apply, subf_apply, rowLogSum_apply, rowMax_apply]
  unfold lsmRow
  refine congrArg (fun s => (Z (ix2 r q) - rmax (fun j => Z (ix2 r j))) - Ideal.log s) (Finset.sum_congr rfl fun j _ => ?_)
  rw [hostExp_apply, subf_apply, rowMax_apply]

/-- The class scores read at an index. -/
theorem logits_apply (H : Arr Ideal S50000x128 .f32) (Wl : Arr Ideal S128x40 .f32) (bl : Arr Ideal S1x40 .f32)
    (r : Fin 50000) (j : Fin 40) :
    logits (F := Ideal) H Wl bl (ix2 r j) = (∑ k : Fin 128, H (ix2 r k) * Wl (ix2 k j)) + bl (ix2 (0 : Fin 1) j) := by
  unfold logits
  rw [addf_apply, broadcastInDim_oneRow_apply]
  exact congrArg (fun s => s + bl (ix2 (0 : Fin 1) j)) (PlainDot.dotGeneral_apply (M := 50000) (K := 128) (N := 40) none _ H Wl r j)

end Cert.Spec

end
-- ==== Proof.Reg6.lean ====
/-
  Region 6 of the kernel's program: the class scores of 5000 rows at a grid point and their row-wise log-softmax.

  At point `t` the body reads rows `5000 t … 5000 t + 4999` of the feature array, the whole 128 × 40 matrix and the
  bias row. Row p of what it stores is the log-softmax of the 40 scores
  sum over k of features (5000 t + p, k) · matrix (k, j) + bias (0, j): the maximum by a vector reduction from -inf,
  the sum by one from zero, each stood up as a column and spread over the row. That is row 5000 t + p of the
  log-softmax of the scores of the whole arrays. The ten blocks tile the 50000 rows.
-/
import proofs.«163357_j128849019557_1_alg».proof.Proof.Gen.KernelIdeal.Frame
import proofs.«163357_j128849019557_1_alg».proof.Proof.Gen.ReferenceIdeal
import proofs.«163357_j128849019557_1_alg».proof.Proof.Spec
import proofs.«163357_j128849019557_1_alg».proof.Proof.LsmLaw
import proofs.«163357_j128849019557_1_alg».proof.Proof.LibPlainDot
import proofs.«163357_j128849019557_1_alg».proof.Proof.LibRowOps
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost

set_option maxRecDepth 16384

noncomputable section

open scoped BigOperators

namespace Cert.KernelIdeal.Reg6

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_off : (![0, 0] : Fin 2 → Nat) = fun _ => 0 := funext fun a => by fin_cases a <;> rfl

/-- The block's scores: the product of the loaded blocks plus the bias row on every row. -/
def scores (x0 : Vec Ideal S5000x128 .f32) (x1 : Vec Ideal S128x40 .f32) (x2 : Vec Ideal S1x40 .f32) : FVec Ideal S5000x40 .f32 :=
  addf (matmul dot_S5000x128_S128x40_S5000x40_1_0_0_1_n_n none
      (truncf .bf16 (shapeCast S5000x128 x0 shapeCasts_S5000x128_S5000x128) bitsLt_bf16_f32) (truncf .bf16 x1 bitsLt_bf16_f32)
      (constant S5000x40 .f32 0x00000000#32))
    (broadcastTo S5000x40 (shapeCast S1x40 x2 shapeCasts_S1x40_S1x40) broadcasts_S1x40_S5000x40)

/-- Each row's maximum, spread over the row. -/
def vmax (v : FVec Ideal S5000x40 .f32) : FVec Ideal S5000x40 .f32 :=
  broadcastTo S5000x40 (shapeCast S5000x1 (multiReduction .maximumf [1] S5000 v 0xFF800000#32 reduces_S5000x40_S5000 (.inl rfl) rfl)
    shapeCasts_S5000_S5000x1) broadcasts_S5000x1_S5000x40

/-- The log of each row's sum, spread over the row. -/
def vlogsum (e : FVec Ideal S5000x40 .f32) : FVec Ideal S5000x40 .f32 :=
  broadcastTo S5000x40 (log (shapeCast S5000x1 (multiReduction .add [1] S5000 e 0x00000000#32 reduces_S5000x40_S5000 (.inl rfl) rfl)
    shapeCasts_S5000_S5000x1)) broadcasts_S5000x1_S5000x40

theorem vmax_apply (v : FVec Ideal S5000x40 .f32) (p : Fin 5000) (q : Fin 40) :
    vmax v (ix2 p q) = Cert.Spec.rmax (fun j => v (ix2 p j)) := by
  unfold vmax
  rw [RowOps.colBcast_apply, RowOps.colCast_apply]
  exact RowOps.rowMax_vector v 0xFF800000#32 reduces_S5000x40_S5000 (.inl rfl) rfl p

theorem vlogsum_apply (e : FVec Ideal S5000x40 .f32) (p : Fin 5000) (q : Fin 40) :
    vlogsum e (ix2 p q) = Ideal.log (∑ j : Fin 40, e (ix2 p j)) := by
  unfold vlogsum
  rw [RowOps.colBcast_apply]
  show Ideal.log (shapeCast S5000x1 (multiReduction .add [1] S5000 e 0x00000000#32 reduces_S5000x40_S5000 (.inl rfl) rfl)
    shapeCasts_S5000_S5000x1 (ix2 p (0 : Fin 1))) = _
  rw [RowOps.colCast_apply]
  exact congrArg Ideal.log (RowOps.rowSum_vector e 0x00000000#32 reduces_S5000x40_S5000 (.inl rfl) rfl p)

/-- The body's log-softmax of a block of scores, at an index, is the row's log-softmax. -/
theorem lsm_vec (v : FVec Ideal S5000x40 .f32) (p : Fin 5000) (q : Fin 40) :
    subf (subf v (vmax v)) (vlogsum (exp (subf v (vmax v)))) (ix2 p q) = Cert.Spec.lsmRow (fun j => v (ix2 p j)) q := by
  show (v (ix2 p q) - vmax v (ix2 p q)) - vlogsum (exp (subf v (vmax v))) (ix2 p q) = _
  rw [vlogsum_apply, vmax_apply]
  unfold Cert.Spec.lsmRow
  refine congrArg (fun s => (v (ix2 p q) - Cert.Spec.rmax (fun j => v (ix2 p j))) - Ideal.log s) (Finset.sum_congr rfl fun j _ => ?_)
  show Ideal.exp (v (ix2 p j) - vmax v (ix2 p j)) = _
  rw [vmax_apply]

theorem scores_apply (x0 : Vec Ideal S5000x128 .f32) (x1 : Vec Ideal S128x40 .f32) (x2 : Vec Ideal S1x40 .f32)
    (p : Fin 5000) (j : Fin 40) :
    scores x0 x1 x2 (ix2 p j) = (∑ k : Fin 128, x0 (ix2 p k) * x1 (ix2 k j)) + x2 (ix2 (0 : Fin 1) j) := by
  unfold scores
  rw [addf_apply, shapeCast_self, shapeCast_self, broadcastTo_1b_ab_apply]
  exact congrArg (fun s => s + x2 (ix2 (0 : Fin 1) j))
    (PlainDot.matmul_zero_apply (M := 5000) (K := 128) (N := 40) none (truncf .bf16 x0 bitsLt_bf16_f32) (truncf .bf16 x1 bitsLt_bf16_f32) p j)

/-- The stored block's entry (p, q) is the log-softmax of row p's scores, at column q. -/
theorem pay_apply (x0 : Vec Ideal S5000x128 .f32) (x1 : Vec Ideal S128x40 .f32) (x2 : Vec Ideal S1x40 .f32)
    (p : Fin 5000) (q : Fin 40) :
    k6_pay1 x0 x1 x2 (ix2 p q)
      = Cert.Spec.lsmRow (fun j => (∑ k : Fin 128, x0 (ix2 p k) * x1 (ix2 k j)) + x2 (ix2 (0 : Fin 1) j)) q := by
  have e : k6_pay1 x0 x1 x2 = subf (subf (scores x0 x1 x2) (vmax (scores x0 x1 x2)))
      (vlogsum (exp (subf (scores x0 x1 x2) (vmax (scores x0 x1 x2))))) := rfl
  rw [e, lsm_vec]
  exact congrArg (fun z => Cert.Spec.lsmRow z q) (funext fun j => scores_apply x0 x1 x2 p j)

/-- The printed index maps over the ten grid points: the row block of point `t` is `t`; matrix and bias are one block. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Row `p` of point `t`'s block is row `5000 t + p` of the array. -/
def row (t : Fin cfg6.N) (p : Fin 5000) : Fin 50000 :=
  ⟨t.val * 5000 + p.val, by have := Nat.lt_of_lt_of_eq t.isLt N_6; have := p.isLt; omega⟩

theorem emb_left (t : Fin cfg6.N) (p : Fin 5000) (k : Fin 128) :
    ((cfg6.win 0).blk t).view.emb (ix2 p k) = ix2 (row t p) k := by
  obtain ⟨e0, e1, -, -, -, -, -, -⟩ := idx_facts t
  funext a; apply Fin.ext
  match a with
  | ⟨0, _⟩ => show win6_0.index t (0 : Fin 2) * 5000 + 1 * p.val = t.val * 5000 + p.val; omega
  | ⟨1, _⟩ => show win6_0.index t (1 : Fin 2) * 128 + 1 * k.val = k.val; omega

theorem emb_right (t : Fin cfg6.N) (k : Fin 128) (j : Fin 40) :
    ((cfg6.win 1).blk t).view.emb (ix2 k j) = ix2 k j := by
  obtain ⟨-, -, e2, e3, -, -, -, -⟩ := idx_facts t
  funext a; apply Fin.ext
  match a with
  | ⟨0, _⟩ => show win6_1.index t (0 : Fin 2) * 128 + 1 * k.val = k.val; omega
  | ⟨1, _⟩ => show win6_1.index t (1 : Fin 2) * 40 + 1 * j.val = j.val; omega

theorem emb_bias (t : Fin cfg6.N) (j : Fin 40) :
    ((cfg6.win 2).blk t).view.emb (ix2 (0 : Fin 1) j) = ix2 (0 : Fin 1) j := by
  obtain ⟨-, -, -, -, e4, e5, -, -⟩ := idx_facts t
  funext a; apply Fin.ext
  match a with
  | ⟨0, _⟩ => show win6_2.index t (0 : Fin 2) * 1 + 1 * 0 = 0; omega
  | ⟨1, _⟩ => show win6_2.index t (1 : Fin 2) * 40 + 1 * j.val = j.val; omega

theorem emb_out (t : Fin cfg6.N) (p : Fin 5000) (q : Fin 40) :
    ((cfg6.win 3).blk t).view.emb (ix2 p q) = ix2 (row t p) q := by
  obtain ⟨-, -, -, -, -, -, e6, e7⟩ := idx_facts t
  funext a; apply Fin.ext
  match a with
  | ⟨0, _⟩ => show win6_3.index t (0 : Fin 2) * 5000 + 1 * p.val = t.val * 5000 + p.val; omega
  | ⟨1, _⟩ => show win6_3.index t (1 : Fin 2) * 40 + 1 * q.val = q.val; omega

theorem left_apply (c : Dev nD) (t : Fin cfg6.N) (p : Fin 5000) (k : Fin 128) :
    iblk6 V c 0 t (ix2 p k) = V c (Pipeline.arrRef spec6 0) (ix2 (row t p) k) := by
  show V c (Pipeline.arrRef spec6 0) (((cfg6.win 0).blk t).view.emb (ix2 p k)) = _
  rw [emb_left]

theorem right_apply (c : Dev nD) (t : Fin cfg6.N) (k : Fin 128) (j : Fin 40) :
    iblk6 V c 1 t (ix2 k j) = V c (Pipeline.arrRef spec6 1) (ix2 k j) := by
  show V c (Pipeline.arrRef spec6 1) (((cfg6.win 1).blk t).view.emb (ix2 k j)) = _
  rw [emb_right]

theorem bias_apply (c : Dev nD) (t : Fin cfg6.N) (j : Fin 40) :
    iblk6 V c 2 t (ix2 (0 : Fin 1) j) = V c (Pipeline.arrRef spec6 2) (ix2 (0 : Fin 1) j) := by
  show V c (Pipeline.arrRef spec6 2) (((cfg6.win 2).blk t).view.emb (ix2 (0 : Fin 1) j)) = _
  rw [emb_bias]

/-- What point `t` writes back is block `t` of the log-softmax of the scores of the whole arrays. -/
theorem flushed_eq (c : Dev nD) (t : Fin cfg6.N) :
    (dat6 V c).flushed 3 t = ((cfg6.win 3).blk t).view.read (Elt Ideal)
      (Cert.Spec.logSoftmax (F := Ideal) (Cert.Spec.logits (F := Ideal) (V c (Pipeline.arrRef spec6 0)) (V c (Pipeline.arrRef spec6 1)) (V c (Pipeline.arrRef spec6 2)))) := by
  show (cfg6.win 3).cut (grid6.coords t) ((dat6 V c).after 3 t) = _
  rw [after6_3]
  unfold out6_3
  rw [View.canon_unit_zero zero_off]
  simp only [View.ld_unit_zero (S := S5000x128) zero_off, View.ld_unit_zero (S := S128x40) zero_off, View.ld_unit_zero (S := S1x40) zero_off]
  refine funext fun (y : S5000x40.Idx) => ?_
  obtain ⟨p, q, rfl⟩ : ∃ (p : Fin 5000) (q : Fin 40), y = ix2 p q := ⟨y 0, y 1, eq_ix2 y⟩
  show k6_pay1 (iblk6 V c 0 t) (iblk6 V c 1 t) (iblk6 V c 2 t) (ix2 p q)
    = Cert.Spec.logSoftmax (F := Ideal) (Cert.Spec.logits (F := Ideal) (V c (Pipeline.arrRef spec6 0)) (V c (Pipeline.arrRef spec6 1)) (V c (Pipeline.arrRef spec6 2))) (((cfg6.win 3).blk t).view.emb (ix2 p q))
  rw [emb_out, pay_apply, Cert.Spec.logSoftmax_apply]
  refine congrArg (fun z => Cert.Spec.lsmRow z q) (funext fun j => ?_)
  rw [Cert.Spec.logits_apply, bias_apply]
  simp only [left_apply, right_apply]

/-- An index is in point `t`'s block iff each coordinate is in the block's range. -/
theorem mem_blk (t : Fin cfg6.N) (i : S50000x40.Idx) :
    i ∈ ((cfg6.win 3).blk t).view.set ↔ ∀ a : Fin 2, win6_3.index t a * S5000x40.size a ≤ (i a).val ∧ (i a).val < win6_3.index t a * S5000x40.size a + S5000x40.size a := by
  show i ∈ ((View.whole main_v77).slice (win6_3.rect t)).set ↔ _
  rw [View.set_slice_whole, Rect.mem_set_unit]
  exact Iff.rfl

/-- Every row lies in the block of the point `row / 5000`. -/
theorem cover (i : S50000x40.Idx) : ∃ t : Fin cfg6.N, (cfg6.win 3).flush t = true ∧ i ∈ ((cfg6.win 3).blk t).view.set := by
  have hi0 : (i 0).val < 50000 := (i 0).isLt
  have hi1 : (i 1).val < 40 := (i 1).isLt
  let t : Fin cfg6.N := ⟨(i 0).val / 5000, by rw [show cfg6.N = 10 from N_6]; omega⟩
  obtain ⟨-, -, -, -, -, -, e6, e7⟩ := idx_facts t
  have ht : t.val = (i 0).val / 5000 := rfl
  refine ⟨t, flush6_3 t, ?_⟩
  rw [mem_blk]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 40 ≤ (i 1).val ∧ (i 1).val < win6_3.index t (1 : Fin 2) * 40 + 40; omega

/-- After the region the result array is the log-softmax of the scores of the arrays the region found. -/
theorem final (c : Dev nD) : (dat6 V c).arrAt 3 cfg6.N
    = Cert.Spec.logSoftmax (F := Ideal) (Cert.Spec.logits (F := Ideal) (V c (Pipeline.arrRef spec6 0)) (V c (Pipeline.arrRef spec6 1)) (V c (Pipeline.arrRef spec6 2))) :=
  (dat6 V c).arrAt_eq_of_cover 3 _ (fun t _ => flushed_eq V c t) cover

end Cert.KernelIdeal.Reg6

end
-- ==== Proof.LibRowCast.lean ====
/-
  A vector laid out as a one-row matrix: the reshape and the broadcast along axis 1 are the same array.

  Both place entry j of a vector of n entries at (0, j) of a 1 × n matrix.
-/
import Idealize.ShloMosaic.Lib.Pipeline.Value
import Idealize.ShloMosaic.Lib.ValueIdx

noncomputable section

namespace Idealize.ShloMosaic.RowCast

open Idealize.ShloMosaic Idealize.ShloMosaic.ValueIdx

variable {n : Nat} {α : Type}

/-- A vector reshaped to one row is the vector broadcast along axis 1 of a one-row matrix. -/
theorem shapeCast_row_eq_broadcastInDim (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have e2 := shapeCast_apply x h1 i (ix1 (i 1 : Fin n)) (by
    rw [Shape.rowMajor_val_two, Shape.rowMajor_val_one]
    have h0 : (i 0).val < 1 := (i 0).isLt
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

end Idealize.ShloMosaic.RowCast

end
-- ==== Proof.KChain.lean ====
/-
  The kernel's program, boundary by boundary.

  The program alternates stretches of host operations with seven grid regions. Written with the launch contents
  x (features), E (edge list), W0 b0 W1 b1 W2 b2 (the three layers) and Wl bl (the classifier), the arrays hold:
  after the opening stretches, the edge sources, the edge targets and the column of edge weights; after region 0
  the product x W0; after the next stretch its weighted sum over incoming edges and the bias as a row (the program
  reshapes the bias vector to one row, which is the same array as the reference's broadcast of it along axis 1);
  after region 1 the first layer; and so on through the third layer; after the last stretch the classifier's bias as
  a row; after region 6 the log-softmax of the class scores. Buffers a segment does not write keep their contents.
-/
import proofs.«163357_j128849019557_1_alg».proof.Proof.Gen.KernelIdeal.Frame
import proofs.«163357_j128849019557_1_alg».proof.Proof.Gen.ReferenceIdeal
import proofs.«163357_j128849019557_1_alg».proof.Proof.Spec
import proofs.«163357_j128849019557_1_alg».proof.Proof.Reg0
import proofs.«163357_j128849019557_1_alg».proof.Proof.Reg1
import proofs.«163357_j128849019557_1_alg».proof.Proof.Reg2
import proofs.«163357_j128849019557_1_alg».proof.Proof.Reg3
import proofs.«163357_j128849019557_1_alg».proof.Proof.Reg4
import proofs.«163357_j128849019557_1_alg».proof.Proof.Reg5
import proofs.«163357_j128849019557_1_alg».proof.Proof.Reg6
import proofs.«163357_j128849019557_1_alg».proof.Proof.LibRowCast
import Idealize.ShloMosaic.Lib.StableHlo.Run

set_option maxRecDepth 16384

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

set_option quotPrecheck false

local notation "aX" => m ((c : Thread nD τ).loc main_arg0)
local notation "aE" => m ((c : Thread nD τ).loc main_arg1)
local notation "aW0" => m ((c : Thread nD τ).loc main_arg2)
local notation "ab0" => m ((c : Thread nD τ).loc main_arg3)
local notation "aW1" => m ((c : Thread nD τ).loc main_arg4)
local notation "ab1" => m ((c : Thread nD τ).loc main_arg5)
local notation "aW2" => m ((c : Thread nD τ).loc main_arg6)
local notation "ab2" => m ((c : Thread nD τ).loc main_arg7)
local notation "aWl" => m ((c : Thread nD τ).loc main_arg8)
local notation "abl" => m ((c : Thread nD τ).loc main_arg9)

/-- Through the three opening stretches. -/
local macro "walk0" : tactic => `(tactic| (
  show StableHlo.after hostOps0_2 (StableHlo.after hostOps0_1 (StableHlo.after hostOps0 _)) _ = _
  dsimp only [hostOps0_2, hostOps0_1, hostOps0]
  after_results_simp))
local macro "walk1" : tactic => `(tactic| (
  show StableHlo.after hostOps1 _ _ = _
  dsimp only [hostOps1]
  after_results_simp))
local macro "walk3" : tactic => `(tactic| (
  show StableHlo.after hostOps3 _ _ = _
  dsimp only [hostOps3]
  after_results_simp))
local macro "walk5" : tactic => `(tactic| (
  show StableHlo.after hostOps5 _ _ = _
  dsimp only [hostOps5]
  after_results_simp))
local macro "walk6" : tactic => `(tactic| (
  show StableHlo.after hostOps6 _ _ = _
  dsimp only [hostOps6]
  after_results_simp))

/-! ## The opening stretches: edge ends and edge weights -/

theorem W3_v3 : W3 m ρ c (Proc.devRef .tc main_v3) = Cert.Spec.srcIdx (F := Ideal) aE := by
  walk0 <;> rfl

theorem W3_v6 : W3 m ρ c (Proc.devRef .tc main_v6) = Cert.Spec.dstIdx (F := Ideal) aE := by
  walk0 <;> rfl

theorem W3_arg0 : W3 m ρ c (Proc.devRef .tc main_arg0) = aX := by walk0 <;> rfl
theorem W3_arg2 : W3 m ρ c (Proc.devRef .tc main_arg2) = aW0 := by walk0 <;> rfl
theorem W3_arg3 : W3 m ρ c (Proc.devRef .tc main_arg3) = ab0 := by walk0 <;> rfl
theorem W3_arg4 : W3 m ρ c (Proc.devRef .tc main_arg4) = aW1 := by walk0 <;> rfl
theorem W3_arg5 : W3 m ρ c (Proc.devRef .tc main_arg5) = ab1 := by walk0 <;> rfl
theorem W3_arg6 : W3 m ρ c (Proc.devRef .tc main_arg6) = aW2 := by walk0 <;> rfl
theorem W3_arg7 : W3 m ρ c (Proc.devRef .tc main_arg7) = ab2 := by walk0 <;> rfl
theorem W3_arg8 : W3 m ρ c (Proc.devRef .tc main_arg8) = aWl := by walk0 <;> rfl
theorem W3_arg9 : W3 m ρ c (Proc.devRef .tc main_arg9) = abl := by walk0 <;> rfl

/-- After the first stretch: which nodes have positive degree. -/
theorem W1_v12 : W1 m ρ c (Proc.devRef .tc main_v12)
    = cmpf .ogt (Cert.Spec.deg (F := Ideal) aE) (broadcastInDim Cert.ReferenceIdeal.S50000 ![] Cert.ReferenceIdeal.Facts₀.bcast_S_S50000 (constant (F := Ideal) Cert.ReferenceIdeal.S_ .f32 0x00000000#32)) := by
  show StableHlo.after hostOps0 (W0 m ρ c) _ = _
  dsimp only [hostOps0]
  after_results_simp <;> rfl

/-- After the first stretch: the degrees to the power -1/2. -/
theorem W1_v13 : W1 m ρ c (Proc.devRef .tc main_v13) = Host.rsqrt (F := Ideal) (s := Cert.ReferenceIdeal.S50000) (φ := .f32) (Cert.Spec.deg (F := Ideal) aE) := by
  show StableHlo.after hostOps0 (W0 m ρ c) _ = _
  dsimp only [hostOps0]
  after_results_simp <;> rfl

theorem W1_cst2 : W1 m ρ c (Proc.devRef .tc main_cst_2) = constant (F := Ideal) Cert.ReferenceIdeal.S_ .f32 0x00000000#32 := by
  show StableHlo.after hostOps0 (W0 m ρ c) _ = _
  dsimp only [hostOps0]
  after_results_simp <;> rfl

theorem W1_v3 : W1 m ρ c (Proc.devRef .tc main_v3) = Cert.Spec.srcIdx (F := Ideal) aE := by
  show StableHlo.after hostOps0 (W0 m ρ c) _ = _
  dsimp only [hostOps0]
  after_results_simp <;> rfl

theorem W1_v6 : W1 m ρ c (Proc.devRef .tc main_v6) = Cert.Spec.dstIdx (F := Ideal) aE := by
  show StableHlo.after hostOps0 (W0 m ρ c) _ = _
  dsimp only [hostOps0]
  after_results_simp <;> rfl

/-- The second stretch, from any contents: the select of the positive-degree mask. -/
theorem st1_v14 (V : Valuation τ sig (Elt Ideal)) : StableHlo.after hostOps0_1 V (Proc.devRef .tc main_v14)
    = select (V (Proc.devRef .tc main_v12)) (V (Proc.devRef .tc main_v13)) (broadcastInDim S50000 ![] bcast_S_S50000 (id (V (Proc.devRef .tc main_cst_2)))) := by
  dsimp only [hostOps0_1]
  after_results_simp <;> rfl

theorem st1_v3 (V : Valuation τ sig (Elt Ideal)) : StableHlo.after hostOps0_1 V (Proc.devRef .tc main_v3) = (V (Proc.devRef .tc main_v3)) := by
  dsimp only [hostOps0_1]
  after_results_simp

theorem st1_v6 (V : Valuation τ sig (Elt Ideal)) : StableHlo.after hostOps0_1 V (Proc.devRef .tc main_v6) = (V (Proc.devRef .tc main_v6)) := by
  dsimp only [hostOps0_1]
  after_results_simp

theorem W2_v14 : W2 m ρ c (Proc.devRef .tc main_v14) = Cert.Spec.dinv (F := Ideal) aE := by
  refine (st1_v14 (W1 m ρ c)).trans ?_
  rw [W1_v12, W1_v13, W1_cst2]
  rfl

theorem W2_v3 : W2 m ρ c (Proc.devRef .tc main_v3) = Cert.Spec.srcIdx (F := Ideal) aE := (st1_v3 (W1 m ρ c)).trans (W1_v3 m ρ c)
theorem W2_v6 : W2 m ρ c (Proc.devRef .tc main_v6) = Cert.Spec.dstIdx (F := Ideal) aE := (st1_v6 (W1 m ρ c)).trans (W1_v6 m ρ c)

/-- The third stretch, from any contents: the column of products of the two gathered factors. -/
theorem st2_v30 (V : Valuation τ sig (Elt Ideal)) : StableHlo.after hostOps0_2 V (Proc.devRef .tc main_v30)
    = (broadcastInDim S1650000x1 ![0] bcast_S1650000_S1650000x1_0
        (mulf (F := Ideal) (φ := .f32)
          (Host.gather gather_S50000_S1650000x1_S1650000_n_0_n_n_0_1_1 (V (Proc.devRef .tc main_v14) : FVec Ideal S50000 .f32) (Cert.Spec.wrapIdx (F := Ideal) (V (Proc.devRef .tc main_v3))))
          (Host.gather gather_S50000_S1650000x1_S1650000_n_0_n_n_0_1_1 (V (Proc.devRef .tc main_v14) : FVec Ideal S50000 .f32) (Cert.Spec.wrapIdx (F := Ideal) (V (Proc.devRef .tc main_v6))))) : FVec Ideal S1650000x1 .f32) := by
  dsimp only [hostOps0_2]
  after_results_simp <;> rfl

theorem W3_v30 : W3 m ρ c (Proc.devRef .tc main_v30) = broadcastInDim Cert.ReferenceIdeal.S1650000x1 ![0] Cert.ReferenceIdeal.Facts₀.bcast_S1650000_S1650000x1_0 (Cert.Spec.edgeW (F := Ideal) aE) := by
  refine (st2_v30 (W2 m ρ c)).trans ?_
  rw [W2_v14, W2_v3, W2_v6]
  rfl

/-! ## Region 0 and the first aggregation -/

theorem W4_v31 : W4 m ρ c (Proc.devRef .tc main_v31) = Cert.Spec.proj (F := Ideal) aX aW0 := by
  refine (W4_arr m ρ c 2).trans ((Reg0.final (V3 m ρ) c).trans ?_)
  show Cert.Spec.proj (F := Ideal) (W3 m ρ c (Proc.devRef .tc main_arg0)) (W3 m ρ c (Proc.devRef .tc main_arg2)) = _
  rw [W3_arg0, W3_arg2]

theorem W4_v3 : W4 m ρ c (Proc.devRef .tc main_v3) = Cert.Spec.srcIdx (F := Ideal) aE :=
  (W4_of_ne m ρ c main_v3 (by decide)).trans (W3_v3 m ρ c)
theorem W4_v6 : W4 m ρ c (Proc.devRef .tc main_v6) = Cert.Spec.dstIdx (F := Ideal) aE :=
  (W4_of_ne m ρ c main_v6 (by decide)).trans (W3_v6 m ρ c)
theorem W4_v30 : W4 m ρ c (Proc.devRef .tc main_v30)
    = broadcastInDim Cert.ReferenceIdeal.S1650000x1 ![0] Cert.ReferenceIdeal.Facts₀.bcast_S1650000_S1650000x1_0 (Cert.Spec.edgeW (F := Ideal) aE) :=
  (W4_of_ne m ρ c main_v30 (by decide)).trans (W3_v30 m ρ c)
theorem W4_arg3 : W4 m ρ c (Proc.devRef .tc main_arg3) = ab0 := (W4_of_ne m ρ c main_arg3 (by decide)).trans (W3_arg3 m ρ c)
theorem W4_arg4 : W4 m ρ c (Proc.devRef .tc main_arg4) = aW1 := (W4_of_ne m ρ c main_arg4 (by decide)).trans (W3_arg4 m ρ c)
theorem W4_arg5 : W4 m ρ c (Proc.devRef .tc main_arg5) = ab1 := (W4_of_ne m ρ c main_arg5 (by decide)).trans (W3_arg5 m ρ c)
theorem W4_arg6 : W4 m ρ c (Proc.devRef .tc main_arg6) = aW2 := (W4_of_ne m ρ c main_arg6 (by decide)).trans (W3_arg6 m ρ c)
theorem W4_arg7 : W4 m ρ c (Proc.devRef .tc main_arg7) = ab2 := (W4_of_ne m ρ c main_arg7 (by decide)).trans (W3_arg7 m ρ c)
theorem W4_arg8 : W4 m ρ c (Proc.devRef .tc main_arg8) = aWl := (W4_of_ne m ρ c main_arg8 (by decide)).trans (W3_arg8 m ρ c)
theorem W4_arg9 : W4 m ρ c (Proc.devRef .tc main_arg9) = abl := (W4_of_ne m ρ c main_arg9 (by decide)).trans (W3_arg9 m ρ c)

theorem W5_v43 : W5 m ρ c (Proc.devRef .tc main_v43) = Cert.Spec.agg (F := Ideal) aE (Cert.Spec.proj (F := Ideal) aX aW0) := by
  show StableHlo.after hostOps1 (W4 m ρ c) (Proc.devRef .tc main_v43) = _
  dsimp only [hostOps1]
  after_results_simp
  rw [W4_v31, W4_v3, W4_v6, W4_v30]
  rfl

theorem W5_v44 : W5 m ρ c (Proc.devRef .tc main_v44) = Cert.Spec.biasRow (F := Ideal) ab0 := by
  show StableHlo.after hostOps1 (W4 m ρ c) (Proc.devRef .tc main_v44) = _
  dsimp only [hostOps1]
  after_results_simp
  rw [W4_arg3]
  exact RowCast.shapeCast_row_eq_broadcastInDim (n := 128) ab0 _ _

/-! ## Region 1: the first layer -/

theorem W6_v45 : W6 m ρ c (Proc.devRef .tc main_v45) = (Cert.Spec.layer (F := Ideal) aE aX aW0 ab0) := by
  refine (W6_arr m ρ c 2).trans ((Reg1.final (V5 m ρ) c).trans ?_)
  show Cert.Spec.elu (F := Ideal) (Cert.Spec.addRow (F := Ideal) (W5 m ρ c (Proc.devRef .tc main_v43)) (W5 m ρ c (Proc.devRef .tc main_v44))) = _
  rw [W5_v43, W5_v44]
  rfl

theorem W5_v3 : W5 m ρ c (Proc.devRef .tc main_v3) = Cert.Spec.srcIdx (F := Ideal) aE := by walk1; exact W4_v3 m ρ c
theorem W5_v6 : W5 m ρ c (Proc.devRef .tc main_v6) = Cert.Spec.dstIdx (F := Ideal) aE := by walk1; exact W4_v6 m ρ c
theorem W5_v30 : W5 m ρ c (Proc.devRef .tc main_v30) = broadcastInDim Cert.ReferenceIdeal.S1650000x1 ![0] Cert.ReferenceIdeal.Facts₀.bcast_S1650000_S1650000x1_0 (Cert.Spec.edgeW (F := Ideal) aE) := by walk1; exact W4_v30 m ρ c
theorem W5_arg4 : W5 m ρ c (Proc.devRef .tc main_arg4) = aW1 := by walk1; exact W4_arg4 m ρ c
theorem W5_arg5 : W5 m ρ c (Proc.devRef .tc main_arg5) = ab1 := by walk1; exact W4_arg5 m ρ c
theorem W5_arg6 : W5 m ρ c (Proc.devRef .tc main_arg6) = aW2 := by walk1; exact W4_arg6 m ρ c
theorem W5_arg7 : W5 m ρ c (Proc.devRef .tc main_arg7) = ab2 := by walk1; exact W4_arg7 m ρ c
theorem W5_arg8 : W5 m ρ c (Proc.devRef .tc main_arg8) = aWl := by walk1; exact W4_arg8 m ρ c
theorem W5_arg9 : W5 m ρ c (Proc.devRef .tc main_arg9) = abl := by walk1; exact W4_arg9 m ρ c

theorem W6_v3 : W6 m ρ c (Proc.devRef .tc main_v3) = Cert.Spec.srcIdx (F := Ideal) aE := (W6_of_ne m ρ c main_v3 (by decide)).trans (W5_v3 m ρ c)
theorem W6_v6 : W6 m ρ c (Proc.devRef .tc main_v6) = Cert.Spec.dstIdx (F := Ideal) aE := (W6_of_ne m ρ c main_v6 (by decide)).trans (W5_v6 m ρ c)
theorem W6_v30 : W6 m ρ c (Proc.devRef .tc main_v30) = broadcastInDim Cert.ReferenceIdeal.S1650000x1 ![0] Cert.ReferenceIdeal.Facts₀.bcast_S1650000_S1650000x1_0 (Cert.Spec.edgeW (F := Ideal) aE) := (W6_of_ne m ρ c main_v30 (by decide)).trans (W5_v30 m ρ c)
theorem W6_arg4 : W6 m ρ c (Proc.devRef .tc main_arg4) = aW1 := (W6_of_ne m ρ c main_arg4 (by decide)).trans (W5_arg4 m ρ c)
theorem W6_arg5 : W6 m ρ c (Proc.devRef .tc main_arg5) = ab1 := (W6_of_ne m ρ c main_arg5 (by decide)).trans (W5_arg5 m ρ c)
theorem W6_arg6 : W6 m ρ c (Proc.devRef .tc main_arg6) = aW2 := (W6_of_ne m ρ c main_arg6 (by decide)).trans (W5_arg6 m ρ c)
theorem W6_arg7 : W6 m ρ c (Proc.devRef .tc main_arg7) = ab2 := (W6_of_ne m ρ c main_arg7 (by decide)).trans (W5_arg7 m ρ c)
theorem W6_arg8 : W6 m ρ c (Proc.devRef .tc main_arg8) = aWl := (W6_of_ne m ρ c main_arg8 (by decide)).trans (W5_arg8 m ρ c)
theorem W6_arg9 : W6 m ρ c (Proc.devRef .tc main_arg9) = abl := (W6_of_ne m ρ c main_arg9 (by decide)).trans (W5_arg9 m ρ c)

/-! ## Region 2 and the second aggregation -/

theorem W7_v46 : W7 m ρ c (Proc.devRef .tc main_v46) = Cert.Spec.proj (F := Ideal) (Cert.Spec.layer (F := Ideal) aE aX aW0 ab0) aW1 := by
  refine (W7_arr m ρ c 2).trans ((Reg2.final (V6 m ρ) c).trans ?_)
  show Cert.Spec.proj (F := Ideal) (W6 m ρ c (Proc.devRef .tc main_v45)) (W6 m ρ c (Proc.devRef .tc main_arg4)) = _
  rw [W6_v45, W6_arg4]

theorem W7_v3 : W7 m ρ c (Proc.devRef .tc main_v3) = Cert.Spec.srcIdx (F := Ideal) aE := (W7_of_ne m ρ c main_v3 (by decide)).trans (W6_v3 m ρ c)
theorem W7_v6 : W7 m ρ c (Proc.devRef .tc main_v6) = Cert.Spec.dstIdx (F := Ideal) aE := (W7_of_ne m ρ c main_v6 (by decide)).trans (W6_v6 m ρ c)
theorem W7_v30 : W7 m ρ c (Proc.devRef .tc main_v30) = broadcastInDim Cert.ReferenceIdeal.S1650000x1 ![0] Cert.ReferenceIdeal.Facts₀.bcast_S1650000_S1650000x1_0 (Cert.Spec.edgeW (F := Ideal) aE) := (W7_of_ne m ρ c main_v30 (by decide)).trans (W6_v30 m ρ c)
theorem W7_arg5 : W7 m ρ c (Proc.devRef .tc main_arg5) = ab1 := (W7_of_ne m ρ c main_arg5 (by decide)).trans (W6_arg5 m ρ c)
theorem W7_arg6 : W7 m ρ c (Proc.devRef .tc main_arg6) = aW2 := (W7_of_ne m ρ c main_arg6 (by decide)).trans (W6_arg6 m ρ c)
theorem W7_arg7 : W7 m ρ c (Proc.devRef .tc main_arg7) = ab2 := (W7_of_ne m ρ c main_arg7 (by decide)).trans (W6_arg7 m ρ c)
theorem W7_arg8 : W7 m ρ c (Proc.devRef .tc main_arg8) = aWl := (W7_of_ne m ρ c main_arg8 (by decide)).trans (W6_arg8 m ρ c)
theorem W7_arg9 : W7 m ρ c (Proc.devRef .tc main_arg9) = abl := (W7_of_ne m ρ c main_arg9 (by decide)).trans (W6_arg9 m ρ c)

theorem W8_v58 : W8 m ρ c (Proc.devRef .tc main_v58) = Cert.Spec.agg (F := Ideal) aE (Cert.Spec.proj (F := Ideal) (Cert.Spec.layer (F := Ideal) aE aX aW0 ab0) aW1) := by
  show StableHlo.after hostOps3 (W7 m ρ c) (Proc.devRef .tc main_v58) = _
  dsimp only [hostOps3]
  after_results_simp
  rw [W7_v46, W7_v3, W7_v6, W7_v30]
  rfl

theorem W8_v59 : W8 m ρ c (Proc.devRef .tc main_v59) = Cert.Spec.biasRow (F := Ideal) ab1 := by
  show StableHlo.after hostOps3 (W7 m ρ c) (Proc.devRef .tc main_v59) = _
  dsimp only [hostOps3]
  after_results_simp
  rw [W7_arg5]
  exact RowCast.shapeCast_row_eq_broadcastInDim (n := 128) ab1 _ _

theorem W8_v3 : W8 m ρ c (Proc.devRef .tc main_v3) = Cert.Spec.srcIdx (F := Ideal) aE := by walk3; exact W7_v3 m ρ c
theorem W8_v6 : W8 m ρ c (Proc.devRef .tc main_v6) = Cert.Spec.dstIdx (F := Ideal) aE := by walk3; exact W7_v6 m ρ c
theorem W8_v30 : W8 m ρ c (Proc.devRef .tc main_v30) = broadcastInDim Cert.ReferenceIdeal.S1650000x1 ![0] Cert.ReferenceIdeal.Facts₀.bcast_S1650000_S1650000x1_0 (Cert.Spec.edgeW (F := Ideal) aE) := by walk3; exact W7_v30 m ρ c
theorem W8_arg6 : W8 m ρ c (Proc.devRef .tc main_arg6) = aW2 := by walk3; exact W7_arg6 m ρ c
theorem W8_arg7 : W8 m ρ c (Proc.devRef .tc main_arg7) = ab2 := by walk3; exact W7_arg7 m ρ c
theorem W8_arg8 : W8 m ρ c (Proc.devRef .tc main_arg8) = aWl := by walk3; exact W7_arg8 m ρ c
theorem W8_arg9 : W8 m ρ c (Proc.devRef .tc main_arg9) = abl := by walk3; exact W7_arg9 m ρ c

/-! ## Region 3: the second layer; region 4 and the third aggregation -/

theorem W9_v60 : W9 m ρ c (Proc.devRef .tc main_v60) = (Cert.Spec.layer (F := Ideal) aE (Cert.Spec.layer (F := Ideal) aE aX aW0 ab0) aW1 ab1) := by
  refine (W9_arr m ρ c 2).trans ((Reg3.final (V8 m ρ) c).trans ?_)
  show Cert.Spec.elu (F := Ideal) (Cert.Spec.addRow (F := Ideal) (W8 m ρ c (Proc.devRef .tc main_v58)) (W8 m ρ c (Proc.devRef .tc main_v59))) = _
  rw [W8_v58, W8_v59]
  rfl

theorem W9_v3 : W9 m ρ c (Proc.devRef .tc main_v3) = Cert.Spec.srcIdx (F := Ideal) aE := (W9_of_ne m ρ c main_v3 (by decide)).trans (W8_v3 m ρ c)
theorem W9_v6 : W9 m ρ c (Proc.devRef .tc main_v6) = Cert.Spec.dstIdx (F := Ideal) aE := (W9_of_ne m ρ c main_v6 (by decide)).trans (W8_v6 m ρ c)
theorem W9_v30 : W9 m ρ c (Proc.devRef .tc main_v30) = broadcastInDim Cert.ReferenceIdeal.S1650000x1 ![0] Cert.ReferenceIdeal.Facts₀.bcast_S1650000_S1650000x1_0 (Cert.Spec.edgeW (F := Ideal) aE) := (W9_of_ne m ρ c main_v30 (by decide)).trans (W8_v30 m ρ c)
theorem W9_arg6 : W9 m ρ c (Proc.devRef .tc main_arg6) = aW2 := (W9_of_ne m ρ c main_arg6 (by decide)).trans (W8_arg6 m ρ c)
theorem W9_arg7 : W9 m ρ c (Proc.devRef .tc main_arg7) = ab2 := (W9_of_ne m ρ c main_arg7 (by decide)).trans (W8_arg7 m ρ c)
theorem W9_arg8 : W9 m ρ c (Proc.devRef .tc main_arg8) = aWl := (W9_of_ne m ρ c main_arg8 (by decide)).trans (W8_arg8 m ρ c)
theorem W9_arg9 : W9 m ρ c (Proc.devRef .tc main_arg9) = abl := (W9_of_ne m ρ c main_arg9 (by decide)).trans (W8_arg9 m ρ c)

theorem W10_v61 : W10 m ρ c (Proc.devRef .tc main_v61) = Cert.Spec.proj (F := Ideal) (Cert.Spec.layer (F := Ideal) aE (Cert.Spec.layer (F := Ideal) aE aX aW0 ab0) aW1 ab1) aW2 := by
  refine (W10_arr m ρ c 2).trans ((Reg4.final (V9 m ρ) c).trans ?_)
  show Cert.Spec.proj (F := Ideal) (W9 m ρ c (Proc.devRef .tc main_v60)) (W9 m ρ c (Proc.devRef .tc main_arg6)) = _
  rw [W9_v60, W9_arg6]

theorem W10_v3 : W10 m ρ c (Proc.devRef .tc main_v3) = Cert.Spec.srcIdx (F := Ideal) aE := (W10_of_ne m ρ c main_v3 (by decide)).trans (W9_v3 m ρ c)
theorem W10_v6 : W10 m ρ c (Proc.devRef .tc main_v6) = Cert.Spec.dstIdx (F := Ideal) aE := (W10_of_ne m ρ c main_v6 (by decide)).trans (W9_v6 m ρ c)
theorem W10_v30 : W10 m ρ c (Proc.devRef .tc main_v30) = broadcastInDim Cert.ReferenceIdeal.S1650000x1 ![0] Cert.ReferenceIdeal.Facts₀.bcast_S1650000_S1650000x1_0 (Cert.Spec.edgeW (F := Ideal) aE) := (W10_of_ne m ρ c main_v30 (by decide)).trans (W9_v30 m ρ c)
theorem W10_arg7 : W10 m ρ c (Proc.devRef .tc main_arg7) = ab2 := (W10_of_ne m ρ c main_arg7 (by decide)).trans (W9_arg7 m ρ c)
theorem W10_arg8 : W10 m ρ c (Proc.devRef .tc main_arg8) = aWl := (W10_of_ne m ρ c main_arg8 (by decide)).trans (W9_arg8 m ρ c)
theorem W10_arg9 : W10 m ρ c (Proc.devRef .tc main_arg9) = abl := (W10_of_ne m ρ c main_arg9 (by decide)).trans (W9_arg9 m ρ c)

theorem W11_v73 : W11 m ρ c (Proc.devRef .tc main_v73) = Cert.Spec.agg (F := Ideal) aE (Cert.Spec.proj (F := Ideal) (Cert.Spec.layer (F := Ideal) aE (Cert.Spec.layer (F := Ideal) aE aX aW0 ab0) aW1 ab1) aW2) := by
  show StableHlo.after hostOps5 (W10 m ρ c) (Proc.devRef .tc main_v73) = _
  dsimp only [hostOps5]
  after_results_simp
  rw [W10_v61, W10_v3, W10_v6, W10_v30]
  rfl

theorem W11_v74 : W11 m ρ c (Proc.devRef .tc main_v74) = Cert.Spec.biasRow (F := Ideal) ab2 := by
  show StableHlo.after hostOps5 (W10 m ρ c) (Proc.devRef .tc main_v74) = _
  dsimp only [hostOps5]
  after_results_simp
  rw [W10_arg7]
  exact RowCast.shapeCast_row_eq_broadcastInDim (n := 128) ab2 _ _

theorem W11_arg8 : W11 m ρ c (Proc.devRef .tc main_arg8) = aWl := by walk5; exact W10_arg8 m ρ c
theorem W11_arg9 : W11 m ρ c (Proc.devRef .tc main_arg9) = abl := by walk5; exact W10_arg9 m ρ c

/-! ## Region 5: the third layer; the classifier's bias; region 6 -/

theorem W12_v75 : W12 m ρ c (Proc.devRef .tc main_v75) = (Cert.Spec.layer (F := Ideal) aE (Cert.Spec.layer (F := Ideal) aE (Cert.Spec.layer (F := Ideal) aE aX aW0 ab0) aW1 ab1) aW2 ab2) := by
  refine (W12_arr m ρ c 2).trans ((Reg5.final (V11 m ρ) c).trans ?_)
  show Cert.Spec.elu (F := Ideal) (Cert.Spec.addRow (F := Ideal) (W11 m ρ c (Proc.devRef .tc main_v73)) (W11 m ρ c (Proc.devRef .tc main_v74))) = _
  rw [W11_v73, W11_v74]
  rfl

theorem W12_arg8 : W12 m ρ c (Proc.devRef .tc main_arg8) = aWl := (W12_of_ne m ρ c main_arg8 (by decide)).trans (W11_arg8 m ρ c)
theorem W12_arg9 : W12 m ρ c (Proc.devRef .tc main_arg9) = abl := (W12_of_ne m ρ c main_arg9 (by decide)).trans (W11_arg9 m ρ c)

theorem W13_v76 : W13 m ρ c (Proc.devRef .tc main_v76) = Cert.Spec.biasRow40 (F := Ideal) abl := by
  show StableHlo.after hostOps6 (W12 m ρ c) (Proc.devRef .tc main_v76) = _
  dsimp only [hostOps6]
  after_results_simp
  rw [W12_arg9]
  exact RowCast.shapeCast_row_eq_broadcastInDim (n := 40) abl _ _

theorem W13_v75 : W13 m ρ c (Proc.devRef .tc main_v75) = (Cert.Spec.layer (F := Ideal) aE (Cert.Spec.layer (F := Ideal) aE (Cert.Spec.layer (F := Ideal) aE aX aW0 ab0) aW1 ab1) aW2 ab2) := by walk6; exact W12_v75 m ρ c
theorem W13_arg8 : W13 m ρ c (Proc.devRef .tc main_arg8) = aWl := by walk6; exact W12_arg8 m ρ c

/-- The result array at the end: the whole network of the launch contents. -/
theorem W14_v77 : W14 m ρ c (Proc.devRef .tc main_v77)
    = Cert.Spec.gcn (F := Ideal) aX aE aW0 ab0 aW1 ab1 aW2 ab2 aWl abl := by
  refine (W14_arr m ρ c 3).trans ((Reg6.final (V13 m ρ) c).trans ?_)
  show Cert.Spec.logSoftmax (F := Ideal) (Cert.Spec.logits (F := Ideal) (W13 m ρ c (Proc.devRef .tc main_v75)) (W13 m ρ c (Proc.devRef .tc main_arg8)) (W13 m ρ c (Proc.devRef .tc main_v76))) = _
  rw [W13_v75, W13_arg8, W13_v76]
  rfl

end Cert.KernelIdeal.Chain

end
-- ==== Proof.RefRun.lean ====
/-
  The reference program's run. Its @main, with every function it calls opened at the call, is a straight line of
  164 array operations; `ops` lists them in order. The program equals that line, so every execution of it
  terminates with each buffer holding the fold of the operations over the launch contents. The fold leaves the
  ten arguments as they were, and at the result buffer it is the graph convolution network `Cert.Spec.gcn` of the
  arguments: the line is cut into eight consecutive parts, each part's fold over an arbitrary valuation is one stage
  of the network applied to the buffers the part reads, and the stages compose to the network.
-/
import proofs.«163357_j128849019557_1_alg».proof.Defs
import proofs.«163357_j128849019557_1_alg».proof.Proof.Gen.ReferenceIdeal
import proofs.«163357_j128849019557_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 164 operations in order, each call replaced by the called function's operations over that call's own
    buffers: the edge ends with the self loops appended (7); the degree count and its inverse square root, zero where
    the degree is zero (14, the last three `_where`'s); the edge weights (19); then three layers, each the product with
    the weight matrix, the gather of the sources' rows, their scaling by the edge weight, the scatter-add onto the
    targets and the bias (20) followed by `elu`'s 15 (two comparisons with zero, `_where_0`'s three, the exponential
    minus one, the product with one, `_where_1`'s select); and the final linear map (4) followed by `log_softmax`'s 15. -/
abbrev ops : List (HloOp τ sig (Elt F)) :=
  [ StableHlo.nullary main_v0 (iotaInDim S50000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.nullary main_cst (constant S_ .f32 0x3F800000#32),
    StableHlo.unary main_cst main_v7 (broadcastInDim S1650000 ![] bcast_S_S1650000 : (⟨S_, .f32⟩ : BufTy).Contents (Elt F) → (⟨S1650000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S1650000x1 ![0] bcast_S1650000_S1650000x1_0 : (⟨S1650000, .i32⟩ : BufTy).Contents (Elt F) → (⟨S1650000x1, .i32⟩ : BufTy).Contents (Elt F)),
    StableHlo.ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S50000 ![] bcast_S_S50000),
    StableHlo.TRef.ternary (.of main_v12 : StableHlo.TRef sig ⟨S50000, .i1⟩) (.of main_v13 : StableHlo.TRef sig ⟨S50000, .f32⟩) main_call0.v1 main_call0.v2 select,
    StableHlo.nullary main_c (constantI S_ 32 0#32),
    StableHlo.unary main_c main_v15 (broadcastInDim S1650000 ![] bcast_S_S1650000 : (⟨S_, .i32⟩ : BufTy).Contents (Elt F) → (⟨S1650000, .i32⟩ : BufTy).Contents (Elt F)),
    StableHlo.binary main_v3 main_v15 main_v16 (cmpi .slt : (⟨S1650000, .i32⟩ : BufTy).Contents (Elt F) → (⟨S1650000, .i32⟩ : BufTy).Contents (Elt F) → (⟨S1650000, .i1⟩ : BufTy).Contents (Elt F)),
    StableHlo.nullary main_c_3 (constantI S_ 32 50000#32),
    StableHlo.unary main_c_3 main_v17 (broadcastInDim S1650000 ![] bcast_S_S1650000 : (⟨S_, .i32⟩ : BufTy).Contents (Elt F) → (⟨S1650000, .i32⟩ : BufTy).Contents (Elt F)),
    StableHlo.binary main_v3 main_v17 main_v18 (addi : (⟨S1650000, .i32⟩ : BufTy).Contents (Elt F) → (⟨S1650000, .i32⟩ : BufTy).Contents (Elt F) → (⟨S1650000, .i32⟩ : BufTy).Contents (Elt F)),
    StableHlo.ternary main_v16 main_v18 main_v3 main_v19 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v19 main_v20 (broadcastInDim S1650000x1 ![0] bcast_S1650000_S1650000x1_0 : (⟨S1650000, .i32⟩ : BufTy).Contents (Elt F) → (⟨S1650000x1, .i32⟩ : BufTy).Contents (Elt F)),
    StableHlo.binary main_v14 main_v20 main_v21 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.nullary main_c_4 (constantI S_ 32 0#32),
    StableHlo.unary main_c_4 main_v22 (broadcastInDim S1650000 ![] bcast_S_S1650000 : (⟨S_, .i32⟩ : BufTy).Contents (Elt F) → (⟨S1650000, .i32⟩ : BufTy).Contents (Elt F)),
    StableHlo.binary main_v6 main_v22 main_v23 (cmpi .slt : (⟨S1650000, .i32⟩ : BufTy).Contents (Elt F) → (⟨S1650000, .i32⟩ : BufTy).Contents (Elt F) → (⟨S1650000, .i1⟩ : BufTy).Contents (Elt F)),
    StableHlo.nullary main_c_5 (constantI S_ 32 50000#32),
    StableHlo.unary main_c_5 main_v24 (broadcastInDim S1650000 ![] bcast_S_S1650000 : (⟨S_, .i32⟩ : BufTy).Contents (Elt F) → (⟨S1650000, .i32⟩ : BufTy).Contents (Elt F)),
    StableHlo.binary main_v6 main_v24 main_v25 (addi : (⟨S1650000, .i32⟩ : BufTy).Contents (Elt F) → (⟨S1650000, .i32⟩ : BufTy).Contents (Elt F) → (⟨S1650000, .i32⟩ : BufTy).Contents (Elt F)),
    StableHlo.ternary main_v23 main_v25 main_v6 main_v26 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v26 main_v27 (broadcastInDim S1650000x1 ![0] bcast_S1650000_S1650000x1_0 : (⟨S1650000, .i32⟩ : BufTy).Contents (Elt F) → (⟨S1650000x1, .i32⟩ : BufTy).Contents (Elt F)),
    StableHlo.binary main_v14 main_v27 main_v28 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.binary main_v21 main_v28 main_v29 (mulf : (⟨S1650000, .f32⟩ : BufTy).Contents (Elt F) → (⟨S1650000, .f32⟩ : BufTy).Contents (Elt F) → (⟨S1650000, .f32⟩ : BufTy).Contents (Elt F)),
    StableHlo.binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_6 (constantI S_ 32 0#32),
    StableHlo.unary main_c_6 main_v31 (broadcastInDim S1650000 ![] bcast_S_S1650000 : (⟨S_, .i32⟩ : BufTy).Contents (Elt F) → (⟨S1650000, .i32⟩ : BufTy).Contents (Elt F)),
    StableHlo.binary main_v3 main_v31 main_v32 (cmpi .slt : (⟨S1650000, .i32⟩ : BufTy).Contents (Elt F) → (⟨S1650000, .i32⟩ : BufTy).Contents (Elt F) → (⟨S1650000, .i1⟩ : BufTy).Contents (Elt F)),
    StableHlo.nullary main_c_7 (constantI S_ 32 50000#32),
    StableHlo.unary main_c_7 main_v33 (broadcastInDim S1650000 ![] bcast_S_S1650000 : (⟨S_, .i32⟩ : BufTy).Contents (Elt F) → (⟨S1650000, .i32⟩ : BufTy).Contents (Elt F)),
    StableHlo.binary main_v3 main_v33 main_v34 (addi : (⟨S1650000, .i32⟩ : BufTy).Contents (Elt F) → (⟨S1650000, .i32⟩ : BufTy).Contents (Elt F) → (⟨S1650000, .i32⟩ : BufTy).Contents (Elt F)),
    StableHlo.ternary main_v32 main_v34 main_v3 main_v35 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v35 main_v36 (broadcastInDim S1650000x1 ![0] bcast_S1650000_S1650000x1_0 : (⟨S1650000, .i32⟩ : BufTy).Contents (Elt F) → (⟨S1650000x1, .i32⟩ : BufTy).Contents (Elt F)),
    StableHlo.binary main_v30 main_v36 main_v37 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.unary main_v29 main_v38 (broadcastInDim S1650000x1 ![0] bcast_S1650000_S1650000x1_0 : (⟨S1650000, .f32⟩ : BufTy).Contents (Elt F) → (⟨S1650000x1, .f32⟩ : BufTy).Contents (Elt F)),
    StableHlo.unary main_v38 main_v39 (broadcastInDim S1650000x128 ![0, 1] bcast_S1650000x1_S1650000x128_0_1 : (⟨S1650000x1, .f32⟩ : BufTy).Contents (Elt F) → (⟨S1650000x128, .f32⟩ : BufTy).Contents (Elt F)),
    StableHlo.binary main_v37 main_v39 main_v40 (mulf : (⟨S1650000x128, .f32⟩ : BufTy).Contents (Elt F) → (⟨S1650000x128, .f32⟩ : BufTy).Contents (Elt F) → (⟨S1650000x128, .f32⟩ : BufTy).Contents (Elt F)),
    StableHlo.nullary main_cst_8 (constant S_ .f32 0x00000000#32),
    StableHlo.unary main_cst_8 main_v41 (broadcastInDim S50000x128 ![] bcast_S_S50000x128 : (⟨S_, .f32⟩ : BufTy).Contents (Elt F) → (⟨S50000x128, .f32⟩ : BufTy).Contents (Elt F)),
    StableHlo.unary main_v6 main_v42 (broadcastInDim S1650000x1 ![0] bcast_S1650000_S1650000x1_0 : (⟨S1650000, .i32⟩ : BufTy).Contents (Elt F) → (⟨S1650000x1, .i32⟩ : BufTy).Contents (Elt F)),
    StableHlo.ternary main_v41 main_v42 main_v40 main_v43 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    StableHlo.unary main_arg3 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v46 : StableHlo.TRef sig ⟨S50000x128, .f32⟩) main_call1.v0 main_call1.v1 (cmpf .ogt),
    StableHlo.TRef.nullary main_call1.cst_0 (constant S_ .f32 0x00000000#32),
    StableHlo.TRef.unary main_call1.cst_0 main_call1.v2 (broadcastInDim S50000x128 ![] bcast_S_S50000x128),
    StableHlo.TRef.binary (.of main_v46 : StableHlo.TRef sig ⟨S50000x128, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x128 ![] bcast_S_S50000x128),
    StableHlo.TRef.ternary main_call1.v3 main_call1.call0.v1 (.of main_v46 : StableHlo.TRef sig ⟨S50000x128, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x128 ![] bcast_S_S50000x128),
    StableHlo.TRef.binary main_call1.v6 main_call1.v5 main_call1.v7 mulf,
    StableHlo.TRef.ternary main_call1.v1 (.of main_v46 : StableHlo.TRef sig ⟨S50000x128, .f32⟩) main_call1.v7 main_call1.call1.v0 select,
    StableHlo.binary main_v47 main_arg4 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_9 (constantI S_ 32 0#32),
    StableHlo.unary main_c_9 main_v49 (broadcastInDim S1650000 ![] bcast_S_S1650000 : (⟨S_, .i32⟩ : BufTy).Contents (Elt F) → (⟨S1650000, .i32⟩ : BufTy).Contents (Elt F)),
    StableHlo.binary main_v3 main_v49 main_v50 (cmpi .slt : (⟨S1650000, .i32⟩ : BufTy).Contents (Elt F) → (⟨S1650000, .i32⟩ : BufTy).Contents (Elt F) → (⟨S1650000, .i1⟩ : BufTy).Contents (Elt F)),
    StableHlo.nullary main_c_10 (constantI S_ 32 50000#32),
    StableHlo.unary main_c_10 main_v51 (broadcastInDim S1650000 ![] bcast_S_S1650000 : (⟨S_, .i32⟩ : BufTy).Contents (Elt F) → (⟨S1650000, .i32⟩ : BufTy).Contents (Elt F)),
    StableHlo.binary main_v3 main_v51 main_v52 (addi : (⟨S1650000, .i32⟩ : BufTy).Contents (Elt F) → (⟨S1650000, .i32⟩ : BufTy).Contents (Elt F) → (⟨S1650000, .i32⟩ : BufTy).Contents (Elt F)),
    StableHlo.ternary main_v50 main_v52 main_v3 main_v53 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v53 main_v54 (broadcastInDim S1650000x1 ![0] bcast_S1650000_S1650000x1_0 : (⟨S1650000, .i32⟩ : BufTy).Contents (Elt F) → (⟨S1650000x1, .i32⟩ : BufTy).Contents (Elt F)),
    StableHlo.binary main_v48 main_v54 main_v55 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.unary main_v29 main_v56 (broadcastInDim S1650000x1 ![0] bcast_S1650000_S1650000x1_0 : (⟨S1650000, .f32⟩ : BufTy).Contents (Elt F) → (⟨S1650000x1, .f32⟩ : BufTy).Contents (Elt F)),
    StableHlo.unary main_v56 main_v57 (broadcastInDim S1650000x128 ![0, 1] bcast_S1650000x1_S1650000x128_0_1 : (⟨S1650000x1, .f32⟩ : BufTy).Contents (Elt F) → (⟨S1650000x128, .f32⟩ : BufTy).Contents (Elt F)),
    StableHlo.binary main_v55 main_v57 main_v58 (mulf : (⟨S1650000x128, .f32⟩ : BufTy).Contents (Elt F) → (⟨S1650000x128, .f32⟩ : BufTy).Contents (Elt F) → (⟨S1650000x128, .f32⟩ : BufTy).Contents (Elt F)),
    StableHlo.nullary main_cst_11 (constant S_ .f32 0x00000000#32),
    StableHlo.unary main_cst_11 main_v59 (broadcastInDim S50000x128 ![] bcast_S_S50000x128 : (⟨S_, .f32⟩ : BufTy).Contents (Elt F) → (⟨S50000x128, .f32⟩ : BufTy).Contents (Elt F)),
    StableHlo.unary main_v6 main_v60 (broadcastInDim S1650000x1 ![0] bcast_S1650000_S1650000x1_0 : (⟨S1650000, .i32⟩ : BufTy).Contents (Elt F) → (⟨S1650000x1, .i32⟩ : BufTy).Contents (Elt F)),
    StableHlo.ternary main_v59 main_v60 main_v58 main_v61 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    StableHlo.unary main_arg5 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v61 main_v63 main_v64 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v64 : StableHlo.TRef sig ⟨S50000x128, .f32⟩) main_call2.v0 main_call2.v1 (cmpf .ogt),
    StableHlo.TRef.nullary main_call2.cst_0 (constant S_ .f32 0x00000000#32),
    StableHlo.TRef.unary main_call2.cst_0 main_call2.v2 (broadcastInDim S50000x128 ![] bcast_S_S50000x128),
    StableHlo.TRef.binary (.of main_v64 : StableHlo.TRef sig ⟨S50000x128, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S50000x128 ![] bcast_S_S50000x128),
    StableHlo.TRef.ternary main_call2.v3 main_call2.call0.v1 (.of main_v64 : StableHlo.TRef sig ⟨S50000x128, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S50000x128 ![] bcast_S_S50000x128),
    StableHlo.TRef.binary main_call2.v6 main_call2.v5 main_call2.v7 mulf,
    StableHlo.TRef.ternary main_call2.v1 (.of main_v64 : StableHlo.TRef sig ⟨S50000x128, .f32⟩) main_call2.v7 main_call2.call1.v0 select,
    StableHlo.binary main_v65 main_arg6 main_v66 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_12 (constantI S_ 32 0#32),
    StableHlo.unary main_c_12 main_v67 (broadcastInDim S1650000 ![] bcast_S_S1650000 : (⟨S_, .i32⟩ : BufTy).Contents (Elt F) → (⟨S1650000, .i32⟩ : BufTy).Contents (Elt F)),
    StableHlo.binary main_v3 main_v67 main_v68 (cmpi .slt : (⟨S1650000, .i32⟩ : BufTy).Contents (Elt F) → (⟨S1650000, .i32⟩ : BufTy).Contents (Elt F) → (⟨S1650000, .i1⟩ : BufTy).Contents (Elt F)),
    StableHlo.nullary main_c_13 (constantI S_ 32 50000#32),
    StableHlo.unary main_c_13 main_v69 (broadcastInDim S1650000 ![] bcast_S_S1650000 : (⟨S_, .i32⟩ : BufTy).Contents (Elt F) → (⟨S1650000, .i32⟩ : BufTy).Contents (Elt F)),
    StableHlo.binary main_v3 main_v69 main_v70 (addi : (⟨S1650000, .i32⟩ : BufTy).Contents (Elt F) → (⟨S1650000, .i32⟩ : BufTy).Contents (Elt F) → (⟨S1650000, .i32⟩ : BufTy).Contents (Elt F)),
    StableHlo.ternary main_v68 main_v70 main_v3 main_v71 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v71 main_v72 (broadcastInDim S1650000x1 ![0] bcast_S1650000_S1650000x1_0 : (⟨S1650000, .i32⟩ : BufTy).Contents (Elt F) → (⟨S1650000x1, .i32⟩ : BufTy).Contents (Elt F)),
    StableHlo.binary main_v66 main_v72 main_v73 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.unary main_v29 main_v74 (broadcastInDim S1650000x1 ![0] bcast_S1650000_S1650000x1_0 : (⟨S1650000, .f32⟩ : BufTy).Contents (Elt F) → (⟨S1650000x1, .f32⟩ : BufTy).Contents (Elt F)),
    StableHlo.unary main_v74 main_v75 (broadcastInDim S1650000x128 ![0, 1] bcast_S1650000x1_S1650000x128_0_1 : (⟨S1650000x1, .f32⟩ : BufTy).Contents (Elt F) → (⟨S1650000x128, .f32⟩ : BufTy).Contents (Elt F)),
    StableHlo.binary main_v73 main_v75 main_v76 (mulf : (⟨S1650000x128, .f32⟩ : BufTy).Contents (Elt F) → (⟨S1650000x128, .f32⟩ : BufTy).Contents (Elt F) → (⟨S1650000x128, .f32⟩ : BufTy).Contents (Elt F)),
    StableHlo.nullary main_cst_14 (constant S_ .f32 0x00000000#32),
    StableHlo.unary main_cst_14 main_v77 (broadcastInDim S50000x128 ![] bcast_S_S50000x128 : (⟨S_, .f32⟩ : BufTy).Contents (Elt F) → (⟨S50000x128, .f32⟩ : BufTy).Contents (Elt F)),
    StableHlo.unary main_v6 main_v78 (broadcastInDim S1650000x1 ![0] bcast_S1650000_S1650000x1_0 : (⟨S1650000, .i32⟩ : BufTy).Contents (Elt F) → (⟨S1650000x1, .i32⟩ : BufTy).Contents (Elt F)),
    StableHlo.ternary main_v77 main_v78 main_v76 main_v79 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    StableHlo.unary main_arg7 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S50000x128 ![0, 1] bcast_S1x128_S50000x128_0_1 : (⟨S1x128, .f32⟩ : BufTy).Contents (Elt F) → (⟨S50000x128, .f32⟩ : BufTy).Contents (Elt F)),
    StableHlo.binary main_v79 main_v81 main_v82 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v82 : StableHlo.TRef sig ⟨S50000x128, .f32⟩) main_call3.v0 main_call3.v1 (cmpf .ogt),
    StableHlo.TRef.nullary main_call3.cst_0 (constant S_ .f32 0x00000000#32),
    StableHlo.TRef.unary main_call3.cst_0 main_call3.v2 (broadcastInDim S50000x128 ![] bcast_S_S50000x128),
    StableHlo.TRef.binary (.of main_v82 : StableHlo.TRef sig ⟨S50000x128, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x128 ![] bcast_S_S50000x128),
    StableHlo.TRef.ternary main_call3.v3 main_call3.call0.v1 (.of main_v82 : StableHlo.TRef sig ⟨S50000x128, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x128 ![] bcast_S_S50000x128),
    StableHlo.TRef.binary main_call3.v6 main_call3.v5 main_call3.v7 mulf,
    StableHlo.TRef.ternary main_call3.v1 (.of main_v82 : StableHlo.TRef sig ⟨S50000x128, .f32⟩) main_call3.v7 main_call3.call1.v0 select,
    StableHlo.binary main_v83 main_arg8 main_v84 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    StableHlo.unary main_arg9 main_v85 (broadcastInDim S1x40 ![1] bcast_S40_S1x40_1 : (⟨S40, .f32⟩ : BufTy).Contents (Elt F) → (⟨S1x40, .f32⟩ : BufTy).Contents (Elt F)),
    StableHlo.unary main_v85 main_v86 (broadcastInDim S50000x40 ![0, 1] bcast_S1x40_S50000x40_0_1 : (⟨S1x40, .f32⟩ : BufTy).Contents (Elt F) → (⟨S50000x40, .f32⟩ : BufTy).Contents (Elt F)),
    StableHlo.binary main_v84 main_v86 main_v87 (addf : (⟨S50000x40, .f32⟩ : BufTy).Contents (Elt F) → (⟨S50000x40, .f32⟩ : BufTy).Contents (Elt F) → (⟨S50000x40, .f32⟩ : BufTy).Contents (Elt F)),
    StableHlo.TRef.nullary main_call4.cst (constant S_ .f32 0xFF800000#32),
    StableHlo.TRef.binary (.of main_v87 : StableHlo.TRef sig ⟨S50000x40, .f32⟩) main_call4.cst main_call4.v0 (fun x v => Host.reduce FloatOps.maximumf x v reducesTo_S50000x40_S50000_d1 h_S_),
    StableHlo.TRef.nullary main_call4.cst_0 (constant S_ .f32 0xFF800000#32),
    StableHlo.TRef.unary main_call4.cst_0 main_call4.v1 (broadcastInDim S50000 ![] bcast_S_S50000),
    StableHlo.TRef.binary main_call4.v1 main_call4.v0 main_call4.v2 maximumf,
    StableHlo.TRef.unary main_call4.v2 main_call4.v3 (broadcastInDim S50000x1 ![0] bcast_S50000_S50000x1_0),
    StableHlo.TRef.unary main_call4.v3 main_call4.v4 (broadcastInDim S50000x40 ![0, 1] bcast_S50000x1_S50000x40_0_1),
    StableHlo.TRef.binary (.of main_v87 : StableHlo.TRef sig ⟨S50000x40, .f32⟩) main_call4.v4 main_call4.v5 subf,
    StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S50000x40_S50000_d1 h_S_),
    StableHlo.TRef.unary main_call4.v7 main_call4.v8 (broadcastInDim S50000x1 ![0] bcast_S50000_S50000x1_0),
    StableHlo.TRef.unary main_call4.v8 main_call4.v9 Host.log,
    StableHlo.TRef.unary main_call4.v9 main_call4.v10 (broadcastInDim S50000x40 ![0, 1] bcast_S50000x1_S50000x40_0_1),
    StableHlo.TRef.binary main_call4.v5 main_call4.v10 main_call4.v11 subf ]

-- 164 binds re-associated: the rewriting under the chain recurses once per statement
set_option maxRecDepth 65536 in
/-- @main is that straight line: its two windows and the functions' definitions unfolded at their calls, the records
    at their fields, both sides are one chain of steps once sequencing is re-associated. -/
theorem main_eq (c : Dev nD) : main (F := F) c = seq ops := by
  simp only [main, main_part0, main_part1, fn_where.body, fn_where_0.body, fn_where_1.body, fn_elu.body, fn_log_softmax.body,
    seq, bind_assoc, pure_bind]

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    unary_bufs_sub .., binary_bufs_sub ..⟩

/-- For any float values, from any memory with zero counters: every weakly fair execution of @main on the TensorCores
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.scatterAdd Host.gather Host.reduce Host.reduceAdd Host.expm1 Host.exp Host.log Host.rsqrt concatenate iotaInDim in
set_option maxRecDepth 65536 in
/-- No operation writes argument 0: the fold leaves it as it was. -/
theorem arg0_eq (V : Valuation τ sig (Elt F)) :
    after ops V (main_arg0 : DevRef τ sig) = V (main_arg0 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation writes argument 1: the fold leaves it as it was. -/
theorem arg1_eq (V : Valuation τ sig (Elt F)) :
    after ops V (main_arg1 : DevRef τ sig) = V (main_arg1 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation writes argument 2: the fold leaves it as it was. -/
theorem arg2_eq (V : Valuation τ sig (Elt F)) :
    after ops V (main_arg2 : DevRef τ sig) = V (main_arg2 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation writes argument 3: the fold leaves it as it was. -/
theorem arg3_eq (V : Valuation τ sig (Elt F)) :
    after ops V (main_arg3 : DevRef τ sig) = V (main_arg3 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation writes argument 4: the fold leaves it as it was. -/
theorem arg4_eq (V : Valuation τ sig (Elt F)) :
    after ops V (main_arg4 : DevRef τ sig) = V (main_arg4 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation writes argument 5: the fold leaves it as it was. -/
theorem arg5_eq (V : Valuation τ sig (Elt F)) :
    after ops V (main_arg5 : DevRef τ sig) = V (main_arg5 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation writes argument 6: the fold leaves it as it was. -/
theorem arg6_eq (V : Valuation τ sig (Elt F)) :
    after ops V (main_arg6 : DevRef τ sig) = V (main_arg6 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation writes argument 7: the fold leaves it as it was. -/
theorem arg7_eq (V : Valuation τ sig (Elt F)) :
    after ops V (main_arg7 : DevRef τ sig) = V (main_arg7 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation writes argument 8: the fold leaves it as it was. -/
theorem arg8_eq (V : Valuation τ sig (Elt F)) :
    after ops V (main_arg8 : DevRef τ sig) = V (main_arg8 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation writes argument 9: the fold leaves it as it was. -/
theorem arg9_eq (V : Valuation τ sig (Elt F)) :
    after ops V (main_arg9 : DevRef τ sig) = V (main_arg9 : DevRef τ sig) := by
  simp only [after_cons, after_nil]
  rfl

open Cert.Spec (Arr)

/-- The number of edges ending in each node, from the edge targets `d`. -/
def degAt (d : Arr F S1650000 .i32) : Arr F S50000 .f32 :=
  Host.scatterAdd scatter_S50000_S1650000x1_S1650000_n_0_0_1
    (broadcastInDim S50000 ![] bcast_S_S50000 (constant S_ .f32 0x00000000#32))
    (broadcastInDim S1650000x1 ![0] bcast_S1650000_S1650000x1_0 d)
    (broadcastInDim S1650000 ![] bcast_S_S1650000 (constant S_ .f32 0x3F800000#32))

/-- The degree to the power `-1/2` where it is positive, `0` elsewhere, from the edge targets `d`. -/
def dinvAt (d : Arr F S1650000 .i32) : Arr F S50000 .f32 :=
  select (cmpf .ogt (degAt d) (broadcastInDim S50000 ![] bcast_S_S50000 (constant S_ .f32 0x00000000#32)))
    (Host.rsqrt (degAt d))
    (broadcastInDim S50000 ![] bcast_S_S50000 (id (constant S_ .f32 0x00000000#32)))

/-- The edge weights `dv (s e) * dv (d e)` from a node array `dv` and the edge ends `s`, `d`. -/
def edgeWAt (dv : Arr F S50000 .f32) (s d : Arr F S1650000 .i32) : Arr F S1650000 .f32 :=
  mulf (Host.gather gather_S50000_S1650000x1_S1650000_n_0_n_n_0_1_1 dv (Cert.Spec.wrapIdx s))
    (Host.gather gather_S50000_S1650000x1_S1650000_n_0_n_n_0_1_1 dv (Cert.Spec.wrapIdx d))

/-- The weighted sum over incoming edges at given edge ends `s`, `d` and edge weights `w`:
    `(aggAt s d w g) v` is the sum over the edges `e` with `d e = v` of `w e * g (s e)`. -/
def aggAt (s d : Arr F S1650000 .i32) (w : Arr F S1650000 .f32) (g : Arr F S50000x128 .f32) : Arr F S50000x128 .f32 :=
  Host.scatterAdd scatter_S50000x128_S1650000x1_S1650000x128_1_0_0_1
    (broadcastInDim S50000x128 ![] bcast_S_S50000x128 (constant S_ .f32 0x00000000#32))
    (broadcastInDim S1650000x1 ![0] bcast_S1650000_S1650000x1_0 d)
    (mulf (Host.gather gather_S50000x128_S1650000x1_S1650000x128_1_0_n_n_0_1_1128 g (Cert.Spec.wrapIdx s))
      (broadcastInDim S1650000x128 ![0, 1] bcast_S1650000x1_S1650000x128_0_1
        (broadcastInDim S1650000x1 ![0] bcast_S1650000_S1650000x1_0 w)))

/-- One layer at given edge ends and weights: `elu (b + aggAt s d w (h W))`. -/
def layerAt (s d : Arr F S1650000 .i32) (w : Arr F S1650000 .f32) (h : Arr F S50000x128 .f32) (W : Arr F S128x128 .f32)
    (b : Arr F S128 .f32) : Arr F S50000x128 .f32 :=
  Cert.Spec.elu (Cert.Spec.addRow (aggAt s d w (Cert.Spec.proj h W)) (Cert.Spec.biasRow b))

/-- The running maximum of each row of the class scores, from minus infinity. -/
def rowMaxRaw (z : Arr F S50000x40 .f32) : Arr F S50000 .f32 :=
  Host.reduce FloatOps.maximumf z (constant S_ .f32 0xFF800000#32) reducesTo_S50000x40_S50000_d1 h_S_

/-- A vector of row maxima, joined with minus infinity, as an array constant along each row. -/
def rowMaxOf (m : Arr F S50000 .f32) : Arr F S50000x40 .f32 :=
  broadcastInDim S50000x40 ![0, 1] bcast_S50000x1_S50000x40_0_1
    (broadcastInDim S50000x1 ![0] bcast_S50000_S50000x1_0
      (maximumf (broadcastInDim S50000 ![] bcast_S_S50000 (constant S_ .f32 0xFF800000#32)) m))

/-- The log-softmax of the rows of `z` given their maxima `m`: with `s = z - m`, the array `s - log (sum (exp s))`. -/
def softmaxTail (z : Arr F S50000x40 .f32) (m : Arr F S50000 .f32) : Arr F S50000x40 .f32 :=
  subf (subf z (rowMaxOf m)) (Cert.Spec.rowLogSum (Host.exp (subf z (rowMaxOf m))))

/-- `Cert.Spec`'s inverse square roots of the degrees, its edge weights and its layer are the ones above at the edge
    list's own ends, and its log-softmax is the one above at the rows' own maxima. -/
theorem dinv_eq (ei : Arr F S2x1600000 .i32) : Cert.Spec.dinv ei = dinvAt (Cert.Spec.dstIdx ei) := rfl
theorem edgeW_eq (ei : Arr F S2x1600000 .i32) :
    Cert.Spec.edgeW ei = edgeWAt (Cert.Spec.dinv ei) (Cert.Spec.srcIdx ei) (Cert.Spec.dstIdx ei) := rfl
theorem layer_eq (ei : Arr F S2x1600000 .i32) (h : Arr F S50000x128 .f32) (W : Arr F S128x128 .f32) (b : Arr F S128 .f32) :
    Cert.Spec.layer ei h W b = layerAt (Cert.Spec.srcIdx ei) (Cert.Spec.dstIdx ei) (Cert.Spec.edgeW ei) h W b := rfl
theorem logSoftmax_eq (z : Arr F S50000x40 .f32) : Cert.Spec.logSoftmax z = softmaxTail z (rowMaxRaw z) := rfl

/-- The fold over two lines one after the other is the second line's fold over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Operations 1 … 7: the edge ends, the given edges followed by the self loops. -/
abbrev sa : List (HloOp τ sig (Elt F)) :=
  [ StableHlo.nullary main_v0 (iotaInDim S50000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) ]

/-- Operations 8 … 21: the degrees and their inverse square roots. -/
abbrev sb : List (HloOp τ sig (Elt F)) :=
  [ StableHlo.nullary main_cst (constant S_ .f32 0x3F800000#32),
    StableHlo.unary main_cst main_v7 (broadcastInDim S1650000 ![] bcast_S_S1650000 : (⟨S_, .f32⟩ : BufTy).Contents (Elt F) → (⟨S1650000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S1650000x1 ![0] bcast_S1650000_S1650000x1_0 : (⟨S1650000, .i32⟩ : BufTy).Contents (Elt F) → (⟨S1650000x1, .i32⟩ : BufTy).Contents (Elt F)),
    StableHlo.ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S50000 ![] bcast_S_S50000),
    StableHlo.TRef.ternary (.of main_v12 : StableHlo.TRef sig ⟨S50000, .i1⟩) (.of main_v13 : StableHlo.TRef sig ⟨S50000, .f32⟩) main_call0.v1 main_call0.v2 select ]

/-- Operations 22 … 40: the edge weights. -/
abbrev sc : List (HloOp τ sig (Elt F)) :=
  [ StableHlo.nullary main_c (constantI S_ 32 0#32),
    StableHlo.unary main_c main_v15 (broadcastInDim S1650000 ![] bcast_S_S1650000 : (⟨S_, .i32⟩ : BufTy).Contents (Elt F) → (⟨S1650000, .i32⟩ : BufTy).Contents (Elt F)),
    StableHlo.binary main_v3 main_v15 main_v16 (cmpi .slt : (⟨S1650000, .i32⟩ : BufTy).Contents (Elt F) → (⟨S1650000, .i32⟩ : BufTy).Contents (Elt F) → (⟨S1650000, .i1⟩ : BufTy).Contents (Elt F)),
    StableHlo.nullary main_c_3 (constantI S_ 32 50000#32),
    StableHlo.unary main_c_3 main_v17 (broadcastInDim S1650000 ![] bcast_S_S1650000 : (⟨S_, .i32⟩ : BufTy).Contents (Elt F) → (⟨S1650000, .i32⟩ : BufTy).Contents (Elt F)),
    StableHlo.binary main_v3 main_v17 main_v18 (addi : (⟨S1650000, .i32⟩ : BufTy).Contents (Elt F) → (⟨S1650000, .i32⟩ : BufTy).Contents (Elt F) → (⟨S1650000, .i32⟩ : BufTy).Contents (Elt F)),
    StableHlo.ternary main_v16 main_v18 main_v3 main_v19 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v19 main_v20 (broadcastInDim S1650000x1 ![0] bcast_S1650000_S1650000x1_0 : (⟨S1650000, .i32⟩ : BufTy).Contents (Elt F) → (⟨S1650000x1, .i32⟩ : BufTy).Contents (Elt F)),
    StableHlo.binary main_v14 main_v20 main_v21 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.nullary main_c_4 (constantI S_ 32 0#32),
    StableHlo.unary main_c_4 main_v22 (broadcastInDim S1650000 ![] bcast_S_S1650000 : (⟨S_, .i32⟩ : BufTy).Contents (Elt F) → (⟨S1650000, .i32⟩ : BufTy).Contents (Elt F)),
    StableHlo.binary main_v6 main_v22 main_v23 (cmpi .slt : (⟨S1650000, .i32⟩ : BufTy).Contents (Elt F) → (⟨S1650000, .i32⟩ : BufTy).Contents (Elt F) → (⟨S1650000, .i1⟩ : BufTy).Contents (Elt F)),
    StableHlo.nullary main_c_5 (constantI S_ 32 50000#32),
    StableHlo.unary main_c_5 main_v24 (broadcastInDim S1650000 ![] bcast_S_S1650000 : (⟨S_, .i32⟩ : BufTy).Contents (Elt F) → (⟨S1650000, .i32⟩ : BufTy).Contents (Elt F)),
    StableHlo.binary main_v6 main_v24 main_v25 (addi : (⟨S1650000, .i32⟩ : BufTy).Contents (Elt F) → (⟨S1650000, .i32⟩ : BufTy).Contents (Elt F) → (⟨S1650000, .i32⟩ : BufTy).Contents (Elt F)),
    StableHlo.ternary main_v23 main_v25 main_v6 main_v26 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v26 main_v27 (broadcastInDim S1650000x1 ![0] bcast_S1650000_S1650000x1_0 : (⟨S1650000, .i32⟩ : BufTy).Contents (Elt F) → (⟨S1650000x1, .i32⟩ : BufTy).Contents (Elt F)),
    StableHlo.binary main_v14 main_v27 main_v28 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.binary main_v21 main_v28 main_v29 (mulf : (⟨S1650000, .f32⟩ : BufTy).Contents (Elt F) → (⟨S1650000, .f32⟩ : BufTy).Contents (Elt F) → (⟨S1650000, .f32⟩ : BufTy).Contents (Elt F)) ]

/-- Operations 41 … 75: the first layer. -/
abbrev l1 : List (HloOp τ sig (Elt F)) :=
  [ StableHlo.binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_6 (constantI S_ 32 0#32),
    StableHlo.unary main_c_6 main_v31 (broadcastInDim S1650000 ![] bcast_S_S1650000 : (⟨S_, .i32⟩ : BufTy).Contents (Elt F) → (⟨S1650000, .i32⟩ : BufTy).Contents (Elt F)),
    StableHlo.binary main_v3 main_v31 main_v32 (cmpi .slt : (⟨S1650000, .i32⟩ : BufTy).Contents (Elt F) → (⟨S1650000, .i32⟩ : BufTy).Contents (Elt F) → (⟨S1650000, .i1⟩ : BufTy).Contents (Elt F)),
    StableHlo.nullary main_c_7 (constantI S_ 32 50000#32),
    StableHlo.unary main_c_7 main_v33 (broadcastInDim S1650000 ![] bcast_S_S1650000 : (⟨S_, .i32⟩ : BufTy).Contents (Elt F) → (⟨S1650000, .i32⟩ : BufTy).Contents (Elt F)),
    StableHlo.binary main_v3 main_v33 main_v34 (addi : (⟨S1650000, .i32⟩ : BufTy).Contents (Elt F) → (⟨S1650000, .i32⟩ : BufTy).Contents (Elt F) → (⟨S1650000, .i32⟩ : BufTy).Contents (Elt F)),
    StableHlo.ternary main_v32 main_v34 main_v3 main_v35 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v35 main_v36 (broadcastInDim S1650000x1 ![0] bcast_S1650000_S1650000x1_0 : (⟨S1650000, .i32⟩ : BufTy).Contents (Elt F) → (⟨S1650000x1, .i32⟩ : BufTy).Contents (Elt F)),
    StableHlo.binary main_v30 main_v36 main_v37 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.unary main_v29 main_v38 (broadcastInDim S1650000x1 ![0] bcast_S1650000_S1650000x1_0 : (⟨S1650000, .f32⟩ : BufTy).Contents (Elt F) → (⟨S1650000x1, .f32⟩ : BufTy).Contents (Elt F)),
    StableHlo.unary main_v38 main_v39 (broadcastInDim S1650000x128 ![0, 1] bcast_S1650000x1_S1650000x128_0_1 : (⟨S1650000x1, .f32⟩ : BufTy).Contents (Elt F) → (⟨S1650000x128, .f32⟩ : BufTy).Contents (Elt F)),
    StableHlo.binary main_v37 main_v39 main_v40 (mulf : (⟨S1650000x128, .f32⟩ : BufTy).Contents (Elt F) → (⟨S1650000x128, .f32⟩ : BufTy).Contents (Elt F) → (⟨S1650000x128, .f32⟩ : BufTy).Contents (Elt F)),
    StableHlo.nullary main_cst_8 (constant S_ .f32 0x00000000#32),
    StableHlo.unary main_cst_8 main_v41 (broadcastInDim S50000x128 ![] bcast_S_S50000x128 : (⟨S_, .f32⟩ : BufTy).Contents (Elt F) → (⟨S50000x128, .f32⟩ : BufTy).Contents (Elt F)),
    StableHlo.unary main_v6 main_v42 (broadcastInDim S1650000x1 ![0] bcast_S1650000_S1650000x1_0 : (⟨S1650000, .i32⟩ : BufTy).Contents (Elt F) → (⟨S1650000x1, .i32⟩ : BufTy).Contents (Elt F)),
    StableHlo.ternary main_v41 main_v42 main_v40 main_v43 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    StableHlo.unary main_arg3 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v46 : StableHlo.TRef sig ⟨S50000x128, .f32⟩) main_call1.v0 main_call1.v1 (cmpf .ogt),
    StableHlo.TRef.nullary main_call1.cst_0 (constant S_ .f32 0x00000000#32),
    StableHlo.TRef.unary main_call1.cst_0 main_call1.v2 (broadcastInDim S50000x128 ![] bcast_S_S50000x128),
    StableHlo.TRef.binary (.of main_v46 : StableHlo.TRef sig ⟨S50000x128, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x128 ![] bcast_S_S50000x128),
    StableHlo.TRef.ternary main_call1.v3 main_call1.call0.v1 (.of main_v46 : StableHlo.TRef sig ⟨S50000x128, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x128 ![] bcast_S_S50000x128),
    StableHlo.TRef.binary main_call1.v6 main_call1.v5 main_call1.v7 mulf,
    StableHlo.TRef.ternary main_call1.v1 (.of main_v46 : StableHlo.TRef sig ⟨S50000x128, .f32⟩) main_call1.v7 main_call1.call1.v0 select ]

/-- Operations 76 … 110: the second layer. -/
abbrev l2 : List (HloOp τ sig (Elt F)) :=
  [ StableHlo.binary main_v47 main_arg4 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_9 (constantI S_ 32 0#32),
    StableHlo.unary main_c_9 main_v49 (broadcastInDim S1650000 ![] bcast_S_S1650000 : (⟨S_, .i32⟩ : BufTy).Contents (Elt F) → (⟨S1650000, .i32⟩ : BufTy).Contents (Elt F)),
    StableHlo.binary main_v3 main_v49 main_v50 (cmpi .slt : (⟨S1650000, .i32⟩ : BufTy).Contents (Elt F) → (⟨S1650000, .i32⟩ : BufTy).Contents (Elt F) → (⟨S1650000, .i1⟩ : BufTy).Contents (Elt F)),
    StableHlo.nullary main_c_10 (constantI S_ 32 50000#32),
    StableHlo.unary main_c_10 main_v51 (broadcastInDim S1650000 ![] bcast_S_S1650000 : (⟨S_, .i32⟩ : BufTy).Contents (Elt F) → (⟨S1650000, .i32⟩ : BufTy).Contents (Elt F)),
    StableHlo.binary main_v3 main_v51 main_v52 (addi : (⟨S1650000, .i32⟩ : BufTy).Contents (Elt F) → (⟨S1650000, .i32⟩ : BufTy).Contents (Elt F) → (⟨S1650000, .i32⟩ : BufTy).Contents (Elt F)),
    StableHlo.ternary main_v50 main_v52 main_v3 main_v53 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v53 main_v54 (broadcastInDim S1650000x1 ![0] bcast_S1650000_S1650000x1_0 : (⟨S1650000, .i32⟩ : BufTy).Contents (Elt F) → (⟨S1650000x1, .i32⟩ : BufTy).Contents (Elt F)),
    StableHlo.binary main_v48 main_v54 main_v55 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.unary main_v29 main_v56 (broadcastInDim S1650000x1 ![0] bcast_S1650000_S1650000x1_0 : (⟨S1650000, .f32⟩ : BufTy).Contents (Elt F) → (⟨S1650000x1, .f32⟩ : BufTy).Contents (Elt F)),
    StableHlo.unary main_v56 main_v57 (broadcastInDim S1650000x128 ![0, 1] bcast_S1650000x1_S1650000x128_0_1 : (⟨S1650000x1, .f32⟩ : BufTy).Contents (Elt F) → (⟨S1650000x128, .f32⟩ : BufTy).Contents (Elt F)),
    StableHlo.binary main_v55 main_v57 main_v58 (mulf : (⟨S1650000x128, .f32⟩ : BufTy).Contents (Elt F) → (⟨S1650000x128, .f32⟩ : BufTy).Contents (Elt F) → (⟨S1650000x128, .f32⟩ : BufTy).Contents (Elt F)),
    StableHlo.nullary main_cst_11 (constant S_ .f32 0x00000000#32),
    StableHlo.unary main_cst_11 main_v59 (broadcastInDim S50000x128 ![] bcast_S_S50000x128 : (⟨S_, .f32⟩ : BufTy).Contents (Elt F) → (⟨S50000x128, .f32⟩ : BufTy).Contents (Elt F)),
    StableHlo.unary main_v6 main_v60 (broadcastInDim S1650000x1 ![0] bcast_S1650000_S1650000x1_0 : (⟨S1650000, .i32⟩ : BufTy).Contents (Elt F) → (⟨S1650000x1, .i32⟩ : BufTy).Contents (Elt F)),
    StableHlo.ternary main_v59 main_v60 main_v58 main_v61 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    StableHlo.unary main_arg5 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v61 main_v63 main_v64 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v64 : StableHlo.TRef sig ⟨S50000x128, .f32⟩) main_call2.v0 main_call2.v1 (cmpf .ogt),
    StableHlo.TRef.nullary main_call2.cst_0 (constant S_ .f32 0x00000000#32),
    StableHlo.TRef.unary main_call2.cst_0 main_call2.v2 (broadcastInDim S50000x128 ![] bcast_S_S50000x128),
    StableHlo.TRef.binary (.of main_v64 : StableHlo.TRef sig ⟨S50000x128, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S50000x128 ![] bcast_S_S50000x128),
    StableHlo.TRef.ternary main_call2.v3 main_call2.call0.v1 (.of main_v64 : StableHlo.TRef sig ⟨S50000x128, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S50000x128 ![] bcast_S_S50000x128),
    StableHlo.TRef.binary main_call2.v6 main_call2.v5 main_call2.v7 mulf,
    StableHlo.TRef.ternary main_call2.v1 (.of main_v64 : StableHlo.TRef sig ⟨S50000x128, .f32⟩) main_call2.v7 main_call2.call1.v0 select ]

/-- Operations 111 … 145: the third layer. -/
abbrev l3 : List (HloOp τ sig (Elt F)) :=
  [ StableHlo.binary main_v65 main_arg6 main_v66 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_12 (constantI S_ 32 0#32),
    StableHlo.unary main_c_12 main_v67 (broadcastInDim S1650000 ![] bcast_S_S1650000 : (⟨S_, .i32⟩ : BufTy).Contents (Elt F) → (⟨S1650000, .i32⟩ : BufTy).Contents (Elt F)),
    StableHlo.binary main_v3 main_v67 main_v68 (cmpi .slt : (⟨S1650000, .i32⟩ : BufTy).Contents (Elt F) → (⟨S1650000, .i32⟩ : BufTy).Contents (Elt F) → (⟨S1650000, .i1⟩ : BufTy).Contents (Elt F)),
    StableHlo.nullary main_c_13 (constantI S_ 32 50000#32),
    StableHlo.unary main_c_13 main_v69 (broadcastInDim S1650000 ![] bcast_S_S1650000 : (⟨S_, .i32⟩ : BufTy).Contents (Elt F) → (⟨S1650000, .i32⟩ : BufTy).Contents (Elt F)),
    StableHlo.binary main_v3 main_v69 main_v70 (addi : (⟨S1650000, .i32⟩ : BufTy).Contents (Elt F) → (⟨S1650000, .i32⟩ : BufTy).Contents (Elt F) → (⟨S1650000, .i32⟩ : BufTy).Contents (Elt F)),
    StableHlo.ternary main_v68 main_v70 main_v3 main_v71 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v71 main_v72 (broadcastInDim S1650000x1 ![0] bcast_S1650000_S1650000x1_0 : (⟨S1650000, .i32⟩ : BufTy).Contents (Elt F) → (⟨S1650000x1, .i32⟩ : BufTy).Contents (Elt F)),
    StableHlo.binary main_v66 main_v72 main_v73 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.unary main_v29 main_v74 (broadcastInDim S1650000x1 ![0] bcast_S1650000_S1650000x1_0 : (⟨S1650000, .f32⟩ : BufTy).Contents (Elt F) → (⟨S1650000x1, .f32⟩ : BufTy).Contents (Elt F)),
    StableHlo.unary main_v74 main_v75 (broadcastInDim S1650000x128 ![0, 1] bcast_S1650000x1_S1650000x128_0_1 : (⟨S1650000x1, .f32⟩ : BufTy).Contents (Elt F) → (⟨S1650000x128, .f32⟩ : BufTy).Contents (Elt F)),
    StableHlo.binary main_v73 main_v75 main_v76 (mulf : (⟨S1650000x128, .f32⟩ : BufTy).Contents (Elt F) → (⟨S1650000x128, .f32⟩ : BufTy).Contents (Elt F) → (⟨S1650000x128, .f32⟩ : BufTy).Contents (Elt F)),
    StableHlo.nullary main_cst_14 (constant S_ .f32 0x00000000#32),
    StableHlo.unary main_cst_14 main_v77 (broadcastInDim S50000x128 ![] bcast_S_S50000x128 : (⟨S_, .f32⟩ : BufTy).Contents (Elt F) → (⟨S50000x128, .f32⟩ : BufTy).Contents (Elt F)),
    StableHlo.unary main_v6 main_v78 (broadcastInDim S1650000x1 ![0] bcast_S1650000_S1650000x1_0 : (⟨S1650000, .i32⟩ : BufTy).Contents (Elt F) → (⟨S1650000x1, .i32⟩ : BufTy).Contents (Elt F)),
    StableHlo.ternary main_v77 main_v78 main_v76 main_v79 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    StableHlo.unary main_arg7 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S50000x128 ![0, 1] bcast_S1x128_S50000x128_0_1 : (⟨S1x128, .f32⟩ : BufTy).Contents (Elt F) → (⟨S50000x128, .f32⟩ : BufTy).Contents (Elt F)),
    StableHlo.binary main_v79 main_v81 main_v82 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v82 : StableHlo.TRef sig ⟨S50000x128, .f32⟩) main_call3.v0 main_call3.v1 (cmpf .ogt),
    StableHlo.TRef.nullary main_call3.cst_0 (constant S_ .f32 0x00000000#32),
    StableHlo.TRef.unary main_call3.cst_0 main_call3.v2 (broadcastInDim S50000x128 ![] bcast_S_S50000x128),
    StableHlo.TRef.binary (.of main_v82 : StableHlo.TRef sig ⟨S50000x128, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x128 ![] bcast_S_S50000x128),
    StableHlo.TRef.ternary main_call3.v3 main_call3.call0.v1 (.of main_v82 : StableHlo.TRef sig ⟨S50000x128, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x128 ![] bcast_S_S50000x128),
    StableHlo.TRef.binary main_call3.v6 main_call3.v5 main_call3.v7 mulf,
    StableHlo.TRef.ternary main_call3.v1 (.of main_v82 : StableHlo.TRef sig ⟨S50000x128, .f32⟩) main_call3.v7 main_call3.call1.v0 select ]

/-- Operations 146 … 151: the class scores and the running maximum of each of their rows. -/
abbrev lsa : List (HloOp τ sig (Elt F)) :=
  [ StableHlo.binary main_v83 main_arg8 main_v84 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    StableHlo.unary main_arg9 main_v85 (broadcastInDim S1x40 ![1] bcast_S40_S1x40_1 : (⟨S40, .f32⟩ : BufTy).Contents (Elt F) → (⟨S1x40, .f32⟩ : BufTy).Contents (Elt F)),
    StableHlo.unary main_v85 main_v86 (broadcastInDim S50000x40 ![0, 1] bcast_S1x40_S50000x40_0_1 : (⟨S1x40, .f32⟩ : BufTy).Contents (Elt F) → (⟨S50000x40, .f32⟩ : BufTy).Contents (Elt F)),
    StableHlo.binary main_v84 main_v86 main_v87 (addf : (⟨S50000x40, .f32⟩ : BufTy).Contents (Elt F) → (⟨S50000x40, .f32⟩ : BufTy).Contents (Elt F) → (⟨S50000x40, .f32⟩ : BufTy).Contents (Elt F)),
    StableHlo.TRef.nullary main_call4.cst (constant S_ .f32 0xFF800000#32),
    StableHlo.TRef.binary (.of main_v87 : StableHlo.TRef sig ⟨S50000x40, .f32⟩) main_call4.cst main_call4.v0 (fun x v => Host.reduce FloatOps.maximumf x v reducesTo_S50000x40_S50000_d1 h_S_) ]

/-- Operations 152 … 164: the row-wise log-softmax from the class scores and their rows' maxima. -/
abbrev lsb : List (HloOp τ sig (Elt F)) :=
  [ StableHlo.TRef.nullary main_call4.cst_0 (constant S_ .f32 0xFF800000#32),
    StableHlo.TRef.unary main_call4.cst_0 main_call4.v1 (broadcastInDim S50000 ![] bcast_S_S50000),
    StableHlo.TRef.binary main_call4.v1 main_call4.v0 main_call4.v2 maximumf,
    StableHlo.TRef.unary main_call4.v2 main_call4.v3 (broadcastInDim S50000x1 ![0] bcast_S50000_S50000x1_0),
    StableHlo.TRef.unary main_call4.v3 main_call4.v4 (broadcastInDim S50000x40 ![0, 1] bcast_S50000x1_S50000x40_0_1),
    StableHlo.TRef.binary (.of main_v87 : StableHlo.TRef sig ⟨S50000x40, .f32⟩) main_call4.v4 main_call4.v5 subf,
    StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S50000x40_S50000_d1 h_S_),
    StableHlo.TRef.unary main_call4.v7 main_call4.v8 (broadcastInDim S50000x1 ![0] bcast_S50000_S50000x1_0),
    StableHlo.TRef.unary main_call4.v8 main_call4.v9 Host.log,
    StableHlo.TRef.unary main_call4.v9 main_call4.v10 (broadcastInDim S50000x40 ![0, 1] bcast_S50000x1_S50000x40_0_1),
    StableHlo.TRef.binary main_call4.v5 main_call4.v10 main_call4.v11 subf ]

/-- The line is its eight parts in order. -/
theorem ops_split : (ops : List (HloOp τ sig (Elt F))) = sa ++ (sb ++ (sc ++ (l1 ++ (l2 ++ (l3 ++ (lsa ++ lsb)))))) := rfl

/-! Each part at an arbitrary valuation `V` of the buffers before it: what it leaves at the buffers later parts read,
    as its stage of the network applied to `V` at the buffers it reads; and the buffers it leaves alone. -/

attribute [local irreducible] Host.scatterAdd Host.gather Host.reduce Host.reduceAdd Host.expm1 Host.exp Host.log Host.rsqrt concatenate iotaInDim in
set_option maxRecDepth 65536 in
/-- The first part leaves the sources of the 1650000 edges. -/
theorem sa_src (V : Valuation τ sig (Elt F)) :
    after sa V (main_v3 : DevRef τ sig) = Cert.Spec.srcIdx (V (main_arg1 : DevRef τ sig)) := by
  simp only [after_cons, after_nil]
  rfl

attribute [local irreducible] Host.scatterAdd Host.gather Host.reduce Host.reduceAdd Host.expm1 Host.exp Host.log Host.rsqrt concatenate iotaInDim in
set_option maxRecDepth 65536 in
/-- The first part leaves the targets of the 1650000 edges. -/
theorem sa_dst (V : Valuation τ sig (Elt F)) :
    after sa V (main_v6 : DevRef τ sig) = Cert.Spec.dstIdx (V (main_arg1 : DevRef τ sig)) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 0. -/
theorem sa_arg0 (V : Valuation τ sig (Elt F)) :
    after sa V (main_arg0 : DevRef τ sig) = V (main_arg0 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 2. -/
theorem sa_arg2 (V : Valuation τ sig (Elt F)) :
    after sa V (main_arg2 : DevRef τ sig) = V (main_arg2 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 3. -/
theorem sa_arg3 (V : Valuation τ sig (Elt F)) :
    after sa V (main_arg3 : DevRef τ sig) = V (main_arg3 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 4. -/
theorem sa_arg4 (V : Valuation τ sig (Elt F)) :
    after sa V (main_arg4 : DevRef τ sig) = V (main_arg4 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 5. -/
theorem sa_arg5 (V : Valuation τ sig (Elt F)) :
    after sa V (main_arg5 : DevRef τ sig) = V (main_arg5 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 6. -/
theorem sa_arg6 (V : Valuation τ sig (Elt F)) :
    after sa V (main_arg6 : DevRef τ sig) = V (main_arg6 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 7. -/
theorem sa_arg7 (V : Valuation τ sig (Elt F)) :
    after sa V (main_arg7 : DevRef τ sig) = V (main_arg7 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 8. -/
theorem sa_arg8 (V : Valuation τ sig (Elt F)) :
    after sa V (main_arg8 : DevRef τ sig) = V (main_arg8 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 9. -/
theorem sa_arg9 (V : Valuation τ sig (Elt F)) :
    after sa V (main_arg9 : DevRef τ sig) = V (main_arg9 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- The second part leaves the inverse square roots of the degrees, counted from the edge targets in place. -/
theorem sb_dinv (V : Valuation τ sig (Elt F)) :
    after sb V (main_v14 : DevRef τ sig) = dinvAt (V (main_v6 : DevRef τ sig)) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes the edge sources. -/
theorem sb_v3 (V : Valuation τ sig (Elt F)) :
    after sb V (main_v3 : DevRef τ sig) = V (main_v3 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes the edge targets. -/
theorem sb_v6 (V : Valuation τ sig (Elt F)) :
    after sb V (main_v6 : DevRef τ sig) = V (main_v6 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 0. -/
theorem sb_arg0 (V : Valuation τ sig (Elt F)) :
    after sb V (main_arg0 : DevRef τ sig) = V (main_arg0 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 2. -/
theorem sb_arg2 (V : Valuation τ sig (Elt F)) :
    after sb V (main_arg2 : DevRef τ sig) = V (main_arg2 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 3. -/
theorem sb_arg3 (V : Valuation τ sig (Elt F)) :
    after sb V (main_arg3 : DevRef τ sig) = V (main_arg3 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 4. -/
theorem sb_arg4 (V : Valuation τ sig (Elt F)) :
    after sb V (main_arg4 : DevRef τ sig) = V (main_arg4 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 5. -/
theorem sb_arg5 (V : Valuation τ sig (Elt F)) :
    after sb V (main_arg5 : DevRef τ sig) = V (main_arg5 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 6. -/
theorem sb_arg6 (V : Valuation τ sig (Elt F)) :
    after sb V (main_arg6 : DevRef τ sig) = V (main_arg6 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 7. -/
theorem sb_arg7 (V : Valuation τ sig (Elt F)) :
    after sb V (main_arg7 : DevRef τ sig) = V (main_arg7 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 8. -/
theorem sb_arg8 (V : Valuation τ sig (Elt F)) :
    after sb V (main_arg8 : DevRef τ sig) = V (main_arg8 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 9. -/
theorem sb_arg9 (V : Valuation τ sig (Elt F)) :
    after sb V (main_arg9 : DevRef τ sig) = V (main_arg9 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- The third part leaves the edge weights, from the node array and the edge ends in place. -/
theorem sc_w (V : Valuation τ sig (Elt F)) :
    after sc V (main_v29 : DevRef τ sig) = edgeWAt (V (main_v14 : DevRef τ sig)) (V (main_v3 : DevRef τ sig)) (V (main_v6 : DevRef τ sig)) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes the edge sources. -/
theorem sc_v3 (V : Valuation τ sig (Elt F)) :
    after sc V (main_v3 : DevRef τ sig) = V (main_v3 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes the edge targets. -/
theorem sc_v6 (V : Valuation τ sig (Elt F)) :
    after sc V (main_v6 : DevRef τ sig) = V (main_v6 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 0. -/
theorem sc_arg0 (V : Valuation τ sig (Elt F)) :
    after sc V (main_arg0 : DevRef τ sig) = V (main_arg0 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 2. -/
theorem sc_arg2 (V : Valuation τ sig (Elt F)) :
    after sc V (main_arg2 : DevRef τ sig) = V (main_arg2 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 3. -/
theorem sc_arg3 (V : Valuation τ sig (Elt F)) :
    after sc V (main_arg3 : DevRef τ sig) = V (main_arg3 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 4. -/
theorem sc_arg4 (V : Valuation τ sig (Elt F)) :
    after sc V (main_arg4 : DevRef τ sig) = V (main_arg4 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 5. -/
theorem sc_arg5 (V : Valuation τ sig (Elt F)) :
    after sc V (main_arg5 : DevRef τ sig) = V (main_arg5 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 6. -/
theorem sc_arg6 (V : Valuation τ sig (Elt F)) :
    after sc V (main_arg6 : DevRef τ sig) = V (main_arg6 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 7. -/
theorem sc_arg7 (V : Valuation τ sig (Elt F)) :
    after sc V (main_arg7 : DevRef τ sig) = V (main_arg7 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 8. -/
theorem sc_arg8 (V : Valuation τ sig (Elt F)) :
    after sc V (main_arg8 : DevRef τ sig) = V (main_arg8 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 9. -/
theorem sc_arg9 (V : Valuation τ sig (Elt F)) :
    after sc V (main_arg9 : DevRef τ sig) = V (main_arg9 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- The first layer's result: the layer at the edge ends and weights in place, of the features and the first weights and bias. -/
theorem l1_out (V : Valuation τ sig (Elt F)) :
    after l1 V (main_v47 : DevRef τ sig) = layerAt (V (main_v3 : DevRef τ sig)) (V (main_v6 : DevRef τ sig)) (V (main_v29 : DevRef τ sig))
          (V (main_arg0 : DevRef τ sig)) (V (main_arg2 : DevRef τ sig)) (V (main_arg3 : DevRef τ sig)) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes the edge sources. -/
theorem l1_v3 (V : Valuation τ sig (Elt F)) :
    after l1 V (main_v3 : DevRef τ sig) = V (main_v3 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes the edge targets. -/
theorem l1_v6 (V : Valuation τ sig (Elt F)) :
    after l1 V (main_v6 : DevRef τ sig) = V (main_v6 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes the edge weights. -/
theorem l1_v29 (V : Valuation τ sig (Elt F)) :
    after l1 V (main_v29 : DevRef τ sig) = V (main_v29 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 4. -/
theorem l1_arg4 (V : Valuation τ sig (Elt F)) :
    after l1 V (main_arg4 : DevRef τ sig) = V (main_arg4 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 5. -/
theorem l1_arg5 (V : Valuation τ sig (Elt F)) :
    after l1 V (main_arg5 : DevRef τ sig) = V (main_arg5 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 6. -/
theorem l1_arg6 (V : Valuation τ sig (Elt F)) :
    after l1 V (main_arg6 : DevRef τ sig) = V (main_arg6 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 7. -/
theorem l1_arg7 (V : Valuation τ sig (Elt F)) :
    after l1 V (main_arg7 : DevRef τ sig) = V (main_arg7 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 8. -/
theorem l1_arg8 (V : Valuation τ sig (Elt F)) :
    after l1 V (main_arg8 : DevRef τ sig) = V (main_arg8 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 9. -/
theorem l1_arg9 (V : Valuation τ sig (Elt F)) :
    after l1 V (main_arg9 : DevRef τ sig) = V (main_arg9 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- The second layer's result, of the first layer's and the second weights and bias. -/
theorem l2_out (V : Valuation τ sig (Elt F)) :
    after l2 V (main_v65 : DevRef τ sig) = layerAt (V (main_v3 : DevRef τ sig)) (V (main_v6 : DevRef τ sig)) (V (main_v29 : DevRef τ sig))
          (V (main_v47 : DevRef τ sig)) (V (main_arg4 : DevRef τ sig)) (V (main_arg5 : DevRef τ sig)) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes the edge sources. -/
theorem l2_v3 (V : Valuation τ sig (Elt F)) :
    after l2 V (main_v3 : DevRef τ sig) = V (main_v3 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes the edge targets. -/
theorem l2_v6 (V : Valuation τ sig (Elt F)) :
    after l2 V (main_v6 : DevRef τ sig) = V (main_v6 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes the edge weights. -/
theorem l2_v29 (V : Valuation τ sig (Elt F)) :
    after l2 V (main_v29 : DevRef τ sig) = V (main_v29 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 6. -/
theorem l2_arg6 (V : Valuation τ sig (Elt F)) :
    after l2 V (main_arg6 : DevRef τ sig) = V (main_arg6 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 7. -/
theorem l2_arg7 (V : Valuation τ sig (Elt F)) :
    after l2 V (main_arg7 : DevRef τ sig) = V (main_arg7 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 8. -/
theorem l2_arg8 (V : Valuation τ sig (Elt F)) :
    after l2 V (main_arg8 : DevRef τ sig) = V (main_arg8 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 9. -/
theorem l2_arg9 (V : Valuation τ sig (Elt F)) :
    after l2 V (main_arg9 : DevRef τ sig) = V (main_arg9 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- The third layer's result, of the second layer's and the third weights and bias. -/
theorem l3_out (V : Valuation τ sig (Elt F)) :
    after l3 V (main_v83 : DevRef τ sig) = layerAt (V (main_v3 : DevRef τ sig)) (V (main_v6 : DevRef τ sig)) (V (main_v29 : DevRef τ sig))
          (V (main_v65 : DevRef τ sig)) (V (main_arg6 : DevRef τ sig)) (V (main_arg7 : DevRef τ sig)) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 8. -/
theorem l3_arg8 (V : Valuation τ sig (Elt F)) :
    after l3 V (main_arg8 : DevRef τ sig) = V (main_arg8 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- No operation of this part writes argument 9. -/
theorem l3_arg9 (V : Valuation τ sig (Elt F)) :
    after l3 V (main_arg9 : DevRef τ sig) = V (main_arg9 : DevRef τ sig) := by
  simp only [after_cons, after_nil]
  rfl

attribute [local irreducible] Host.scatterAdd Host.gather Host.reduce Host.reduceAdd Host.expm1 Host.exp Host.log Host.rsqrt concatenate iotaInDim in
set_option maxRecDepth 65536 in
/-- The class scores of the third layer's result. -/
theorem lsa_z (V : Valuation τ sig (Elt F)) :
    after lsa V (main_v87 : DevRef τ sig) = (Cert.Spec.logits (V (main_v83 : DevRef τ sig)) (V (main_arg8 : DevRef τ sig)) (Cert.Spec.biasRow40 (V (main_arg9 : DevRef τ sig)))) := by
  simp only [after_cons, after_nil]
  rfl

attribute [local irreducible] Host.scatterAdd Host.gather Host.reduce Host.reduceAdd Host.expm1 Host.exp Host.log Host.rsqrt concatenate iotaInDim in
set_option maxRecDepth 65536 in
/-- The running maximum of each row of the class scores. -/
theorem lsa_m (V : Valuation τ sig (Elt F)) :
    after lsa V (main_call4_v0 : DevRef τ sig) = rowMaxRaw (Cert.Spec.logits (V (main_v83 : DevRef τ sig)) (V (main_arg8 : DevRef τ sig)) (Cert.Spec.biasRow40 (V (main_arg9 : DevRef τ sig)))) := by
  simp only [after_cons, after_nil]
  rfl

attribute [local irreducible] Host.scatterAdd Host.gather Host.reduce Host.reduceAdd Host.expm1 Host.exp Host.log Host.rsqrt concatenate iotaInDim in
set_option maxRecDepth 65536 in
/-- The last part's result: the log-softmax of the rows of the scores in place, given their maxima in place. -/
theorem lsb_out (V : Valuation τ sig (Elt F)) :
    after lsb V (main_v88 : DevRef τ sig) = softmaxTail (V (main_v87 : DevRef τ sig)) (V (main_call4_v0 : DevRef τ sig)) := by
  simp only [after_cons, after_nil]
  rfl

/-- The fold at the result buffer is the network of `Cert.Spec.gcn` on the arguments: part by part from the last, each
    part's result is its stage of the network applied to what the parts before it left, and what a part does not write
    it leaves; the stages are then `Cert.Spec`'s at the argument's own edge ends and the scores' own row maxima. -/
theorem out_eq (V : Valuation τ sig (Elt F)) :
    after ops V (main_v88 : DevRef τ sig)
      = Cert.Spec.gcn (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  rw [ops_split, after_app, after_app, after_app, after_app, after_app, after_app, after_app]
  rw [lsb_out, lsa_z, lsa_m, l3_out, l3_arg8, l3_arg9]
  rw [l2_out, l2_v3, l2_v6, l2_v29, l2_arg6, l2_arg7, l2_arg8, l2_arg9]
  rw [l1_out, l1_v3, l1_v6, l1_v29, l1_arg4, l1_arg5, l1_arg6, l1_arg7, l1_arg8, l1_arg9]
  rw [sc_w, sc_v3, sc_v6, sc_arg0, sc_arg2, sc_arg3, sc_arg4, sc_arg5, sc_arg6, sc_arg7, sc_arg8, sc_arg9]
  rw [sb_dinv, sb_v3, sb_v6, sb_arg0, sb_arg2, sb_arg3, sb_arg4, sb_arg5, sb_arg6, sb_arg7, sb_arg8, sb_arg9]
  rw [sa_src, sa_dst, sa_arg0, sa_arg2, sa_arg3, sa_arg4, sa_arg5, sa_arg6, sa_arg7, sa_arg8, sa_arg9]
  rw [Cert.Spec.gcn, logSoftmax_eq, layer_eq, layer_eq, layer_eq, edgeW_eq, dinv_eq]

end Cert.ReferenceIdeal.RefRun

end
-- ==== Proof.lean ====
/-
  A three-layer graph convolution network with a log-softmax classifier: the kernel's program against its reference.

  Both programs build the same edge list with self loops and the same edge weights with the host's gather and
  scatter-add. The kernel's program computes the three dense projections, the bias-and-unit stages and the final
  classifier in seven grid regions of 5000 rows each, where the reference uses whole-array host operations.
  Over the extended reals each region's output is the whole-array operation of its inputs (a product of matrices is
  the same sum whatever the tiling; the unit `exp z - 1` is `1 * expm1 z` where `z ≤ 0`; the row maximum folded from
  -inf absorbs the reference's extra maximum with -inf), so both programs end with the one function `Cert.Spec.gcn` of
  the argument arrays. No law used needs the inputs to be finite.

  The frames of the two kernel programs are the generated ones; the reference's frame is its run with the result
  dropped; the conjunct about the kernel's idealization is `True`, its ledger of rewrites being empty.
-/
import proofs.«163357_j128849019557_1_alg».proof.Defs
import proofs.«163357_j128849019557_1_alg».proof.Proof.Gen.Kernel
import proofs.«163357_j128849019557_1_alg».proof.Proof.Gen.Kernel.Frame
import proofs.«163357_j128849019557_1_alg».proof.Proof.Gen.KernelIdeal
import proofs.«163357_j128849019557_1_alg».proof.Proof.Gen.KernelIdeal.Frame
import proofs.«163357_j128849019557_1_alg».proof.Proof.Gen.ReferenceIdeal
import proofs.«163357_j128849019557_1_alg».proof.Proof.Gen.Pre_finite_inputs
import proofs.«163357_j128849019557_1_alg».proof.Proof.Spec
import proofs.«163357_j128849019557_1_alg».proof.Proof.KRun
import proofs.«163357_j128849019557_1_alg».proof.Proof.KChain
import proofs.«163357_j128849019557_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run leaves every argument array as launched. -/
theorem frame_ri : Cert.frame_ReferenceIdeal := fun m ρ _ =>
  (θ_run Cert.ReferenceIdeal.defs _ _).mono (fun r h c =>
    ⟨(h c _).trans (Cert.ReferenceIdeal.RefRun.arg0_eq _), (h c _).trans (Cert.ReferenceIdeal.RefRun.arg1_eq _),
     (h c _).trans (Cert.ReferenceIdeal.RefRun.arg2_eq _), (h c _).trans (Cert.ReferenceIdeal.RefRun.arg3_eq _),
     (h c _).trans (Cert.ReferenceIdeal.RefRun.arg4_eq _), (h c _).trans (Cert.ReferenceIdeal.RefRun.arg5_eq _),
     (h c _).trans (Cert.ReferenceIdeal.RefRun.arg6_eq _), (h c _).trans (Cert.ReferenceIdeal.RefRun.arg7_eq _),
     (h c _).trans (Cert.ReferenceIdeal.RefRun.arg8_eq _), (h c _).trans (Cert.ReferenceIdeal.RefRun.arg9_eq _)⟩)
    (Cert.ReferenceIdeal.RefRun.run_main (F := Ideal) m ρ)

/-- Both programs end with the network `Cert.Spec.gcn` of the argument arrays. -/
theorem algebraic : Cert.algebraic_KernelIdeal_ReferenceIdeal := by
  intro m ρ m' ρ' _ hagree
  refine ⟨fun c => Cert.Spec.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.KernelIdeal.Chain.W14_v77 m ρ c), (h c).2⟩)
      (Cert.KernelIdeal.Valued.run (F := Ideal) m ρ)
  · refine (θ_run Cert.ReferenceIdeal.defs _ _).mono (fun r h c =>
      ⟨?_, (h c _).trans (Cert.ReferenceIdeal.RefRun.arg0_eq _), (h c _).trans (Cert.ReferenceIdeal.RefRun.arg1_eq _),
       (h c _).trans (Cert.ReferenceIdeal.RefRun.arg2_eq _), (h c _).trans (Cert.ReferenceIdeal.RefRun.arg3_eq _),
       (h c _).trans (Cert.ReferenceIdeal.RefRun.arg4_eq _), (h c _).trans (Cert.ReferenceIdeal.RefRun.arg5_eq _),
       (h c _).trans (Cert.ReferenceIdeal.RefRun.arg6_eq _), (h c _).trans (Cert.ReferenceIdeal.RefRun.arg7_eq _),
       (h c _).trans (Cert.ReferenceIdeal.RefRun.arg8_eq _), (h c _).trans (Cert.ReferenceIdeal.RefRun.arg9_eq _)⟩)
      (Cert.ReferenceIdeal.RefRun.run_main (F := Ideal) m' ρ')
    obtain ⟨e0, e1, e2, e3, e4, e5, e6, e7, e8, e9⟩ := hagree c
    refine (h c Cert.ReferenceIdeal.main_v88).trans ((Cert.ReferenceIdeal.RefRun.out_eq _).trans ?_)
    show Cert.Spec.gcn (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
